-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32x56x56 : Shape := ⟨4, ![2, 32, 56, 56]⟩
abbrev S64x32x3x3 : Shape := ⟨4, ![64, 32, 3, 3]⟩
abbrev S_ : Shape := ⟨0, ![]⟩
abbrev S64x32x1x1 : Shape := ⟨4, ![64, 32, 1, 1]⟩

class Facts : Prop where
  bcast_S_S2x32x56x56 : S_.BroadcastsInDim S2x32x56x56 (![] : Fin 0 → Fin S2x32x56x56.rank)
  reducesTo_S2x32x56x56_S_d0_1_2_3 : S2x32x56x56.ReducesTo [0, 1, 2, 3] S_
  h_S_ : 0 < S_.numel
  bcast_S_S64x32x3x3 : S_.BroadcastsInDim S64x32x3x3 (![] : Fin 0 → Fin S64x32x3x3.rank)
  reducesTo_S64x32x3x3_S_d0_1_2_3 : S64x32x3x3.ReducesTo [0, 1, 2, 3] S_
  slices_S64x32x3x3_S64x32x1x1_0_0_2_1 : S64x32x3x3.Slices ![0, 0, 2, 1] S64x32x1x1
  bcast_S_S64x32x1x1 : S_.BroadcastsInDim S64x32x1x1 (![] : Fin 0 → Fin S64x32x1x1.rank)
  reducesTo_S64x32x1x1_S_d0_1_2_3 : S64x32x1x1.ReducesTo [0, 1, 2, 3] S_
  slices_S64x32x3x3_S64x32x1x1_0_0_1_2 : S64x32x3x3.Slices ![0, 0, 1, 2] S64x32x1x1
  slices_S64x32x3x3_S64x32x1x1_0_0_1_1 : S64x32x3x3.Slices ![0, 0, 1, 1] S64x32x1x1

variable [Facts]

def fn_part1 {F : FTy → Type} [FloatOps F] (main_arg1 : FVec F S64x32x3x3 .f32) (main_v13 : IVec S_ 1) (main_v16 : IVec S64x32x1x1 1) : IVec S_ 1 :=
  let main_c_5 : IVec S_ 1 := constantI S_ 1 1#1
  let main_v17 : IVec S_ 1 := (fun x v => Host.reduce IntOp.andi x v reducesTo_S64x32x1x1_S_d0_1_2_3 h_S_) main_v16 main_c_5
  let main_v18 : IVec S_ 1 := andi main_v13 main_v17
  let main_v19 : FVec F S64x32x1x1 .f32 := (extractStridedSlice S64x32x1x1 ![0, 0, 1, 1] · slices_S64x32x3x3_S64x32x1x1_0_0_1_1) main_arg1
  let main_cst_6 : FVec F S_ .f32 := constant S_ .f32 0x00000000#32
  let main_v20 : FVec F S64x32x1x1 .f32 := broadcastInDim S64x32x1x1 ![] bcast_S_S64x32x1x1 main_cst_6
  let main_v21 : IVec S64x32x1x1 1 := cmpf .une main_v19 main_v20
  let main_c_7 : IVec S_ 1 := constantI S_ 1 1#1
  let main_v22 : IVec S_ 1 := (fun x v => Host.reduce IntOp.andi x v reducesTo_S64x32x1x1_S_d0_1_2_3 h_S_) main_v21 main_c_7
  let main_v23 : IVec S_ 1 := andi main_v18 main_v22
  main_v23

def fn {F : FTy → Type} [FloatOps F] (main_arg0 : FVec F S2x32x56x56 .f32) (main_arg1 : FVec F S64x32x3x3 .f32) : IVec S_ 1 :=
  let main_v0 : FVec F S2x32x56x56 .f32 := Host.absf main_arg0
  let main_cst : FVec F S_ .f32 := constant S_ .f32 0x7F800000#32
  let main_v1 : FVec F S2x32x56x56 .f32 := broadcastInDim S2x32x56x56 ![] bcast_S_S2x32x56x56 main_cst
  let main_v2 : IVec S2x32x56x56 1 := cmpf .olt main_v0 main_v1
  let main_c : IVec S_ 1 := constantI S_ 1 1#1
  let main_v3 : IVec S_ 1 := (fun x v => Host.reduce IntOp.andi x v reducesTo_S2x32x56x56_S_d0_1_2_3 h_S_) main_v2 main_c
  let main_v4 : FVec F S64x32x3x3 .f32 := Host.absf main_arg1
  let main_cst_0 : FVec F S_ .f32 := constant S_ .f32 0x7F800000#32
  let main_v5 : FVec F S64x32x3x3 .f32 := broadcastInDim S64x32x3x3 ![] bcast_S_S64x32x3x3 main_cst_0
  let main_v6 : IVec S64x32x3x3 1 := cmpf .olt main_v4 main_v5
  let main_c_1 : IVec S_ 1 := constantI S_ 1 1#1
  let main_v7 : IVec S_ 1 := (fun x v => Host.reduce IntOp.andi x v reducesTo_S64x32x3x3_S_d0_1_2_3 h_S_) main_v6 main_c_1
  let main_v8 : IVec S_ 1 := andi main_v3 main_v7
  let main_v9 : FVec F S64x32x1x1 .f32 := (extractStridedSlice S64x32x1x1 ![0, 0, 2, 1] · slices_S64x32x3x3_S64x32x1x1_0_0_2_1) main_arg1
  let main_cst_2 : FVec F S_ .f32 := constant S_ .f32 0x00000000#32
  let main_v10 : FVec F S64x32x1x1 .f32 := broadcastInDim S64x32x1x1 ![] bcast_S_S64x32x1x1 main_cst_2
  let main_v11 : IVec S64x32x1x1 1 := cmpf .une main_v9 main_v10
  let main_c_3 : IVec S_ 1 := constantI S_ 1 1#1
  let main_v12 : IVec S_ 1 := (fun x v => Host.reduce IntOp.andi x v reducesTo_S64x32x1x1_S_d0_1_2_3 h_S_) main_v11 main_c_3
  let main_v13 : IVec S_ 1 := andi main_v8 main_v12
  let main_v14 : FVec F S64x32x1x1 .f32 := (extractStridedSlice S64x32x1x1 ![0, 0, 1, 2] · slices_S64x32x3x3_S64x32x1x1_0_0_1_2) main_arg1
  let main_cst_4 : FVec F S_ .f32 := constant S_ .f32 0x00000000#32
  let main_v15 : FVec F S64x32x1x1 .f32 := broadcastInDim S64x32x1x1 ![] bcast_S_S64x32x1x1 main_cst_4
  let main_v16 : IVec S64x32x1x1 1 := cmpf .une main_v14 main_v15
  fn_part1 (F := F) main_arg1 main_v13 main_v16
-- ==== Kernel.lean ====
abbrev S2x32x56x56 : Shape := ⟨4, ![2, 32, 56, 56]⟩
abbrev S64x32x3x3 : Shape := ⟨4, ![64, 32, 3, 3]⟩
abbrev S64x32x1x1 : Shape := ⟨4, ![64, 32, 1, 1]⟩
abbrev S64x32 : Shape := ⟨2, ![64, 32]⟩
abbrev S_ : Shape := ⟨0, ![]⟩
abbrev S1x64x32 : Shape := ⟨3, ![1, 64, 32]⟩
abbrev S9x64x32 : Shape := ⟨3, ![9, 64, 32]⟩
abbrev S2x32x58x58 : Shape := ⟨4, ![2, 32, 58, 58]⟩
abbrev S2x64x56x56 : Shape := ⟨4, ![2, 64, 56, 56]⟩
abbrev S1x32x58x58 : Shape := ⟨4, ![1, 32, 58, 58]⟩
abbrev S1x64x56x56 : Shape := ⟨4, ![1, 64, 56, 56]⟩
abbrev S32x58x58 : Shape := ⟨3, ![32, 58, 58]⟩
abbrev S64x3136 : Shape := ⟨2, ![64, 3136]⟩
abbrev S32x56x56 : Shape := ⟨3, ![32, 56, 56]⟩
abbrev S32x3136 : Shape := ⟨2, ![32, 3136]⟩
abbrev S64x56x56 : Shape := ⟨3, ![64, 56, 56]⟩

abbrev nBuf : Space → Nat
  | .hbm => 84
  | .vmem => 5
  | .smem => 0
  | _ => 0

abbrev bufTy : (tb : Table) → Fin (tcTables nBuf tb) → BufTy
  | .hbm, ⟨0, _⟩ => ⟨S2x32x56x56, .f32⟩
  | .hbm, ⟨1, _⟩ => ⟨S64x32x3x3, .f32⟩
  | .hbm, ⟨2, _⟩ => ⟨S64x32x1x1, .f32⟩
  | .hbm, ⟨3, _⟩ => ⟨S64x32, .f32⟩
  | .hbm, ⟨4, _⟩ => ⟨S64x32, .f32⟩
  | .hbm, ⟨5, _⟩ => ⟨S64x32x1x1, .f32⟩
  | .hbm, ⟨6, _⟩ => ⟨S64x32, .f32⟩
  | .hbm, ⟨7, _⟩ => ⟨S64x32, .f32⟩
  | .hbm, ⟨8, _⟩ => ⟨S64x32x1x1, .f32⟩
  | .hbm, ⟨9, _⟩ => ⟨S64x32, .f32⟩
  | .hbm, ⟨10, _⟩ => ⟨S64x32, .f32⟩
  | .hbm, ⟨11, _⟩ => ⟨S64x32x1x1, .f32⟩
  | .hbm, ⟨12, _⟩ => ⟨S64x32, .f32⟩
  | .hbm, ⟨13, _⟩ => ⟨S64x32, .f32⟩
  | .hbm, ⟨14, _⟩ => ⟨S64x32x1x1, .f32⟩
  | .hbm, ⟨15, _⟩ => ⟨S64x32, .f32⟩
  | .hbm, ⟨16, _⟩ => ⟨S_, .f32⟩
  | .hbm, ⟨17, _⟩ => ⟨S64x32, .f32⟩
  | .hbm, ⟨18, _⟩ => ⟨S64x32, .f32⟩
  | .hbm, ⟨19, _⟩ => ⟨S64x32x1x1, .f32⟩
  | .hbm, ⟨20, _⟩ => ⟨S64x32, .f32⟩
  | .hbm, ⟨21, _⟩ => ⟨S64x32x1x1, .f32⟩
  | .hbm, ⟨22, _⟩ => ⟨S64x32, .f32⟩
  | .hbm, ⟨23, _⟩ => ⟨S64x32, .f32⟩
  | .hbm, ⟨24, _⟩ => ⟨S64x32x1x1, .f32⟩
  | .hbm, ⟨25, _⟩ => ⟨S64x32, .f32⟩
  | .hbm, ⟨26, _⟩ => ⟨S64x32, .f32⟩
  | .hbm, ⟨27, _⟩ => ⟨S64x32, .f32⟩
  | .hbm, ⟨28, _⟩ => ⟨S64x32x1x1, .f32⟩
  | .hbm, ⟨29, _⟩ => ⟨S64x32, .f32⟩
  | .hbm, ⟨30, _⟩ => ⟨S64x32x1x1, .f32⟩
  | .hbm, ⟨31, _⟩ => ⟨S64x32, .f32⟩
  | .hbm, ⟨32, _⟩ => ⟨S64x32, .f32⟩
  | .hbm, ⟨33, _⟩ => ⟨S64x32x1x1, .f32⟩
  | .hbm, ⟨34, _⟩ => ⟨S64x32, .f32⟩
  | .hbm, ⟨35, _⟩ => ⟨S64x32, .f32⟩
  | .hbm, ⟨36, _⟩ => ⟨S64x32, .f32⟩
  | .hbm, ⟨37, _⟩ => ⟨S64x32x1x1, .f32⟩
  | .hbm, ⟨38, _⟩ => ⟨S64x32, .f32⟩
  | .hbm, ⟨39, _⟩ => ⟨S64x32, .f32⟩
  | .hbm, ⟨40, _⟩ => ⟨S64x32x1x1, .f32⟩
  | .hbm, ⟨41, _⟩ => ⟨S64x32, .f32⟩
  | .hbm, ⟨42, _⟩ => ⟨S64x32, .f32⟩
  | .hbm, ⟨43, _⟩ => ⟨S64x32x1x1, .f32⟩
  | .hbm, ⟨44, _⟩ => ⟨S64x32, .f32⟩
  | .hbm, ⟨45, _⟩ => ⟨S64x32, .f32⟩
  | .hbm, ⟨46, _⟩ => ⟨S64x32x1x1, .f32⟩
  | .hbm, ⟨47, _⟩ => ⟨S64x32, .f32⟩
  | .hbm, ⟨48, _⟩ => ⟨S64x32x1x1, .f32⟩
  | .hbm, ⟨49, _⟩ => ⟨S64x32, .f32⟩
  | .hbm, ⟨50, _⟩ => ⟨S64x32x1x1, .f32⟩
  | .hbm, ⟨51, _⟩ => ⟨S64x32, .f32⟩
  | .hbm, ⟨52, _⟩ => ⟨S64x32x1x1, .f32⟩
  | .hbm, ⟨53, _⟩ => ⟨S64x32, .f32⟩
  | .hbm, ⟨54, _⟩ => ⟨S64x32x1x1, .f32⟩
  | .hbm, ⟨55, _⟩ => ⟨S64x32, .f32⟩
  | .hbm, ⟨56, _⟩ => ⟨S64x32, .f32⟩
  | .hbm, ⟨57, _⟩ => ⟨S_, .f32⟩
  | .hbm, ⟨58, _⟩ => ⟨S64x32, .f32⟩
  | .hbm, ⟨59, _⟩ => ⟨S64x32, .f32⟩
  | .hbm, ⟨60, _⟩ => ⟨S64x32, .f32⟩
  | .hbm, ⟨61, _⟩ => ⟨S64x32, .f32⟩
  | .hbm, ⟨62, _⟩ => ⟨S64x32, .f32⟩
  | .hbm, ⟨63, _⟩ => ⟨S64x32, .f32⟩
  | .hbm, ⟨64, _⟩ => ⟨S64x32, .f32⟩
  | .hbm, ⟨65, _⟩ => ⟨S64x32, .f32⟩
  | .hbm, ⟨66, _⟩ => ⟨S64x32, .f32⟩
  | .hbm, ⟨67, _⟩ => ⟨S64x32, .f32⟩
  | .hbm, ⟨68, _⟩ => ⟨S64x32, .f32⟩
  | .hbm, ⟨69, _⟩ => ⟨S64x32, .f32⟩
  | .hbm, ⟨70, _⟩ => ⟨S1x64x32, .f32⟩
  | .hbm, ⟨71, _⟩ => ⟨S1x64x32, .f32⟩
  | .hbm, ⟨72, _⟩ => ⟨S1x64x32, .f32⟩
  | .hbm, ⟨73, _⟩ => ⟨S1x64x32, .f32⟩
  | .hbm, ⟨74, _⟩ => ⟨S1x64x32, .f32⟩
  | .hbm, ⟨75, _⟩ => ⟨S1x64x32, .f32⟩
  | .hbm, ⟨76, _⟩ => ⟨S1x64x32, .f32⟩
  | .hbm, ⟨77, _⟩ => ⟨S1x64x32, .f32⟩
  | .hbm, ⟨78, _⟩ => ⟨S1x64x32, .f32⟩
  | .hbm, ⟨79, _⟩ => ⟨S9x64x32, .f32⟩
  | .hbm, ⟨80, _⟩ => ⟨S_, .i32⟩
  | .hbm, ⟨81, _⟩ => ⟨S_, .f32⟩
  | .hbm, ⟨82, _⟩ => ⟨S2x32x58x58, .f32⟩
  | .hbm, ⟨83, _⟩ => ⟨S2x64x56x56, .f32⟩
  | .local _ .vmem, ⟨0, _⟩ => ⟨S1x32x58x58, .f32⟩
  | .local _ .vmem, ⟨1, _⟩ => ⟨S1x32x58x58, .f32⟩
  | .local _ .vmem, ⟨2, _⟩ => ⟨S9x64x32, .f32⟩
  | .local _ .vmem, ⟨3, _⟩ => ⟨S1x64x56x56, .f32⟩
  | .local _ .vmem, ⟨4, _⟩ => ⟨S1x64x56x56, .f32⟩
  | _, _ => ⟨S2x32x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_cst_0 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_c : Ref sig .tc := ⟨.hbm, 80, rfl⟩
abbrev main_call0_v0 : Ref sig .tc := ⟨.hbm, 81, rfl⟩
abbrev main_v76 : Ref sig .tc := ⟨.hbm, 82, rfl⟩
abbrev main_v77 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x58x58 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x56x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S64x32x3x3_S64x32x1x1_0_0_2_0 : S64x32x3x3.Slices ![0, 0, 2, 0] S64x32x1x1
  shapeCasts_S64x32x1x1_S64x32 : S64x32x1x1.ShapeCasts S64x32
  slices_S64x32x3x3_S64x32x1x1_0_0_2_1 : S64x32x3x3.Slices ![0, 0, 2, 1] S64x32x1x1
  slices_S64x32x3x3_S64x32x1x1_0_0_0_2 : S64x32x3x3.Slices ![0, 0, 0, 2] S64x32x1x1
  slices_S64x32x3x3_S64x32x1x1_0_0_1_2 : S64x32x3x3.Slices ![0, 0, 1, 2] S64x32x1x1
  slices_S64x32x3x3_S64x32x1x1_0_0_0_0 : S64x32x3x3.Slices ![0, 0, 0, 0] S64x32x1x1
  bcast_S_S64x32 : S_.BroadcastsInDim S64x32 (![] : Fin 0 → Fin S64x32.rank)
  slices_S64x32x3x3_S64x32x1x1_0_0_0_1 : S64x32x3x3.Slices ![0, 0, 0, 1] S64x32x1x1
  slices_S64x32x3x3_S64x32x1x1_0_0_1_0 : S64x32x3x3.Slices ![0, 0, 1, 0] S64x32x1x1
  slices_S64x32x3x3_S64x32x1x1_0_0_1_1 : S64x32x3x3.Slices ![0, 0, 1, 1] S64x32x1x1
  slices_S64x32x3x3_S64x32x1x1_0_0_2_2 : S64x32x3x3.Slices ![0, 0, 2, 2] S64x32x1x1
  bcast_S64x32_S1x64x32_1_2 : S64x32.BroadcastsInDim S1x64x32 (![1, 2] : Fin 2 → Fin S1x64x32.rank)
  concatenates_S1x64x32_S1x64x32_S1x64x32_S1x64x32_S1x64x32_S1x64x32_S1x64x32_S1x64x32_S1x64x32_S9x64x32_d0 : Shape.Concatenates [S1x64x32, S1x64x32, S1x64x32, S1x64x32, S1x64x32, S1x64x32, S1x64x32, S1x64x32, S1x64x32] S9x64x32 0
  pads_S2x32x56x56_S2x32x58x58_000_000_110_110 : S2x32x56x56.Pads (![0, 0, 1, 1] : Fin 4 → Nat) ![0, 0, 1, 1] ![0, 0, 0, 0] S2x32x58x58
  h_S_ : 0 < S_.numel
  inb_S1x32x58x58_S1x32x58x58_0_0_0_0 : ∀ a, (![0, 0, 0, 0] : Fin 4 → Nat) a + S1x32x58x58.size a ≤ S1x32x58x58.size a
  h_S1x32x58x58 : 0 < S1x32x58x58.numel
  shapeCasts_S1x32x58x58_S32x58x58 : S1x32x58x58.ShapeCasts S32x58x58
  slices_S32x58x58_o0_0_0_S32x56x56 : S32x58x58.Slices ![0, 0, 0] S32x56x56
  shapeCasts_S32x56x56_S32x3136 : S32x56x56.ShapeCasts S32x3136
  bitsLt_bf16_f32 : FTy.bits .bf16 < FTy.bits .f32
  inb_S9x64x32_S1x64x32_0_0_0 : ∀ a, (![0, 0, 0] : Fin 3 → Nat) a + S1x64x32.size a ≤ S9x64x32.size a
  h_S1x64x32 : 0 < S1x64x32.numel
  shapeCasts_S1x64x32_S64x32 : S1x64x32.ShapeCasts S64x32
  slices_S32x58x58_o0_0_1_S32x56x56 : S32x58x58.Slices ![0, 0, 1] S32x56x56
  inb_S9x64x32_S1x64x32_1_0_0 : ∀ a, (![1, 0, 0] : Fin 3 → Nat) a + S1x64x32.size a ≤ S9x64x32.size a
  slices_S32x58x58_o0_0_2_S32x56x56 : S32x58x58.Slices ![0, 0, 2] S32x56x56
  inb_S9x64x32_S1x64x32_2_0_0 : ∀ a, (![2, 0, 0] : Fin 3 → Nat) a + S1x64x32.size a ≤ S9x64x32.size a
  slices_S32x58x58_o0_1_0_S32x56x56 : S32x58x58.Slices ![0, 1, 0] S32x56x56
  inb_S9x64x32_S1x64x32_3_0_0 : ∀ a, (![3, 0, 0] : Fin 3 → Nat) a + S1x64x32.size a ≤ S9x64x32.size a
  slices_S32x58x58_o0_1_1_S32x56x56 : S32x58x58.Slices ![0, 1, 1] S32x56x56
  inb_S9x64x32_S1x64x32_4_0_0 : ∀ a, (![4, 0, 0] : Fin 3 → Nat) a + S1x64x32.size a ≤ S9x64x32.size a
  slices_S32x58x58_o0_1_2_S32x56x56 : S32x58x58.Slices ![0, 1, 2] S32x56x56
  inb_S9x64x32_S1x64x32_5_0_0 : ∀ a, (![5, 0, 0] : Fin 3 → Nat) a + S1x64x32.size a ≤ S9x64x32.size a
  slices_S32x58x58_o0_2_0_S32x56x56 : S32x58x58.Slices ![0, 2, 0] S32x56x56
  inb_S9x64x32_S1x64x32_6_0_0 : ∀ a, (![6, 0, 0] : Fin 3 → Nat) a + S1x64x32.size a ≤ S9x64x32.size a
  slices_S32x58x58_o0_2_1_S32x56x56 : S32x58x58.Slices ![0, 2, 1] S32x56x56
  inb_S9x64x32_S1x64x32_7_0_0 : ∀ a, (![7, 0, 0] : Fin 3 → Nat) a + S1x64x32.size a ≤ S9x64x32.size a
  slices_S32x58x58_o0_2_2_S32x56x56 : S32x58x58.Slices ![0, 2, 2] S32x56x56
  inb_S9x64x32_S1x64x32_8_0_0 : ∀ a, (![8, 0, 0] : Fin 3 → Nat) a + S1x64x32.size a ≤ S9x64x32.size a
  shapeCasts_S64x3136_S64x56x56 : S64x3136.ShapeCasts S64x56x56
  inb_S1x64x56x56_S1x64x56x56_0_0_0_0 : ∀ a, (![0, 0, 0, 0] : Fin 4 → Nat) a + S1x64x56x56.size a ≤ S1x64x56x56.size a
  h_S1x64x56x56 : 0 < S1x64x56x56.numel
  shapeCasts_S1x64x56x56_S64x56x56 : S1x64x56x56.ShapeCasts S64x56x56
  shapeCasts_S64x56x56_S1x64x56x56 : S64x56x56.ShapeCasts S1x64x56x56
  dot_S64x32_S32x3136_S64x3136_1_0_0_1_n_n_wf : DotDims.WF S64x32 S32x3136 S64x3136 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x58x58.size a ≤ S2x32x58x58.size a
  hwx0_0 : ∀ i : grid0.Coords, EltTy.bits .f32 = 32 ∨ (Rect.block (s := S2x32x58x58) S1x32x58x58.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x64x32.size a ≤ S9x64x32.size a
  hwx0_1 : ∀ i : grid0.Coords, EltTy.bits .f32 = 32 ∨ (Rect.block (s := S9x64x32) S9x64x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x56x56.size a ≤ S2x64x56x56.size a
  hwx0_2 : ∀ i : grid0.Coords, EltTy.bits .f32 = 32 ∨ (Rect.block (s := S2x64x56x56) S1x64x56x56.size (cc0_transform_2 i) (hinb0_2 i)).WholeWords (EltTy.packing .f32)

variable [Facts₀]

def dot_S64x32_S32x3136_S64x3136_1_0_0_1_n_n : DotDims S64x32 S32x3136 S64x3136 where
  lhsContracting := [1]
  rhsContracting := [0]
  lhsNonContracting := [0]
  rhsNonContracting := [1]
  lhsBatch := []
  rhsBatch := []
  wf := dot_S64x32_S32x3136_S64x3136_1_0_0_1_n_n_wf

abbrev win0_0 : Pipeline.Window sig grid0 :=
  Pipeline.Window.ofSpec (Memref.whole main_v76) S1x32x58x58.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v75) S9x64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v77) S1x64x56x56.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x32x56x56 : Shape := ⟨4, ![2, 32, 56, 56]⟩
abbrev S64x32x3x3 : Shape := ⟨4, ![64, 32, 3, 3]⟩
abbrev S64x32x1x1 : Shape := ⟨4, ![64, 32, 1, 1]⟩
abbrev S64x32 : Shape := ⟨2, ![64, 32]⟩
abbrev S_ : Shape := ⟨0, ![]⟩
abbrev S2x32x58x58 : Shape := ⟨4, ![2, 32, 58, 58]⟩
abbrev S2x1x32x58x58 : Shape := ⟨5, ![2, 1, 32, 58, 58]⟩
abbrev S2x1x32x58x57 : Shape := ⟨5, ![2, 1, 32, 58, 57]⟩
abbrev S2x1x32x57x58 : Shape := ⟨5, ![2, 1, 32, 57, 58]⟩
abbrev S2x1x32x56x58 : Shape := ⟨5, ![2, 1, 32, 56, 58]⟩
abbrev S2x1x32x58x56 : Shape := ⟨5, ![2, 1, 32, 58, 56]⟩
abbrev S1x64x32x1x1 : Shape := ⟨5, ![1, 64, 32, 1, 1]⟩
abbrev S2x64x32x58x58 : Shape := ⟨5, ![2, 64, 32, 58, 58]⟩
abbrev S2x64x32x56x58 : Shape := ⟨5, ![2, 64, 32, 56, 58]⟩
abbrev S2x64x32x58x56 : Shape := ⟨5, ![2, 64, 32, 58, 56]⟩
abbrev S2x64x32x56x56 : Shape := ⟨5, ![2, 64, 32, 56, 56]⟩
abbrev S2x64x56x56 : Shape := ⟨4, ![2, 64, 56, 56]⟩

abbrev nBuf : Space → Nat
  | .hbm => 139
  | .vmem => 0
  | .smem => 0
  | _ => 0

abbrev hbmTy0_0 (i : Nat) : BufTy := match i % 128 with
  | 0 => ⟨S2x32x56x56, .f32⟩
  | 1 => ⟨S64x32x3x3, .f32⟩
  | 2 => ⟨S64x32x1x1, .f32⟩
  | 3 => ⟨S64x32, .f32⟩
  | 4 => ⟨S64x32, .f32⟩
  | 5 => ⟨S64x32x1x1, .f32⟩
  | 6 => ⟨S64x32, .f32⟩
  | 7 => ⟨S64x32, .f32⟩
  | 8 => ⟨S64x32x1x1, .f32⟩
  | 9 => ⟨S64x32, .f32⟩
  | 10 => ⟨S64x32, .f32⟩
  | 11 => ⟨S64x32x1x1, .f32⟩
  | 12 => ⟨S64x32, .f32⟩
  | 13 => ⟨S64x32, .f32⟩
  | 14 => ⟨S64x32x1x1, .f32⟩
  | 15 => ⟨S64x32, .f32⟩
  | 16 => ⟨S_, .f32⟩
  | 17 => ⟨S64x32, .f32⟩
  | 18 => ⟨S64x32, .f32⟩
  | 19 => ⟨S64x32x1x1, .f32⟩
  | 20 => ⟨S64x32, .f32⟩
  | 21 => ⟨S64x32x1x1, .f32⟩
  | 22 => ⟨S64x32, .f32⟩
  | 23 => ⟨S64x32, .f32⟩
  | 24 => ⟨S64x32x1x1, .f32⟩
  | 25 => ⟨S64x32, .f32⟩
  | 26 => ⟨S64x32, .f32⟩
  | 27 => ⟨S64x32, .f32⟩
  | 28 => ⟨S64x32x1x1, .f32⟩
  | 29 => ⟨S64x32, .f32⟩
  | 30 => ⟨S64x32x1x1, .f32⟩
  | 31 => ⟨S64x32, .f32⟩
  | 32 => ⟨S64x32, .f32⟩
  | 33 => ⟨S64x32x1x1, .f32⟩
  | 34 => ⟨S64x32, .f32⟩
  | 35 => ⟨S64x32, .f32⟩
  | 36 => ⟨S64x32, .f32⟩
  | 37 => ⟨S64x32x1x1, .f32⟩
  | 38 => ⟨S64x32, .f32⟩
  | 39 => ⟨S64x32, .f32⟩
  | 40 => ⟨S64x32x1x1, .f32⟩
  | 41 => ⟨S64x32, .f32⟩
  | 42 => ⟨S64x32, .f32⟩
  | 43 => ⟨S64x32x1x1, .f32⟩
  | 44 => ⟨S64x32, .f32⟩
  | 45 => ⟨S64x32, .f32⟩
  | 46 => ⟨S64x32x1x1, .f32⟩
  | 47 => ⟨S64x32, .f32⟩
  | 48 => ⟨S64x32x1x1, .f32⟩
  | 49 => ⟨S64x32, .f32⟩
  | 50 => ⟨S64x32x1x1, .f32⟩
  | 51 => ⟨S64x32, .f32⟩
  | 52 => ⟨S64x32x1x1, .f32⟩
  | 53 => ⟨S64x32, .f32⟩
  | 54 => ⟨S64x32x1x1, .f32⟩
  | 55 => ⟨S64x32, .f32⟩
  | 56 => ⟨S_, .i32⟩
  | 57 => ⟨S_, .f32⟩
  | 58 => ⟨S2x32x58x58, .f32⟩
  | 59 => ⟨S2x1x32x58x58, .f32⟩
  | 60 => ⟨S2x1x32x58x57, .f32⟩
  | 61 => ⟨S_, .i32⟩
  | 62 => ⟨S_, .f32⟩
  | 63 => ⟨S2x1x32x58x58, .f32⟩
  | 64 => ⟨S2x1x32x57x58, .f32⟩
  | 65 => ⟨S_, .i32⟩
  | 66 => ⟨S_, .f32⟩
  | 67 => ⟨S2x1x32x58x58, .f32⟩
  | 68 => ⟨S2x1x32x57x58, .f32⟩
  | 69 => ⟨S_, .i32⟩
  | 70 => ⟨S_, .f32⟩
  | 71 => ⟨S2x1x32x58x58, .f32⟩
  | 72 => ⟨S2x1x32x58x57, .f32⟩
  | 73 => ⟨S_, .i32⟩
  | 74 => ⟨S_, .f32⟩
  | 75 => ⟨S2x1x32x58x58, .f32⟩
  | 76 => ⟨S2x1x32x56x58, .f32⟩
  | 77 => ⟨S_, .i32⟩
  | 78 => ⟨S_, .f32⟩
  | 79 => ⟨S2x1x32x58x58, .f32⟩
  | 80 => ⟨S2x1x32x58x56, .f32⟩
  | 81 => ⟨S_, .i32⟩
  | 82 => ⟨S_, .f32⟩
  | 83 => ⟨S2x1x32x58x58, .f32⟩
  | 84 => ⟨S1x64x32x1x1, .f32⟩
  | 85 => ⟨S2x64x32x58x58, .f32⟩
  | 86 => ⟨S2x64x32x58x58, .f32⟩
  | 87 => ⟨S2x64x32x58x58, .f32⟩
  | 88 => ⟨S2x64x32x58x58, .f32⟩
  | 89 => ⟨S2x64x32x58x58, .f32⟩
  | 90 => ⟨S1x64x32x1x1, .f32⟩
  | 91 => ⟨S2x64x32x58x58, .f32⟩
  | 92 => ⟨S2x64x32x58x58, .f32⟩
  | 93 => ⟨S2x64x32x58x58, .f32⟩
  | 94 => ⟨S2x64x32x58x58, .f32⟩
  | 95 => ⟨S2x64x32x58x58, .f32⟩
  | 96 => ⟨S1x64x32x1x1, .f32⟩
  | 97 => ⟨S2x64x32x58x58, .f32⟩
  | 98 => ⟨S2x64x32x58x58, .f32⟩
  | 99 => ⟨S2x64x32x58x58, .f32⟩
  | 100 => ⟨S2x64x32x58x58, .f32⟩
  | 101 => ⟨S2x64x32x58x58, .f32⟩
  | 102 => ⟨S1x64x32x1x1, .f32⟩
  | 103 => ⟨S2x64x32x58x58, .f32⟩
  | 104 => ⟨S2x64x32x58x58, .f32⟩
  | 105 => ⟨S2x64x32x58x58, .f32⟩
  | 106 => ⟨S2x64x32x58x58, .f32⟩
  | 107 => ⟨S2x64x32x56x58, .f32⟩
  | 108 => ⟨S_, .i32⟩
  | 109 => ⟨S_, .f32⟩
  | 110 => ⟨S2x64x32x58x58, .f32⟩
  | 111 => ⟨S2x64x32x58x56, .f32⟩
  | 112 => ⟨S_, .i32⟩
  | 113 => ⟨S_, .f32⟩
  | 114 => ⟨S2x64x32x58x58, .f32⟩
  | 115 => ⟨S1x64x32x1x1, .f32⟩
  | 116 => ⟨S2x64x32x58x58, .f32⟩
  | 117 => ⟨S2x64x32x58x58, .f32⟩
  | 118 => ⟨S2x64x32x58x58, .f32⟩
  | 119 => ⟨S2x64x32x58x58, .f32⟩
  | 120 => ⟨S1x64x32x1x1, .f32⟩
  | 121 => ⟨S2x64x32x58x58, .f32⟩
  | 122 => ⟨S2x64x32x58x58, .f32⟩
  | 123 => ⟨S2x64x32x58x58, .f32⟩
  | 124 => ⟨S1x64x32x1x1, .f32⟩
  | 125 => ⟨S2x64x32x58x58, .f32⟩
  | 126 => ⟨S2x64x32x58x58, .f32⟩
  | 127 => ⟨S2x64x32x58x58, .f32⟩
  | _ => ⟨S2x32x56x56, .f32⟩

abbrev hbmTy0_1 (i : Nat) : BufTy := match i % 128 with
  | 0 => ⟨S1x64x32x1x1, .f32⟩
  | 1 => ⟨S2x64x32x58x58, .f32⟩
  | 2 => ⟨S2x64x32x58x58, .f32⟩
  | 3 => ⟨S2x64x32x58x58, .f32⟩
  | 4 => ⟨S1x64x32x1x1, .f32⟩
  | 5 => ⟨S2x64x32x58x58, .f32⟩
  | 6 => ⟨S2x64x32x58x58, .f32⟩
  | 7 => ⟨S2x64x32x58x58, .f32⟩
  | 8 => ⟨S2x64x32x56x56, .f32⟩
  | 9 => ⟨S_, .f32⟩
  | 10 => ⟨S2x64x56x56, .f32⟩
  | _ => ⟨S2x32x56x56, .f32⟩

abbrev hbmTy (i : Nat) : BufTy := match i / 128 with
  | 0 => hbmTy0_0 i
  | 1 => hbmTy0_1 i
  | _ => ⟨S2x32x56x56, .f32⟩

abbrev bufTy : (tb : Table) → Fin (tcTables nBuf tb) → BufTy
  | .hbm, ⟨i, _⟩ => hbmTy i
  | _, _ => ⟨S2x32x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_c : Ref sig .tc := ⟨.hbm, 56, rfl⟩
abbrev main_call0_v0 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_c_0 : Ref sig .tc := ⟨.hbm, 61, rfl⟩
abbrev main_call1_v0 : Ref sig .tc := ⟨.hbm, 62, rfl⟩
abbrev main_v56 : Ref sig .tc := ⟨.hbm, 63, rfl⟩
abbrev main_v57 : Ref sig .tc := ⟨.hbm, 64, rfl⟩
abbrev main_c_1 : Ref sig .tc := ⟨.hbm, 65, rfl⟩
abbrev main_call2_v0 : Ref sig .tc := ⟨.hbm, 66, rfl⟩
abbrev main_v58 : Ref sig .tc := ⟨.hbm, 67, rfl⟩
abbrev main_v59 : Ref sig .tc := ⟨.hbm, 68, rfl⟩
abbrev main_c_2 : Ref sig .tc := ⟨.hbm, 69, rfl⟩
abbrev main_call3_v0 : Ref sig .tc := ⟨.hbm, 70, rfl⟩
abbrev main_v60 : Ref sig .tc := ⟨.hbm, 71, rfl⟩
abbrev main_v61 : Ref sig .tc := ⟨.hbm, 72, rfl⟩
abbrev main_c_3 : Ref sig .tc := ⟨.hbm, 73, rfl⟩
abbrev main_call4_v0 : Ref sig .tc := ⟨.hbm, 74, rfl⟩
abbrev main_v62 : Ref sig .tc := ⟨.hbm, 75, rfl⟩
abbrev main_v63 : Ref sig .tc := ⟨.hbm, 76, rfl⟩
abbrev main_c_4 : Ref sig .tc := ⟨.hbm, 77, rfl⟩
abbrev main_call5_v0 : Ref sig .tc := ⟨.hbm, 78, rfl⟩
abbrev main_v64 : Ref sig .tc := ⟨.hbm, 79, rfl⟩
abbrev main_v65 : Ref sig .tc := ⟨.hbm, 80, rfl⟩
abbrev main_c_5 : Ref sig .tc := ⟨.hbm, 81, rfl⟩
abbrev main_call6_v0 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_c_6 : Ref sig .tc := ⟨.hbm, 108, rfl⟩
abbrev main_call7_v0 : Ref sig .tc := ⟨.hbm, 109, rfl⟩
abbrev main_v91 : Ref sig .tc := ⟨.hbm, 110, rfl⟩
abbrev main_v92 : Ref sig .tc := ⟨.hbm, 111, rfl⟩
abbrev main_c_7 : Ref sig .tc := ⟨.hbm, 112, rfl⟩
abbrev main_call8_v0 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_cst_8 : Ref sig .tc := ⟨.hbm, 137, rfl⟩
abbrev main_v116 : Ref sig .tc := ⟨.hbm, 138, rfl⟩

abbrev nD : Nat := 1
abbrev τ : Topo := Topo.v7x

variable {F : FTy → Type} [FloatOps F]

class Facts₀ : Prop where
  slices_S64x32x3x3_S64x32x1x1_0_0_2_0 : S64x32x3x3.Slices ![0, 0, 2, 0] S64x32x1x1
  shapeCasts_S64x32x1x1_S64x32 : S64x32x1x1.ShapeCasts S64x32
  slices_S64x32x3x3_S64x32x1x1_0_0_2_1 : S64x32x3x3.Slices ![0, 0, 2, 1] S64x32x1x1
  slices_S64x32x3x3_S64x32x1x1_0_0_0_2 : S64x32x3x3.Slices ![0, 0, 0, 2] S64x32x1x1
  slices_S64x32x3x3_S64x32x1x1_0_0_1_2 : S64x32x3x3.Slices ![0, 0, 1, 2] S64x32x1x1
  slices_S64x32x3x3_S64x32x1x1_0_0_0_0 : S64x32x3x3.Slices ![0, 0, 0, 0] S64x32x1x1
  bcast_S_S64x32 : S_.BroadcastsInDim S64x32 (![] : Fin 0 → Fin S64x32.rank)
  slices_S64x32x3x3_S64x32x1x1_0_0_0_1 : S64x32x3x3.Slices ![0, 0, 0, 1] S64x32x1x1
  slices_S64x32x3x3_S64x32x1x1_0_0_1_0 : S64x32x3x3.Slices ![0, 0, 1, 0] S64x32x1x1
  slices_S64x32x3x3_S64x32x1x1_0_0_1_1 : S64x32x3x3.Slices ![0, 0, 1, 1] S64x32x1x1
  slices_S64x32x3x3_S64x32x1x1_0_0_2_2 : S64x32x3x3.Slices ![0, 0, 2, 2] S64x32x1x1
  pads_S2x32x56x56_S2x32x58x58_000_000_110_110 : S2x32x56x56.Pads (![0, 0, 1, 1] : Fin 4 → Nat) ![0, 0, 1, 1] ![0, 0, 0, 0] S2x32x58x58
  h_S_ : 0 < S_.numel
  bcast_S2x32x58x58_S2x1x32x58x58_0_2_3_4 : S2x32x58x58.BroadcastsInDim S2x1x32x58x58 (![0, 2, 3, 4] : Fin 4 → Fin S2x1x32x58x58.rank)
  slices_S2x1x32x58x58_S2x1x32x58x57_0_0_0_0_1 : S2x1x32x58x58.Slices ![0, 0, 0, 0, 1] S2x1x32x58x57
  pads_S2x1x32x58x57_S2x1x32x58x58_000_000_000_000_010 : S2x1x32x58x57.Pads (![0, 0, 0, 0, 0] : Fin 5 → Nat) ![0, 0, 0, 0, 1] ![0, 0, 0, 0, 0] S2x1x32x58x58
  slices_S2x1x32x58x58_S2x1x32x57x58_0_0_0_1_0 : S2x1x32x58x58.Slices ![0, 0, 0, 1, 0] S2x1x32x57x58
  pads_S2x1x32x57x58_S2x1x32x58x58_000_000_000_010_000 : S2x1x32x57x58.Pads (![0, 0, 0, 0, 0] : Fin 5 → Nat) ![0, 0, 0, 1, 0] ![0, 0, 0, 0, 0] S2x1x32x58x58
  slices_S2x1x32x58x58_S2x1x32x56x58_0_0_0_2_0 : S2x1x32x58x58.Slices ![0, 0, 0, 2, 0] S2x1x32x56x58
  pads_S2x1x32x56x58_S2x1x32x58x58_000_000_000_020_000 : S2x1x32x56x58.Pads (![0, 0, 0, 0, 0] : Fin 5 → Nat) ![0, 0, 0, 2, 0] ![0, 0, 0, 0, 0] S2x1x32x58x58
  slices_S2x1x32x58x58_S2x1x32x58x56_0_0_0_0_2 : S2x1x32x58x58.Slices ![0, 0, 0, 0, 2] S2x1x32x58x56
  pads_S2x1x32x58x56_S2x1x32x58x58_000_000_000_000_020 : S2x1x32x58x56.Pads (![0, 0, 0, 0, 0] : Fin 5 → Nat) ![0, 0, 0, 0, 2] ![0, 0, 0, 0, 0] S2x1x32x58x58
  bcast_S64x32_S1x64x32x1x1_1_2 : S64x32.BroadcastsInDim S1x64x32x1x1 (![1, 2] : Fin 2 → Fin S1x64x32x1x1.rank)
  bcast_S1x64x32x1x1_S2x64x32x58x58_0_1_2_3_4 : S1x64x32x1x1.BroadcastsInDim S2x64x32x58x58 (![0, 1, 2, 3, 4] : Fin 5 → Fin S2x64x32x58x58.rank)
  bcast_S2x1x32x58x58_S2x64x32x58x58_0_1_2_3_4 : S2x1x32x58x58.BroadcastsInDim S2x64x32x58x58 (![0, 1, 2, 3, 4] : Fin 5 → Fin S2x64x32x58x58.rank)
  slices_S2x64x32x58x58_S2x64x32x56x58_0_0_0_2_0 : S2x64x32x58x58.Slices ![0, 0, 0, 2, 0] S2x64x32x56x58
  pads_S2x64x32x56x58_S2x64x32x58x58_000_000_000_020_000 : S2x64x32x56x58.Pads (![0, 0, 0, 0, 0] : Fin 5 → Nat) ![0, 0, 0, 2, 0] ![0, 0, 0, 0, 0] S2x64x32x58x58
  slices_S2x64x32x58x58_S2x64x32x58x56_0_0_0_0_2 : S2x64x32x58x58.Slices ![0, 0, 0, 0, 2] S2x64x32x58x56
  pads_S2x64x32x58x56_S2x64x32x58x58_000_000_000_000_020 : S2x64x32x58x56.Pads (![0, 0, 0, 0, 0] : Fin 5 → Nat) ![0, 0, 0, 0, 2] ![0, 0, 0, 0, 0] S2x64x32x58x58
  slices_S2x64x32x58x58_S2x64x32x56x56_0_0_0_0_0 : S2x64x32x58x58.Slices ![0, 0, 0, 0, 0] S2x64x32x56x56
  reducesTo_S2x64x32x56x56_S2x64x56x56_d2 : S2x64x32x56x56.ReducesTo [2] S2x64x56x56

variable [Facts₀]

class Facts : Prop extends Facts₀ where

variable [Facts]
-- ==== Proof.BitsFrame.lean ====
/-
  The frame run of the convolution program: @main is two stretches of host operations (the nine coefficient
  matrices joined into one [9, 64, 32] array; the input zero-padded to [2, 32, 58, 58]) followed by one region on a
  grid of two points, one per batch element. At point t the region hands the body block t of the padded input,
  the whole coefficient array, and a buffer for block t of the result; the body loads the input block and the
  nine coefficient slabs, and stores one value covering the whole result block.

  Stated here, for any float instance: what the region finds in each buffer (V: the host operations' results),
  each window's block at a point (iblk), what the body leaves in the result buffer as one term of the blocks it
  loaded (blockVal, outBlock), the body's triple, the proof data of the pipeline, and the run: every weakly fair
  execution terminates with the result array assembled from the blocks the points wrote and every other buffer as
  the region found it.
-/
import proofs.«171278_j39032662786092_1_alg».proof.Proof.Gen.Kernel.Launch
import proofs.«171278_j39032662786092_1_alg».proof.Proof.Gen.Kernel.Skeleton
import proofs.«171278_j39032662786092_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core c when the region is entered: the memory after both stretches of host operations. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- @main is the two stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes the input array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes the weight array. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The padded input's staging buffer holds its block at every point. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The coefficient array's staging buffer holds its one block at every point, fetched there or kept. -/
theorem before_k_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it stores -/

abbrev rX : Rect S1x32x58x58 := Rect.unit (s := S1x32x58x58) ![0, 0, 0, 0] S1x32x58x58.size Facts₀.inb_S1x32x58x58_S1x32x58x58_0_0_0_0
abbrev rK0 : Rect S9x64x32 := Rect.unit (s := S9x64x32) ![0, 0, 0] S1x64x32.size Facts₀.inb_S9x64x32_S1x64x32_0_0_0
abbrev rK1 : Rect S9x64x32 := Rect.unit (s := S9x64x32) ![1, 0, 0] S1x64x32.size Facts₀.inb_S9x64x32_S1x64x32_1_0_0
abbrev rK2 : Rect S9x64x32 := Rect.unit (s := S9x64x32) ![2, 0, 0] S1x64x32.size Facts₀.inb_S9x64x32_S1x64x32_2_0_0
abbrev rK3 : Rect S9x64x32 := Rect.unit (s := S9x64x32) ![3, 0, 0] S1x64x32.size Facts₀.inb_S9x64x32_S1x64x32_3_0_0
abbrev rK4 : Rect S9x64x32 := Rect.unit (s := S9x64x32) ![4, 0, 0] S1x64x32.size Facts₀.inb_S9x64x32_S1x64x32_4_0_0
abbrev rK5 : Rect S9x64x32 := Rect.unit (s := S9x64x32) ![5, 0, 0] S1x64x32.size Facts₀.inb_S9x64x32_S1x64x32_5_0_0
abbrev rK6 : Rect S9x64x32 := Rect.unit (s := S9x64x32) ![6, 0, 0] S1x64x32.size Facts₀.inb_S9x64x32_S1x64x32_6_0_0
abbrev rK7 : Rect S9x64x32 := Rect.unit (s := S9x64x32) ![7, 0, 0] S1x64x32.size Facts₀.inb_S9x64x32_S1x64x32_7_0_0
abbrev rK8 : Rect S9x64x32 := Rect.unit (s := S9x64x32) ![8, 0, 0] S1x64x32.size Facts₀.inb_S9x64x32_S1x64x32_8_0_0
abbrev rO : Rect S1x64x56x56 := Rect.unit (s := S1x64x56x56) ![0, 0, 0, 0] S1x64x56x56.size Facts₀.inb_S1x64x56x56_S1x64x56x56_0_0_0_0

/-- The value the body stores, as one term of the input block xb and the coefficient block kb it loaded: the
    nine shifted products accumulated, reshaped to the result block. -/
def blockVal (xb : Vec F S1x32x58x58 .f32) (kb : Vec F S9x64x32 .f32) : FVec F S1x64x56x56 .f32 :=
  k0_pay1 (k0_pay5 (k0_pay2 (View.ld xb rX))
    (k0_pay3 (View.ld xb rX) (View.ld kb rK0) (View.ld kb rK1) (View.ld kb rK2) (View.ld kb rK3))
    (k0_pay4 (View.ld xb rX))
    (View.ld kb rK4) (View.ld kb rK5) (View.ld kb rK6) (View.ld kb rK7) (View.ld kb rK8))

/-- The result buffer after the body: its one store, covering it. -/
def outBlock (xb : Vec F S1x32x58x58 .f32) (kb : Vec F S9x64x32 .f32) : Vec F S1x64x56x56 .f32 :=
  View.canon [⟨rO, blockVal xb kb⟩]

theorem cover_out (p0 : Vec F S1x64x56x56 .f32) (y : S1x64x56x56.Idx) :
    ∃ pc ∈ ([⟨rO, p0⟩] : List (View.Piece (Elt F) S1x64x56x56 .f32)), y ∈ pc.1.set :=
  View.cover_of_tiled [⟨rO, p0⟩] S1x64x56x56.size (by rfl) y

/-! ## The body's triple -/

set_option maxHeartbeats 4000000 in
/-- The body on whole staging memrefs, the two inputs at contents xb and kb and the result buffer at anything,
    runs to the continuation holding the inputs as they were and the result buffer at outBlock xb kb. -/
theorem sound_kernel (c : Dev nD) (E : Set ℕ) (i : grid0.Coords)
    (arg1 : Memref sig .tc .vmem S1x32x58x58 .f32) (harg1 : arg1.IsWhole)
    (arg2 : Memref sig .tc .vmem S9x64x32 .f32) (harg2 : arg2.IsWhole)
    (arg3 : Memref sig .tc .vmem S1x64x56x56 .f32) (harg3 : arg3.IsWhole)
    (xb : Vec F S1x32x58x58 .f32) (kb : Vec F S9x64x32 .f32) (K : PUnit → sProp 𝕄) :
    iprop(owns (c : Thread nD τ) arg1 fullShare xb ∗ owns (c : Thread nD τ) arg2 fullShare kb ∗ (∃ d, owns (c : Thread nD τ) arg3 fullShare d)
        ∗ (iprop(owns (c : Thread nD τ) arg1 fullShare xb ∗ owns (c : Thread nD τ) arg2 fullShare kb ∗ owns (c : Thread nD τ) arg3 fullShare (outBlock xb kb)) -∗ K ⟨⟩))
      ⊢ wp frame (wpE (defs₀ (F := F)) Variants.none c none) E (cc0__conv_kernel i arg1 harg1 arg2 harg2 arg3 harg3) K := by
  simp only [cc0__conv_kernel_eq_skeleton]; unfold cc0__conv_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data of the pipeline on core c: the arrays as the region finds them; after the body at point t the
    two inputs' buffers at their blocks and the result buffer at outBlock of those blocks; the invariant the scoped
    rest and the random-number register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_o (c : Dev nD) (t : Fin cfg0.N) : (dats m 0 c).after 2 t = outBlock (iblk m c 0 t) (iblk m c 1 t) := by dsimp only [dats]

theorem before_x (c : Dev nD) (t : Fin cfg0.N) (d) : (dats m 0 c).before 0 t d = iblk m c 0 t :=
  before_x_of m (dats m 0 c) (A_eq m c 0) (after_x m c) t d
theorem before_k (c : Dev nD) (t : Fin cfg0.N) (d) : (dats m 0 c).before 1 t d = iblk m c 1 t :=
  before_k_of m (dats m 0 c) (A_eq m c 1) (after_k m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and
    the core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_k]
  rw [show (dats m 0 c).Φ t.succ = (dats m 0 c).Φ t.castSucc from rfl,
    show (dats m 0 c).owesAt () t.succ = (dats m 0 c).owesAt () t.castSucc from rfl,
    after_x, after_k, after_o]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates, and every final state has
    every array of the pipeline at what the proof data assembles from the points' write-backs and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m ρ)

end Cert.Kernel.Conv

end
-- ==== Proof.IdealFrame.lean ====
/-
  The frame run of the convolution program: @main is two stretches of host operations (the nine coefficient
  matrices joined into one [9, 64, 32] array; the input zero-padded to [2, 32, 58, 58]) followed by one region on a
  grid of two points, one per batch element. At point t the region hands the body block t of the padded input,
  the whole coefficient array, and a buffer for block t of the result; the body loads the input block and the
  nine coefficient slabs, and stores one value covering the whole result block.

  Stated here, for any float instance: what the region finds in each buffer (V: the host operations' results),
  each window's block at a point (iblk), what the body leaves in the result buffer as one term of the blocks it
  loaded (blockVal, outBlock), the body's triple, the proof data of the pipeline, and the run: every weakly fair
  execution terminates with the result array assembled from the blocks the points wrote and every other buffer as
  the region found it.
-/
import proofs.«171278_j39032662786092_1_alg».proof.Proof.Gen.KernelIdeal.Launch
import proofs.«171278_j39032662786092_1_alg».proof.Proof.Gen.KernelIdeal.Skeleton
import proofs.«171278_j39032662786092_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core c when the region is entered: the memory after both stretches of host operations. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- @main is the two stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes the input array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes the weight array. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The padded input's staging buffer holds its block at every point. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The coefficient array's staging buffer holds its one block at every point, fetched there or kept. -/
theorem before_k_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it stores -/

abbrev rX : Rect S1x32x58x58 := Rect.unit (s := S1x32x58x58) ![0, 0, 0, 0] S1x32x58x58.size Facts₀.inb_S1x32x58x58_S1x32x58x58_0_0_0_0
abbrev rK0 : Rect S9x64x32 := Rect.unit (s := S9x64x32) ![0, 0, 0] S1x64x32.size Facts₀.inb_S9x64x32_S1x64x32_0_0_0
abbrev rK1 : Rect S9x64x32 := Rect.unit (s := S9x64x32) ![1, 0, 0] S1x64x32.size Facts₀.inb_S9x64x32_S1x64x32_1_0_0
abbrev rK2 : Rect S9x64x32 := Rect.unit (s := S9x64x32) ![2, 0, 0] S1x64x32.size Facts₀.inb_S9x64x32_S1x64x32_2_0_0
abbrev rK3 : Rect S9x64x32 := Rect.unit (s := S9x64x32) ![3, 0, 0] S1x64x32.size Facts₀.inb_S9x64x32_S1x64x32_3_0_0
abbrev rK4 : Rect S9x64x32 := Rect.unit (s := S9x64x32) ![4, 0, 0] S1x64x32.size Facts₀.inb_S9x64x32_S1x64x32_4_0_0
abbrev rK5 : Rect S9x64x32 := Rect.unit (s := S9x64x32) ![5, 0, 0] S1x64x32.size Facts₀.inb_S9x64x32_S1x64x32_5_0_0
abbrev rK6 : Rect S9x64x32 := Rect.unit (s := S9x64x32) ![6, 0, 0] S1x64x32.size Facts₀.inb_S9x64x32_S1x64x32_6_0_0
abbrev rK7 : Rect S9x64x32 := Rect.unit (s := S9x64x32) ![7, 0, 0] S1x64x32.size Facts₀.inb_S9x64x32_S1x64x32_7_0_0
abbrev rK8 : Rect S9x64x32 := Rect.unit (s := S9x64x32) ![8, 0, 0] S1x64x32.size Facts₀.inb_S9x64x32_S1x64x32_8_0_0
abbrev rO : Rect S1x64x56x56 := Rect.unit (s := S1x64x56x56) ![0, 0, 0, 0] S1x64x56x56.size Facts₀.inb_S1x64x56x56_S1x64x56x56_0_0_0_0

/-- The value the body stores, as one term of the input block xb and the coefficient block kb it loaded: the
    nine shifted products accumulated, reshaped to the result block. -/
def blockVal (xb : Vec F S1x32x58x58 .f32) (kb : Vec F S9x64x32 .f32) : FVec F S1x64x56x56 .f32 :=
  k0_pay1 (k0_pay5 (k0_pay2 (View.ld xb rX))
    (k0_pay3 (View.ld xb rX) (View.ld kb rK0) (View.ld kb rK1) (View.ld kb rK2) (View.ld kb rK3))
    (k0_pay4 (View.ld xb rX))
    (View.ld kb rK4) (View.ld kb rK5) (View.ld kb rK6) (View.ld kb rK7) (View.ld kb rK8))

/-- The result buffer after the body: its one store, covering it. -/
def outBlock (xb : Vec F S1x32x58x58 .f32) (kb : Vec F S9x64x32 .f32) : Vec F S1x64x56x56 .f32 :=
  View.canon [⟨rO, blockVal xb kb⟩]

theorem cover_out (p0 : Vec F S1x64x56x56 .f32) (y : S1x64x56x56.Idx) :
    ∃ pc ∈ ([⟨rO, p0⟩] : List (View.Piece (Elt F) S1x64x56x56 .f32)), y ∈ pc.1.set :=
  View.cover_of_tiled [⟨rO, p0⟩] S1x64x56x56.size (by rfl) y

/-! ## The body's triple -/

set_option maxHeartbeats 4000000 in
/-- The body on whole staging memrefs, the two inputs at contents xb and kb and the result buffer at anything,
    runs to the continuation holding the inputs as they were and the result buffer at outBlock xb kb. -/
theorem sound_kernel (c : Dev nD) (E : Set ℕ) (i : grid0.Coords)
    (arg1 : Memref sig .tc .vmem S1x32x58x58 .f32) (harg1 : arg1.IsWhole)
    (arg2 : Memref sig .tc .vmem S9x64x32 .f32) (harg2 : arg2.IsWhole)
    (arg3 : Memref sig .tc .vmem S1x64x56x56 .f32) (harg3 : arg3.IsWhole)
    (xb : Vec F S1x32x58x58 .f32) (kb : Vec F S9x64x32 .f32) (K : PUnit → sProp 𝕄) :
    iprop(owns (c : Thread nD τ) arg1 fullShare xb ∗ owns (c : Thread nD τ) arg2 fullShare kb ∗ (∃ d, owns (c : Thread nD τ) arg3 fullShare d)
        ∗ (iprop(owns (c : Thread nD τ) arg1 fullShare xb ∗ owns (c : Thread nD τ) arg2 fullShare kb ∗ owns (c : Thread nD τ) arg3 fullShare (outBlock xb kb)) -∗ K ⟨⟩))
      ⊢ wp frame (wpE (defs₀ (F := F)) Variants.none c none) E (cc0__conv_kernel i arg1 harg1 arg2 harg2 arg3 harg3) K := by
  simp only [cc0__conv_kernel_eq_skeleton]; unfold cc0__conv_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data of the pipeline on core c: the arrays as the region finds them; after the body at point t the
    two inputs' buffers at their blocks and the result buffer at outBlock of those blocks; the invariant the scoped
    rest and the random-number register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_o (c : Dev nD) (t : Fin cfg0.N) : (dats m 0 c).after 2 t = outBlock (iblk m c 0 t) (iblk m c 1 t) := by dsimp only [dats]

theorem before_x (c : Dev nD) (t : Fin cfg0.N) (d) : (dats m 0 c).before 0 t d = iblk m c 0 t :=
  before_x_of m (dats m 0 c) (A_eq m c 0) (after_x m c) t d
theorem before_k (c : Dev nD) (t : Fin cfg0.N) (d) : (dats m 0 c).before 1 t d = iblk m c 1 t :=
  before_k_of m (dats m 0 c) (A_eq m c 1) (after_k m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and
    the core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_k]
  rw [show (dats m 0 c).Φ t.succ = (dats m 0 c).Φ t.castSucc from rfl,
    show (dats m 0 c).owesAt () t.succ = (dats m 0 c).owesAt () t.castSucc from rfl,
    after_x, after_k, after_o]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates, and every final state has
    every array of the pipeline at what the proof data assembles from the points' write-backs and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m ρ)

end Cert.KernelIdeal.Conv

end
-- ==== Proof.KerBlocks.lean ====
/-
  The geometry of the region's blocks: which entries of the padded input, of the coefficient array and of the
  result array the block of each grid point consists of.

  The grid has two points, one per batch element. At point t the block of the padded input is its batch element
  t (all 32 channels, all 58 x 58 padded positions); the coefficient array is one block, the same at both points;
  the block of the result is its batch element t (all 64 channels, all 56 x 56 positions), and it is written back
  at both points. So the two result blocks partition the result array by the batch coordinate, and if the value
  stored at point t is, entry by entry, a function G of the whole result array read at batch element t, the
  result array ends holding G.
-/
import proofs.«171278_j39032662786092_1_alg».proof.Proof.IdealFrame
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Conv

variable {F : FTy → Type} [FloatOps F]
variable (m : (ℓ : Loc nD τ sig) → Buf (Elt F) ℓ)

/-! ## The grid's points and the windows' block indices -/

/-- The batch element of grid point t. -/
abbrev bat (t : Fin cfg0.N) : Fin 2 := Fin.cast N_0 t

/-- The grid point of batch element n. -/
abbrev pt (n : Fin 2) : Fin cfg0.N := Fin.cast N_0.symm n

theorem zeros4 : (![0, 0, 0, 0] : Fin 4 → Nat) = fun _ => 0 := funext fun a => by fin_cases a <;> rfl

/-- The block indices of the three windows at point t: the padded input's and the result's are (t, 0, 0, 0), the
    coefficient array's is (0, 0, 0). -/
theorem block_index : ∀ t : Fin cfg0.N,
    (win0_0.index t (0 : Fin 4) = t.val ∧ win0_0.index t (1 : Fin 4) = 0 ∧ win0_0.index t (2 : Fin 4) = 0
      ∧ win0_0.index t (3 : Fin 4) = 0)
    ∧ (win0_1.index t (0 : Fin 3) = 0 ∧ win0_1.index t (1 : Fin 3) = 0 ∧ win0_1.index t (2 : Fin 3) = 0)
    ∧ (win0_2.index t (0 : Fin 4) = t.val ∧ win0_2.index t (1 : Fin 4) = 0 ∧ win0_2.index t (2 : Fin 4) = 0
      ∧ win0_2.index t (3 : Fin 4) = 0) :=
  (by decide +kernel : ∀ t : Fin grid0.N, _)

/-! ## The input blocks, read where they lie -/

/-- The padded input's block at point t, at (0, a, i, j), is the padded input at (t, a, i, j). -/
theorem iblk_x_apply (c : Dev nD) (t : Fin cfg0.N) (y : S1x32x58x58.Idx) :
    (iblk m c 0 t : Vec F S1x32x58x58 .f32) y
      = (V m c main_v76 : S2x32x58x58.Idx → Elt F .f32) (ix4 (bat t) (y 1) (y 2) (y 3)) := by
  obtain ⟨⟨e0, e1, e2, e3⟩, -, -⟩ := block_index t
  unfold iblk
  rw [View.read_apply]
  show V m c main_v76 _ = V m c main_v76 _
  congr 1
  funext a
  apply Fin.ext
  match a with
  | ⟨0, _⟩ => show win0_0.index t (0 : Fin 4) * 1 + 1 * (y 0).val = t.val; have h0 : (y 0).val < 1 := (y 0).isLt; omega
  | ⟨1, _⟩ => show win0_0.index t (1 : Fin 4) * 32 + 1 * (y 1).val = (y 1).val; omega
  | ⟨2, _⟩ => show win0_0.index t (2 : Fin 4) * 58 + 1 * (y 2).val = (y 2).val; omega
  | ⟨3, _⟩ => show win0_0.index t (3 : Fin 4) * 58 + 1 * (y 3).val = (y 3).val; omega

/-- The coefficient array's block at any point is the coefficient array. -/
theorem iblk_k_apply (c : Dev nD) (t : Fin cfg0.N) (y : S9x64x32.Idx) :
    (iblk m c 1 t : Vec F S9x64x32 .f32) y = (V m c main_v75 : S9x64x32.Idx → Elt F .f32) y := by
  obtain ⟨-, ⟨e0, e1, e2⟩, -⟩ := block_index t
  unfold iblk
  rw [View.read_apply]
  show V m c main_v75 _ = V m c main_v75 _
  congr 1
  funext a
  apply Fin.ext
  match a with
  | ⟨0, _⟩ => show win0_1.index t (0 : Fin 3) * 9 + 1 * (y 0).val = (y 0).val; omega
  | ⟨1, _⟩ => show win0_1.index t (1 : Fin 3) * 64 + 1 * (y 1).val = (y 1).val; omega
  | ⟨2, _⟩ => show win0_1.index t (2 : Fin 3) * 32 + 1 * (y 2).val = (y 2).val; omega

/-! ## The loads inside the stored value -/

/-- The body's load of the whole input block reads the block. -/
theorem ld_x (xb : Vec F S1x32x58x58 .f32) : View.ld xb rX = xb :=
  View.ld_unit_zero (S := S1x32x58x58) zeros4 _ xb

/-- The body's load of coefficient slab j, at (0, o, a), reads the coefficient block at (j, o, a). -/
theorem ld_k_apply (kb : Vec F S9x64x32 .f32) (j : Fin 9) (inb : ∀ a, (![j.val, 0, 0] : Fin 3 → Nat) a + S1x64x32.size a ≤ S9x64x32.size a)
    (y : S1x64x32.Idx) :
    View.ld kb (Rect.unit (s := S9x64x32) ![j.val, 0, 0] S1x64x32.size inb) y = kb (ix3 j (y 1) (y 2)) := by
  show kb _ = kb _
  congr 1
  funext a
  apply Fin.ext
  match a with
  | ⟨0, _⟩ => show j.val + 1 * (y 0).val = j.val; have h0 : (y 0).val < 1 := (y 0).isLt; omega
  | ⟨1, _⟩ => show 0 + 1 * (y 1).val = (y 1).val; omega
  | ⟨2, _⟩ => show 0 + 1 * (y 2).val = (y 2).val; omega

theorem ld_k0 (kb : Vec F S9x64x32 .f32) (y : S1x64x32.Idx) : View.ld kb rK0 y = kb (ix3 0 (y 1) (y 2)) := ld_k_apply kb 0 _ y
theorem ld_k1 (kb : Vec F S9x64x32 .f32) (y : S1x64x32.Idx) : View.ld kb rK1 y = kb (ix3 1 (y 1) (y 2)) := ld_k_apply kb 1 _ y
theorem ld_k2 (kb : Vec F S9x64x32 .f32) (y : S1x64x32.Idx) : View.ld kb rK2 y = kb (ix3 2 (y 1) (y 2)) := ld_k_apply kb 2 _ y
theorem ld_k3 (kb : Vec F S9x64x32 .f32) (y : S1x64x32.Idx) : View.ld kb rK3 y = kb (ix3 3 (y 1) (y 2)) := ld_k_apply kb 3 _ y
theorem ld_k4 (kb : Vec F S9x64x32 .f32) (y : S1x64x32.Idx) : View.ld kb rK4 y = kb (ix3 4 (y 1) (y 2)) := ld_k_apply kb 4 _ y
theorem ld_k5 (kb : Vec F S9x64x32 .f32) (y : S1x64x32.Idx) : View.ld kb rK5 y = kb (ix3 5 (y 1) (y 2)) := ld_k_apply kb 5 _ y
theorem ld_k6 (kb : Vec F S9x64x32 .f32) (y : S1x64x32.Idx) : View.ld kb rK6 y = kb (ix3 6 (y 1) (y 2)) := ld_k_apply kb 6 _ y
theorem ld_k7 (kb : Vec F S9x64x32 .f32) (y : S1x64x32.Idx) : View.ld kb rK7 y = kb (ix3 7 (y 1) (y 2)) := ld_k_apply kb 7 _ y
theorem ld_k8 (kb : Vec F S9x64x32 .f32) (y : S1x64x32.Idx) : View.ld kb rK8 y = kb (ix3 8 (y 1) (y 2)) := ld_k_apply kb 8 _ y

/-! ## The result window -/

/-- A function of the whole result array, read through the result block of point t at (0, o, h, v), is the
    function at (t, o, h, v). -/
theorem read_out_apply (G : S2x64x56x56.Idx → Elt F .f32) (t : Fin cfg0.N) (y : S1x64x56x56.Idx) :
    (((cfg0.win 2).blk t).view.read (Elt F) G : Vec F S1x64x56x56 .f32) y = G (ix4 (bat t) (y 1) (y 2) (y 3)) := by
  obtain ⟨-, -, ⟨e0, e1, e2, e3⟩⟩ := block_index t
  rw [View.read_apply]
  show G _ = G _
  congr 1
  funext a
  apply Fin.ext
  match a with
  | ⟨0, _⟩ => show win0_2.index t (0 : Fin 4) * 1 + 1 * (y 0).val = t.val; have h0 : (y 0).val < 1 := (y 0).isLt; omega
  | ⟨1, _⟩ => show win0_2.index t (1 : Fin 4) * 64 + 1 * (y 1).val = (y 1).val; omega
  | ⟨2, _⟩ => show win0_2.index t (2 : Fin 4) * 56 + 1 * (y 2).val = (y 2).val; omega
  | ⟨3, _⟩ => show win0_2.index t (3 : Fin 4) * 56 + 1 * (y 3).val = (y 3).val; omega

/-- An index of the result array lies in the result block of point t exactly when its batch coordinate is t. -/
theorem mem_out_blk (t : Fin cfg0.N) (i : S2x64x56x56.Idx) :
    i ∈ ((cfg0.win 2).blk t).view.set ↔ (i 0).val = t.val := by
  show i ∈ ((View.whole main_v77).slice (win0_2.rect t)).set ↔ _
  rw [View.set_slice_whole, Rect.mem_set_unit]
  obtain ⟨-, -, ⟨e0, e1, e2, e3⟩⟩ := block_index t
  have h1 : (i 1).val < 64 := (i 1).isLt
  have h2 : (i 2).val < 56 := (i 2).isLt
  have h3 : (i 3).val < 56 := (i 3).isLt
  constructor
  · intro h
    have b0 : win0_2.index t (0 : Fin 4) * 1 ≤ (i 0).val ∧ (i 0).val < win0_2.index t (0 : Fin 4) * 1 + 1 := h 0
    omega
  · intro h a
    match a with
    | ⟨0, _⟩ => show win0_2.index t (0 : Fin 4) * 1 ≤ (i 0).val ∧ (i 0).val < win0_2.index t (0 : Fin 4) * 1 + 1; omega
    | ⟨1, _⟩ => show win0_2.index t (1 : Fin 4) * 64 ≤ (i 1).val ∧ (i 1).val < win0_2.index t (1 : Fin 4) * 64 + 64; omega
    | ⟨2, _⟩ => show win0_2.index t (2 : Fin 4) * 56 ≤ (i 2).val ∧ (i 2).val < win0_2.index t (2 : Fin 4) * 56 + 56; omega
    | ⟨3, _⟩ => show win0_2.index t (3 : Fin 4) * 56 ≤ (i 3).val ∧ (i 3).val < win0_2.index t (3 : Fin 4) * 56 + 56; omega

/-- Every index of the result array lies in the block of the point of its batch coordinate, which is written back. -/
theorem cover_out_blocks (i : S2x64x56x56.Idx) :
    ∃ t : Fin cfg0.N, (cfg0.win 2).flush t = true ∧ i ∈ ((cfg0.win 2).blk t).view.set := by
  refine ⟨pt (i 0), flush0_2 _, ?_⟩
  rw [mem_out_blk]
  rfl

/-! ## What a point writes back, and the result array -/

/-- What point t writes back is the value the body stores, of the two input blocks of point t. -/
theorem flushed_eq (c : Dev nD) (t : Fin cfg0.N) :
    (dats m 0 c).flushed 2 t = blockVal (iblk m c 0 t) (iblk m c 1 t) := by
  show (cfg0.win 2).cut (grid0.coords t) ((dats m 0 c).after 2 t) = _
  rw [after_o]
  unfold outBlock
  rw [View.canon_unit_zero zeros4]
  rfl

/-- The result array: if the value stored at each point t is, entry by entry, G at batch element t, the result
    array ends holding G. -/
theorem final (c : Dev nD) (G : S2x64x56x56.Idx → Elt F .f32)
    (hblk : ∀ (t : Fin cfg0.N) (y : S1x64x56x56.Idx),
      blockVal (iblk m c 0 t) (iblk m c 1 t) y = G (ix4 (bat t) (y 1) (y 2) (y 3))) :
    (dats m 0 c).arrAt 2 cfg0.N = G :=
  (dats m 0 c).arrAt_eq_of_cover 2 G
    (fun t _ => (flushed_eq m c t).trans (funext fun y => (hblk t y).trans (read_out_apply G t y).symm))
    cover_out_blocks

end Cert.KernelIdeal.Blocks

end
-- ==== Proof.KerPayload.lean ====
/-
  The kernel body's stored value, read entry by entry over the extended reals.

  The body holds one batch element's zero-padded input block x0 of shape [1, 32, 58, 58] and nine coefficient
  slabs k_0 .. k_8 of shape [1, 64, 32]. For the shift t = 3 dh + dw it cuts the window
  x0[:, dh : dh + 56, dw : dw + 56], flattens its two spatial axes to one axis of 3136 = 56 * 56 positions
  (position 56 h + v), multiplies the slab k_t (a 64 x 32 matrix) by that 32 x 3136 matrix into a zero
  accumulator, adds the nine products starting from a zero array, and unflattens to [1, 64, 56, 56]. Changes of
  float format are the identity on the extended reals, so the entry (0, o, h, v) of what is stored is the sum over
  the nine shifts, in the body's order, of  sum_c k_t(0, o, c) * x0(0, c, h + dh, v + dw)  (stored_apply).
-/
import proofs.«171278_j39032662786092_1_alg».proof.Proof.Gen.KernelIdeal.Skeleton
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The window of the block (without its leading unit axis) moved by (dh, dw), its two spatial axes flattened to
    one. -/
def win (dh dw : Nat) (hs : S32x58x58.Slices ![0, dh, dw] S32x56x56) (x1 : FVec Ideal S32x58x58 .f32) :
    FVec Ideal S32x3136 .bf16 :=
  truncf .bf16 (shapeCast S32x3136 (extractStridedSlice S32x56x56 ![0, dh, dw] x1 hs) shapeCasts_S32x56x56_S32x3136)
    bitsLt_bf16_f32

/-- One coefficient slab, as a 64 x 32 matrix, times a 32 x 3136 matrix, into a zero accumulator. -/
def prod (kt : FVec Ideal S1x64x32 .f32) (r : FVec Ideal S32x3136 .bf16) : FVec Ideal S64x3136 .f32 :=
  matmul dot_S64x32_S32x3136_S64x3136_1_0_0_1_n_n none
    (truncf .bf16 (shapeCast S64x32 kt shapeCasts_S1x64x32_S64x32) bitsLt_bf16_f32) r
    (constant S64x3136 .f32 0x00000000#32)

/-! ## The payloads as compositions of windows and products (by unfolding) -/

theorem pay1_eq (y : FVec Ideal S64x56x56 .f32) :
    k0_pay1 (F := Ideal) y = shapeCast S1x64x56x56 y shapeCasts_S64x56x56_S1x64x56x56 := rfl

theorem pay2_eq (x0 : FVec Ideal S1x32x58x58 .f32) :
    k0_pay2 (F := Ideal) x0 = shapeCast S32x58x58 x0 shapeCasts_S1x32x58x58_S32x58x58 := rfl

theorem pay4_eq (x0 : FVec Ideal S1x32x58x58 .f32) :
    k0_pay4 (F := Ideal) x0 = win 1 1 slices_S32x58x58_o0_1_1_S32x56x56 (k0_pay2 (F := Ideal) x0) := rfl

theorem pay3_eq (x0 : FVec Ideal S1x32x58x58 .f32) (k0 k1 k2 k3 : FVec Ideal S1x64x32 .f32) :
    k0_pay3 (F := Ideal) x0 k0 k1 k2 k3 =
      addf (addf (addf (addf (broadcast S64x3136 (Ideal.ofBits .f32 0x00000000#32))
        (prod k0 (win 0 0 slices_S32x58x58_o0_0_0_S32x56x56 (k0_pay2 (F := Ideal) x0))))
        (prod k1 (win 0 1 slices_S32x58x58_o0_0_1_S32x56x56 (k0_pay2 (F := Ideal) x0))))
        (prod k2 (win 0 2 slices_S32x58x58_o0_0_2_S32x56x56 (k0_pay2 (F := Ideal) x0))))
        (prod k3 (win 1 0 slices_S32x58x58_o0_1_0_S32x56x56 (k0_pay2 (F := Ideal) x0))) := rfl

theorem pay5_eq (x1 : FVec Ideal S32x58x58 .f32) (a : FVec Ideal S64x3136 .f32) (r : FVec Ideal S32x3136 .bf16)
    (k4 k5 k6 k7 k8 : FVec Ideal S1x64x32 .f32) :
    k0_pay5 (F := Ideal) x1 a r k4 k5 k6 k7 k8 =
      shapeCast S64x56x56
        (addf (addf (addf (addf (addf a (prod k4 r))
          (prod k5 (win 1 2 slices_S32x58x58_o0_1_2_S32x56x56 x1)))
          (prod k6 (win 2 0 slices_S32x58x58_o0_2_0_S32x56x56 x1)))
          (prod k7 (win 2 1 slices_S32x58x58_o0_2_1_S32x56x56 x1)))
          (prod k8 (win 2 2 slices_S32x58x58_o0_2_2_S32x56x56 x1)))
        shapeCasts_S64x3136_S64x56x56 := rfl

/-! ## One product read at an entry -/

/-- The product's dimension numbers: the left operand's axis 1 against the right operand's axis 0. -/
abbrev D := dot_S64x32_S32x3136_S64x3136_1_0_0_1_n_n

/-- At output (o, q) and contraction position c the left operand is read at (o, c). -/
theorem lhs_idx (o : Fin 64) (q : Fin 3136) (c : Fin 32) :
    D.lhsIdx (ix2 o q) ((contrEquiv1 D 32 rfl rfl).symm c) = ix2 o c := by
  have c2 := contrEquiv1_symm_val D 32 rfl rfl c
  funext ax; apply Fin.ext
  match ax with
  | ⟨0, _⟩ => simp [DotDims.lhsIdx, D, dot_S64x32_S32x3136_S64x3136_1_0_0_1_n_n]; rfl
  | ⟨1, _⟩ => simp [DotDims.lhsIdx, D, dot_S64x32_S32x3136_S64x3136_1_0_0_1_n_n]; exact c2

/-- At output (o, q) and contraction position c the right operand is read at (c, q). -/
theorem rhs_idx (o : Fin 64) (q : Fin 3136) (c : Fin 32) :
    D.rhsIdx (ix2 o q) ((contrEquiv1 D 32 rfl rfl).symm c) = ix2 c q := by
  have c2 := contrEquiv1_symm_val D 32 rfl rfl c
  funext ax; apply Fin.ext
  match ax with
  | ⟨0, _⟩ => simp [DotDims.rhsIdx, D, dot_S64x32_S32x3136_S64x3136_1_0_0_1_n_n]; exact c2
  | ⟨1, _⟩ => simp [DotDims.rhsIdx, D, dot_S64x32_S32x3136_S64x3136_1_0_0_1_n_n]; rfl

/-- The flattened window at (c, 56 h + v) is the block at (c, h + dh, v + dw). -/
theorem win_apply (dh dw : Nat) (hs : S32x58x58.Slices ![0, dh, dw] S32x56x56) (x1 : FVec Ideal S32x58x58 .f32)
    (c : Fin 32) (h v : Fin 56) (q : Fin 3136) (hq : q.val = 56 * h.val + v.val)
    (hh : h.val + dh < 58) (hv : v.val + dw < 58) :
    win dh dw hs x1 (ix2 c q) = x1 (ix3 c ⟨h.val + dh, hh⟩ ⟨v.val + dw, hv⟩) := by
  unfold win
  refine (truncf_apply (ψ := .bf16) _ bitsLt_bf16_f32 _).trans ?_
  refine (shapeCast_apply _ shapeCasts_S32x56x56_S32x3136 (ix2 c q) (ix3 c h v) ?_).trans ?_
  · rw [Shape.rowMajor_val_three, Shape.rowMajor_val_two]
    show (c.val * 56 + h.val) * 56 + v.val = c.val * 3136 + q.val
    omega
  · exact extractStridedSlice_apply _ x1 hs (ix3 c h v) (ix3 c ⟨h.val + dh, hh⟩ ⟨v.val + dw, hv⟩) (fun a =>
      match a with
      | ⟨0, _⟩ => by show c.val = 0 + c.val; omega
      | ⟨1, _⟩ => by show h.val + dh = dh + h.val; omega
      | ⟨2, _⟩ => by show v.val + dw = dw + v.val; omega)

/-- One product at (o, 56 h + v): the slab's row o against the window's column, over the 32 input channels. -/
theorem prod_win_apply (dh dw : Nat) (hs : S32x58x58.Slices ![0, dh, dw] S32x56x56) (x1 : FVec Ideal S32x58x58 .f32)
    (kt : FVec Ideal S1x64x32 .f32) (o : Fin 64) (h v : Fin 56) (q : Fin 3136) (hq : q.val = 56 * h.val + v.val)
    (hh : h.val + dh < 58) (hv : v.val + dw < 58) :
    prod kt (win dh dw hs x1) (ix2 o q)
      = ∑ c : Fin 32, kt (ix3 (0 : Fin 1) o c) * x1 (ix3 c ⟨h.val + dh, hh⟩ ⟨v.val + dw, hv⟩) := by
  unfold prod
  refine (Ideal.matmul_constant_zero_apply D none _ _ (ix2 o q)).trans ?_
  rw [← Equiv.sum_comp (contrEquiv1 D 32 rfl rfl).symm]
  refine Finset.sum_congr rfl fun c _ => ?_
  rw [lhs_idx, rhs_idx, win_apply dh dw hs x1 c h v q hq hh hv]
  refine congrArg (· * _) ?_
  refine (truncf_apply (ψ := .bf16) _ bitsLt_bf16_f32 _).trans ?_
  exact shapeCast_1ab_ab_apply kt shapeCasts_S1x64x32_S64x32 o c

/-! ## The stored value at an entry -/

/-- The block without its leading unit axis, at (c, i, j), is the block at (0, c, i, j). -/
theorem pay2_apply (x0 : FVec Ideal S1x32x58x58 .f32) (c : Fin 32) (i j : Fin 58) :
    k0_pay2 (F := Ideal) x0 (ix3 c i j) = x0 (ix4 (0 : Fin 1) c i j) := by
  rw [pay2_eq]
  exact shapeCast_1abc_abc_apply x0 shapeCasts_S1x32x58x58_S32x58x58 c i j

/-- One shifted product at output (o, h, v): the slab kt against the padded block moved by (dh, dw), contracted
    over the 32 input channels. -/
def tapv (x0 : FVec Ideal S1x32x58x58 .f32) (kt : FVec Ideal S1x64x32 .f32) (o : Fin 64) (h v : Fin 56)
    (dh dw : Nat) (hdh : dh ≤ 2 := by decide) (hdw : dw ≤ 2 := by decide) : EReal :=
  ∑ c : Fin 32, kt (ix3 (0 : Fin 1) o c)
    * x0 (ix4 (0 : Fin 1) c ⟨h.val + dh, by have := h.isLt; omega⟩ ⟨v.val + dw, by have := v.isLt; omega⟩)

/-- A slab times the flattened window of the block, at (o, 56 h + v), is that shifted product. -/
theorem tap_eq (dh dw : Nat) (hdh : dh ≤ 2) (hdw : dw ≤ 2) (hs : S32x58x58.Slices ![0, dh, dw] S32x56x56)
    (x0 : FVec Ideal S1x32x58x58 .f32) (kt : FVec Ideal S1x64x32 .f32) (o : Fin 64) (h v : Fin 56) (q : Fin 3136)
    (hq : q.val = 56 * h.val + v.val) :
    prod kt (win dh dw hs (k0_pay2 (F := Ideal) x0)) (ix2 o q) = tapv x0 kt o h v dh dw hdh hdw := by
  rw [prod_win_apply dh dw hs (k0_pay2 (F := Ideal) x0) kt o h v q hq (by have := h.isLt; omega) (by have := v.isLt; omega)]
  unfold tapv
  refine Finset.sum_congr rfl fun c _ => ?_
  rw [pay2_apply]

/-- The value the body stores, at entry (0, o, h, v): the nine shifted products added in the body's order. -/
theorem stored_apply (x0 : FVec Ideal S1x32x58x58 .f32) (k0 k1 k2 k3 k4 k5 k6 k7 k8 : FVec Ideal S1x64x32 .f32)
    (o : Fin 64) (h v : Fin 56) :
    k0_pay1 (F := Ideal) (k0_pay5 (F := Ideal) (k0_pay2 (F := Ideal) x0) (k0_pay3 (F := Ideal) x0 k0 k1 k2 k3) (k0_pay4 (F := Ideal) x0) k4 k5 k6 k7 k8)
        (ix4 (0 : Fin 1) o h v)
      = ((((((((tapv x0 k0 o h v 0 0 + tapv x0 k1 o h v 0 1) + tapv x0 k2 o h v 0 2) + tapv x0 k3 o h v 1 0)
          + tapv x0 k4 o h v 1 1) + tapv x0 k5 o h v 1 2) + tapv x0 k6 o h v 2 0) + tapv x0 k7 o h v 2 1)
          + tapv x0 k8 o h v 2 2) := by
  have hlt : 56 * h.val + v.val < 3136 := by have := h.isLt; have := v.isLt; omega
  have hq : (⟨56 * h.val + v.val, hlt⟩ : Fin 3136).val = 56 * h.val + v.val := rfl
  rw [pay1_eq]
  refine (shapeCast_abc_1abc_apply _ shapeCasts_S64x56x56_S1x64x56x56 (0 : Fin 1) o h v).trans ?_
  rw [pay5_eq]
  refine (shapeCast_apply _ shapeCasts_S64x3136_S64x56x56 (ix3 o h v) (ix2 o ⟨56 * h.val + v.val, hlt⟩) ?_).trans ?_
  · rw [Shape.rowMajor_val_three, Shape.rowMajor_val_two]
    show o.val * 3136 + (56 * h.val + v.val) = (o.val * 56 + h.val) * 56 + v.val
    omega
  rw [pay3_eq, pay4_eq]
  simp only [addf_apply, broadcast_apply]
  rw [tap_eq 0 0 (by decide) (by decide) _ x0 k0 o h v _ hq, tap_eq 0 1 (by decide) (by decide) _ x0 k1 o h v _ hq,
    tap_eq 0 2 (by decide) (by decide) _ x0 k2 o h v _ hq, tap_eq 1 0 (by decide) (by decide) _ x0 k3 o h v _ hq,
    tap_eq 1 1 (by decide) (by decide) _ x0 k4 o h v _ hq, tap_eq 1 2 (by decide) (by decide) _ x0 k5 o h v _ hq,
    tap_eq 2 0 (by decide) (by decide) _ x0 k6 o h v _ hq, tap_eq 2 1 (by decide) (by decide) _ x0 k7 o h v _ hq,
    tap_eq 2 2 (by decide) (by decide) _ x0 k8 o h v _ hq, Ideal.ofBits_zero_f32, zero_add]

end Cert.KernelIdeal.Pay

end
-- ==== Proof.KerRun.lean ====
/-
  The idealized kernel's run with its result named: once the blocks written at the two grid points are known to
  assemble to a whole-array function, every execution ends with the result array at that function and both
  argument arrays unchanged.
-/
import proofs.«171278_j39032662786092_1_alg».proof.Proof.IdealFrame
import Idealize.ShloMosaic.Lib.Pipeline.Value

noncomputable section
namespace Cert.KernelIdeal.Conv
open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The run with the result array named: if the blocks the two points wrote assemble to G c, every execution ends
    with the result at G c and both arguments unchanged. -/
theorem run_named (G : (c : Dev nD) → Buf (Elt F) ((c.tc : Thread nD τ).loc main_v77))
    (hG : ∀ c, (dats m 0 c).arrAt 2 cfg0.N = G c) :
    θ_run defs (onTc (τ := τ) (main (F := F))) ⟨m, fun _ => 0, ρ⟩ (fun r => ∀ c : Dev nD,
      r.2.mem ((c.tc : Thread nD τ).loc main_v77) = G c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (hG c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m ρ)

end Cert.KernelIdeal.Conv
end
-- ==== Proof.ConvSpec.lean ====
/-
  The mathematics both programs compute, stated once over the argument arrays.

  Input x of shape [2, 32, 56, 56] is read through its zero padding by one cell on each side of the two spatial
  axes: xpad x n c i j for padded coordinates i, j in 0..57. From the weight array of shape [64, 32, 3, 3]
  both programs derive, per (output channel o, input channel c), four predict coefficients p0..p3 (each a
  quotient by one of the three weight entries (2,1), (1,2), (1,1)) and five update coefficients u0..u4 (weight
  entries themselves).

  The reference is a lifting scheme: predict steps on shifted copies of the padded input, update steps, a crop
  of the last two rows and columns, and a sum over the input channels (refOut). The kernel folds the scheme into
  nine coefficients per (o, c), one per shift (dh, dw) in {0,1,2}^2 (coef), and accumulates nine products of a
  coefficient matrix with a shifted window of the padded input (kerOut).
-/
import Idealize.ShloMosaic.PureOps.Ideal
import Idealize.ShloMosaic.Lib.ValueIdx

noncomputable section

open scoped BigOperators

namespace Cert.ConvSpec

open Idealize.ShloMosaic Idealize.ShloMosaic.ValueIdx

abbrev XS : Shape := ⟨4, ![2, 32, 56, 56]⟩
abbrev WS : Shape := ⟨4, ![64, 32, 3, 3]⟩
abbrev OS : Shape := ⟨4, ![2, 64, 56, 56]⟩

/-- The f32 word of 1.0, as the programs carry it. -/
abbrev one : EReal := Ideal.ofBits .f32 0x3F800000#32

/-- The weight entry (o, c, a, b). -/
def wt (w : WS.Idx → EReal) (o : Fin 64) (c : Fin 32) (a b : Fin 3) : EReal := w (ix4 o c a b)

/-- The input read through its zero padding: padded coordinates (i, j), the interior being 1..56. -/
def xpad (x : XS.Idx → EReal) (n : Fin 2) (c : Fin 32) (i j : Nat) : EReal :=
  if h : 1 ≤ i ∧ i ≤ 56 ∧ 1 ≤ j ∧ j ≤ 56 then x (ix4 n c ⟨i - 1, by omega⟩ ⟨j - 1, by omega⟩) else 0

/-! ## The predict and update coefficients, in the programs' own order of operations -/

def p0 (w : WS.Idx → EReal) (o : Fin 64) (c : Fin 32) : EReal := Ideal.div (-(wt w o c 2 0)) (wt w o c 2 1)
def p1 (w : WS.Idx → EReal) (o : Fin 64) (c : Fin 32) : EReal := Ideal.div (-(wt w o c 0 2)) (wt w o c 1 2)
def p2 (w : WS.Idx → EReal) (o : Fin 64) (c : Fin 32) : EReal :=
  Ideal.div (((one - wt w o c 0 0) + Ideal.div (wt w o c 2 0 * wt w o c 0 1) (wt w o c 2 1))
    + Ideal.div (wt w o c 0 2 * wt w o c 1 0) (wt w o c 1 2)) (wt w o c 1 1)
def p3 (w : WS.Idx → EReal) (o : Fin 64) (c : Fin 32) : EReal := Ideal.div (-(wt w o c 2 2)) (wt w o c 1 1)
def u0 (w : WS.Idx → EReal) (o : Fin 64) (c : Fin 32) : EReal := wt w o c 0 1
def u1 (w : WS.Idx → EReal) (o : Fin 64) (c : Fin 32) : EReal := wt w o c 2 1
def u2 (w : WS.Idx → EReal) (o : Fin 64) (c : Fin 32) : EReal := wt w o c 1 0
def u3 (w : WS.Idx → EReal) (o : Fin 64) (c : Fin 32) : EReal := wt w o c 1 2
def u4 (w : WS.Idx → EReal) (o : Fin 64) (c : Fin 32) : EReal := wt w o c 1 1

/-! ## The reference: the lifting scheme at one output entry -/

/-- The lifting scheme's value for one input channel c at output (n, o, h, v), h, v < 56: with X i j the padded
    input at (h + i, v + j),
    X00 + u0 (X01 - p0 X00) + u1 (X21 - p0 X20) + u2 (X10 - p1 X00) + u3 (X12 - p1 X02)
        + u4 ((X11 - p2 X00) - p3 X22). -/
def lift (x : XS.Idx → EReal) (w : WS.Idx → EReal) (n : Fin 2) (o : Fin 64) (h v : Fin 56) (c : Fin 32) : EReal :=
  let X (i j : Nat) : EReal := xpad x n c (h.val + i) (v.val + j)
  (((((X 0 0 + u0 w o c * (X 0 1 - p0 w o c * X 0 0))
      + u1 w o c * (X 2 1 - p0 w o c * X 2 0))
      + u2 w o c * (X 1 0 - p1 w o c * X 0 0))
      + u3 w o c * (X 1 2 - p1 w o c * X 0 2))
      + u4 w o c * ((X 1 1 - p2 w o c * X 0 0) - p3 w o c * X 2 2))

/-- The reference's result: the lifting scheme summed over the input channels. -/
def refOut (x : XS.Idx → EReal) (w : WS.Idx → EReal) : OS.Idx → EReal :=
  fun i => ∑ c : Fin 32, lift x w (i 0) (i 1) (i 2) (i 3) c

/-! ## The kernel: nine folded coefficients and nine shifted products -/

/-- The coefficient of the shift t = 3 dh + dw, as the kernel's host code computes it. -/
def coef (w : WS.Idx → EReal) (t : Fin 9) (o : Fin 64) (c : Fin 32) : EReal :=
  match t with
  | ⟨0, _⟩ => ((one - u0 w o c * p0 w o c) - u2 w o c * p1 w o c) - u4 w o c * p2 w o c
  | ⟨1, _⟩ => u0 w o c
  | ⟨2, _⟩ => (-(u3 w o c)) * p1 w o c
  | ⟨3, _⟩ => u2 w o c
  | ⟨4, _⟩ => u4 w o c
  | ⟨5, _⟩ => u3 w o c
  | ⟨6, _⟩ => (-(u1 w o c)) * p0 w o c
  | ⟨7, _⟩ => u1 w o c
  | ⟨8, _⟩ => (-(u4 w o c)) * p3 w o c

/-- One shifted product at output (n, o, h, v): the coefficients of shift t against the padded input moved by
    (dh, dw), contracted over the input channels. -/
def tap (x : XS.Idx → EReal) (w : WS.Idx → EReal) (n : Fin 2) (o : Fin 64) (h v : Fin 56) (t : Fin 9) (dh dw : Nat) : EReal :=
  ∑ c : Fin 32, coef w t o c * xpad x n c (h.val + dh) (v.val + dw)

/-- The kernel's result: the nine shifted products added in the kernel's order. -/
def kerOut (x : XS.Idx → EReal) (w : WS.Idx → EReal) : OS.Idx → EReal :=
  fun i =>
    let T (t : Fin 9) (dh dw : Nat) : EReal := tap x w (i 0) (i 1) (i 2) (i 3) t dh dw
    ((((((((T 0 0 0 + T 1 0 1) + T 2 0 2) + T 3 1 0) + T 4 1 1) + T 5 1 2) + T 6 2 0) + T 7 2 1) + T 8 2 2)

/-! ## The domain on which the two agree -/

/-- Every entry of both arrays is a real number and the three weight entries the reference divides by are not
    zero. -/
structure Dom (x : XS.Idx → EReal) (w : WS.Idx → EReal) : Prop where
  xfin : ∀ i, x i ≠ ⊤ ∧ x i ≠ ⊥
  wfin : ∀ i, w i ≠ ⊤ ∧ w i ≠ ⊥
  d21 : ∀ o c, wt w o c 2 1 ≠ 0
  d12 : ∀ o c, wt w o c 1 2 ≠ 0
  d11 : ∀ o c, wt w o c 1 1 ≠ 0

end Cert.ConvSpec

end
-- ==== Proof.KerValue.lean ====
/-
  The idealized kernel's value. At grid point t the body is handed block t of the zero-padded input and the whole
  coefficient array; its stored value at (o, h, v) is the sum over the nine shifts (dh, dw) of
  ∑ c, coefficient(3 dh + dw, o, c) * padded input(t, c, h + dh, v + dw). Since the coefficient array holds the
  specification's nine folded coefficients and the padded array the specification's padded read, that value is
  block t of the specification's kerOut, and the two blocks tile the result array.
-/
import proofs.«171278_j39032662786092_1_alg».proof.Proof.KerBlocks
import proofs.«171278_j39032662786092_1_alg».proof.Proof.KerPayload
import proofs.«171278_j39032662786092_1_alg».proof.Proof.KerRun
import proofs.«171278_j39032662786092_1_alg».proof.Proof.ConvSpec

noncomputable section
open scoped BigOperators
namespace Cert.KernelIdeal.KerValue

open Idealize.ShloMosaic Idealize.ShloMosaic.TcCoe Idealize.SL.Sem Idealize.ShloMosaic.ValueIdx
open Cert.KernelIdeal Cert.KernelIdeal.Gen Cert.KernelIdeal.Conv Cert.KernelIdeal.Blocks

variable (m : (ℓ : Loc nD τ sig) → Buf (Elt Ideal) ℓ)

/-- The two argument arrays of core c as the program is started. -/
abbrev argX (c : Dev nD) : Cert.ConvSpec.XS.Idx → EReal := m ((c.tc : Thread nD τ).loc main_arg0)
abbrev argW (c : Dev nD) : Cert.ConvSpec.WS.Idx → EReal := m ((c.tc : Thread nD τ).loc main_arg1)

/-- What the region finds in the coefficient array and in the padded input, entry by entry. -/
structure HostVals (c : Dev nD) : Prop where
  coef : ∀ (t : Fin 9) (o : Fin 64) (c' : Fin 32),
    (V m c main_v75 : S9x64x32.Idx → EReal) (ix3 t o c') = Cert.ConvSpec.coef (argW m c) t o c'
  xpad : ∀ (n : Fin 2) (c' : Fin 32) (i j : Fin 58),
    (V m c main_v76 : S2x32x58x58.Idx → EReal) (ix4 n c' i j) = Cert.ConvSpec.xpad (argX m c) n c' i.val j.val

/-- One shifted product of the body at point t, over the blocks the point was handed, is the specification's:
    slab j of the coefficient block against the input block moved by (dh, dw). -/
theorem tapv_eq (c : Dev nD) (hv : HostVals m c) (t : Fin cfg0.N) (kt : FVec Ideal S1x64x32 .f32) (j : Fin 9)
    (hkt : ∀ (o : Fin 64) (c' : Fin 32), kt (ix3 (0 : Fin 1) o c') = (iblk m c 1 t : Vec Ideal S9x64x32 .f32) (ix3 j o c'))
    (o : Fin 64) (h v : Fin 56) (dh dw : Nat) (hdh : dh ≤ 2) (hdw : dw ≤ 2) :
    Pay.tapv (iblk m c 0 t : Vec Ideal S1x32x58x58 .f32) kt o h v dh dw hdh hdw
      = Cert.ConvSpec.tap (argX m c) (argW m c) (bat t) o h v j dh dw := by
  unfold Pay.tapv Cert.ConvSpec.tap
  refine Finset.sum_congr rfl fun c' _ => ?_
  rw [hkt, iblk_k_apply, hv.coef, iblk_x_apply, hv.xpad]

/-- The value the body stores at point t is block t of the specification's result. -/
theorem block_value (c : Dev nD) (hv : HostVals m c) (t : Fin cfg0.N) (y : S1x64x56x56.Idx) :
    blockVal (iblk m c 0 t) (iblk m c 1 t) y
      = Cert.ConvSpec.kerOut (argX m c) (argW m c) (ix4 (bat t) (y 1) (y 2) (y 3)) := by
  obtain ⟨z, o, h, v, rfl⟩ : ∃ (z : Fin 1) (o : Fin 64) (h v : Fin 56), y = ix4 z o h v :=
    ⟨y 0, y 1, y 2, y 3, eq_ix4 y⟩
  obtain rfl : z = 0 := Fin.eq_zero z
  unfold blockVal
  rw [ld_x]
  refine (Pay.stored_apply _ _ _ _ _ _ _ _ _ _ o h v).trans ?_
  rw [tapv_eq m c hv t _ 0 (fun o c' => ld_k0 _ _) o h v 0 0, tapv_eq m c hv t _ 1 (fun o c' => ld_k1 _ _) o h v 0 1,
    tapv_eq m c hv t _ 2 (fun o c' => ld_k2 _ _) o h v 0 2, tapv_eq m c hv t _ 3 (fun o c' => ld_k3 _ _) o h v 1 0,
    tapv_eq m c hv t _ 4 (fun o c' => ld_k4 _ _) o h v 1 1, tapv_eq m c hv t _ 5 (fun o c' => ld_k5 _ _) o h v 1 2,
    tapv_eq m c hv t _ 6 (fun o c' => ld_k6 _ _) o h v 2 0, tapv_eq m c hv t _ 7 (fun o c' => ld_k7 _ _) o h v 2 1,
    tapv_eq m c hv t _ 8 (fun o c' => ld_k8 _ _) o h v 2 2]
  rfl

/-- The idealized kernel's run: the result array ends at the specification's kerOut of the two arguments. -/
theorem run (ρ : Dev nD → PrngReg) (hv : ∀ c, HostVals m c) :
    θ_run defs (onTc (τ := τ) (main (F := Ideal))) ⟨m, fun _ => 0, ρ⟩ (fun r => ∀ c : Dev nD,
      r.2.mem ((c.tc : Thread nD τ).loc main_v77) = Cert.ConvSpec.kerOut (argX m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_named m ρ (fun c => Cert.ConvSpec.kerOut (argX m c) (argW m c))
    (fun c => Blocks.final m c _ (block_value m c (hv c)))

end Cert.KernelIdeal.KerValue
end
-- ==== Proof.KerHost.lean ====
/-
  What the region finds in the two arrays the host operations hand it, read entry by entry over the extended reals.

  Before the region, @main computes from the weight array w of shape [64, 32, 3, 3] its nine spatial taps
  w[:, :, a, b] as 64 x 32 matrices, from them four quotient matrices P0 .. P3 and five plain taps U0 .. U4, and from
  those the nine coefficient matrices of the shifts t = 3 dh + dw (C0, U0, C2, U2, U4, U3, C6, U1, C8 in the order
  t = 0 .. 8), lays each out as a slab [1, 64, 32] and joins the nine slabs along the leading axis into the
  coefficient array [9, 64, 32]; and it pads the input x of shape [2, 32, 56, 56] with one cell of zeros on each side
  of its two spatial axes to [2, 32, 58, 58].

  Proved here: the coefficient array at (t, o, c) is the specification's coef w t o c (every pointwise operation
  is the extended reals' own, so each matrix at (o, c) is the specification's expression in the same order of
  operations), and the padded array at (n, c, i, j) is the specification's xpad x n c i j; then that these two
  arrays are what the memory holds after the two stretches of host operations, by computing the stretch's effect
  operation by operation.
-/
import proofs.«171278_j39032662786092_1_alg».proof.Proof.IdealFrame
import proofs.«171278_j39032662786092_1_alg».proof.Proof.ConvSpec
import Idealize.ShloMosaic.Lib.ValueLayout
import Idealize.ShloMosaic.Lib.KernelVsHost
import Idealize.ShloMosaic.PureOps.Ideal.Laws

set_option maxRecDepth 16384

noncomputable section

open scoped BigOperators

namespace Cert.KernelIdeal.HostVal

open Cert.KernelIdeal Cert.KernelIdeal.Gen Idealize.ShloMosaic Idealize.ShloMosaic.TcCoe Idealize.ShloMosaic.ValueIdx
open Idealize.SL.Sem Idealize.ShloMosaic.StableHlo

/-! ## The coefficient matrices, in the host operations' own order -/

section Coef
open Cert.ConvSpec

/-- The weight's spatial tap (a, b) as a 64 x 32 matrix: a slice of the two spatial axes at (a, b), its two unit
    axes dropped. -/
def wsl (a b : Nat) (hs : S64x32x3x3.Slices ![0, 0, a, b] S64x32x1x1) (w : FVec Ideal S64x32x3x3 .f32) :
    FVec Ideal S64x32 .f32 :=
  shapeCast S64x32 (extractStridedSlice S64x32x1x1 ![0, 0, a, b] w hs) shapeCasts_S64x32x1x1_S64x32

theorem wsl_apply (a b : Nat) (ha : a < 3) (hb : b < 3) (hs : S64x32x3x3.Slices ![0, 0, a, b] S64x32x1x1)
    (w : FVec Ideal S64x32x3x3 .f32) (o : Fin 64) (c : Fin 32) :
    wsl a b hs w (ix2 o c) = w (ix4 o c ⟨a, ha⟩ ⟨b, hb⟩) := by
  unfold wsl
  refine (shapeCast_apply _ shapeCasts_S64x32x1x1_S64x32 (ix2 o c) (ix4 o c (0 : Fin 1) (0 : Fin 1)) ?_).trans ?_
  · rw [Shape.rowMajor_val_four, Shape.rowMajor_val_two]
    show ((o.val * 32 + c.val) * 1 + 0) * 1 + 0 = o.val * 32 + c.val
    omega
  · exact extractStridedSlice_apply _ w hs (ix4 o c (0 : Fin 1) (0 : Fin 1)) (ix4 o c ⟨a, ha⟩ ⟨b, hb⟩) (fun ax =>
      match ax with
      | ⟨0, _⟩ => by show o.val = 0 + o.val; omega
      | ⟨1, _⟩ => by show c.val = 0 + c.val; omega
      | ⟨2, _⟩ => by show a = a + 0; omega
      | ⟨3, _⟩ => by show b = b + 0; omega)

/-- The constant 1.0 laid over a 64 x 32 matrix. -/
def oneM : FVec Ideal S64x32 .f32 :=
  broadcastInDim S64x32 ![] bcast_S_S64x32 (constant (F := Ideal) S_ .f32 0x3F800000#32)

theorem oneM_apply (i : S64x32.Idx) : oneM i = one := by
  unfold oneM
  exact broadcastInDim_apply _ bcast_S_S64x32 _ i ix0 (fun a => a.elim0)

/-- A 64 x 32 matrix as a one-slab array [1, 64, 32]. -/
def slab (X : FVec Ideal S64x32 .f32) : FVec Ideal S1x64x32 .f32 :=
  broadcastInDim S1x64x32 ![1, 2] bcast_S64x32_S1x64x32_1_2 X

theorem slab_apply (X : FVec Ideal S64x32 .f32) (u : Fin 1) (o : Fin 64) (c : Fin 32) :
    slab X (ix3 u o c) = X (ix2 o c) := by
  unfold slab
  exact broadcastInDim_apply _ bcast_S64x32_S1x64x32_1_2 X (ix3 u o c) (ix2 o c) (fun a =>
    match a with
    | ⟨0, _⟩ => by show o.val = if (64 : Nat) = 1 then 0 else o.val; rw [if_neg (by decide)]
    | ⟨1, _⟩ => by show c.val = if (32 : Nat) = 1 then 0 else c.val; rw [if_neg (by decide)])

variable (w : FVec Ideal S64x32x3x3 .f32)

def P0 : FVec Ideal S64x32 .f32 :=
  Host.divf (Host.negf (wsl 2 0 slices_S64x32x3x3_S64x32x1x1_0_0_2_0 w)) (wsl 2 1 slices_S64x32x3x3_S64x32x1x1_0_0_2_1 w)
def P1 : FVec Ideal S64x32 .f32 :=
  Host.divf (Host.negf (wsl 0 2 slices_S64x32x3x3_S64x32x1x1_0_0_0_2 w)) (wsl 1 2 slices_S64x32x3x3_S64x32x1x1_0_0_1_2 w)
def P2 : FVec Ideal S64x32 .f32 :=
  Host.divf
    (addf
      (addf (subf oneM (wsl 0 0 slices_S64x32x3x3_S64x32x1x1_0_0_0_0 w))
        (Host.divf (mulf (wsl 2 0 slices_S64x32x3x3_S64x32x1x1_0_0_2_0 w) (wsl 0 1 slices_S64x32x3x3_S64x32x1x1_0_0_0_1 w))
          (wsl 2 1 slices_S64x32x3x3_S64x32x1x1_0_0_2_1 w)))
      (Host.divf (mulf (wsl 0 2 slices_S64x32x3x3_S64x32x1x1_0_0_0_2 w) (wsl 1 0 slices_S64x32x3x3_S64x32x1x1_0_0_1_0 w))
        (wsl 1 2 slices_S64x32x3x3_S64x32x1x1_0_0_1_2 w)))
    (wsl 1 1 slices_S64x32x3x3_S64x32x1x1_0_0_1_1 w)
def P3 : FVec Ideal S64x32 .f32 :=
  Host.divf (Host.negf (wsl 2 2 slices_S64x32x3x3_S64x32x1x1_0_0_2_2 w)) (wsl 1 1 slices_S64x32x3x3_S64x32x1x1_0_0_1_1 w)
def U0 : FVec Ideal S64x32 .f32 := wsl 0 1 slices_S64x32x3x3_S64x32x1x1_0_0_0_1 w
def U1 : FVec Ideal S64x32 .f32 := wsl 2 1 slices_S64x32x3x3_S64x32x1x1_0_0_2_1 w
def U2 : FVec Ideal S64x32 .f32 := wsl 1 0 slices_S64x32x3x3_S64x32x1x1_0_0_1_0 w
def U3 : FVec Ideal S64x32 .f32 := wsl 1 2 slices_S64x32x3x3_S64x32x1x1_0_0_1_2 w
def U4 : FVec Ideal S64x32 .f32 := wsl 1 1 slices_S64x32x3x3_S64x32x1x1_0_0_1_1 w
def C0 : FVec Ideal S64x32 .f32 :=
  subf (subf (subf oneM (mulf (U0 w) (P0 w))) (mulf (U2 w) (P1 w))) (mulf (U4 w) (P2 w))
def C2 : FVec Ideal S64x32 .f32 := mulf (Host.negf (U3 w)) (P1 w)
def C6 : FVec Ideal S64x32 .f32 := mulf (Host.negf (U1 w)) (P0 w)
def C8 : FVec Ideal S64x32 .f32 := mulf (Host.negf (U4 w)) (P3 w)

/-- The coefficient array [9, 64, 32]: slab t holds the coefficients of shift t. -/
def Kmat : FVec Ideal S9x64x32 .f32 :=
  concatenate S9x64x32 0 [⟨S1x64x32, slab (C0 w)⟩, ⟨S1x64x32, slab (U0 w)⟩, ⟨S1x64x32, slab (C2 w)⟩,
    ⟨S1x64x32, slab (U2 w)⟩, ⟨S1x64x32, slab (U4 w)⟩, ⟨S1x64x32, slab (U3 w)⟩, ⟨S1x64x32, slab (C6 w)⟩,
    ⟨S1x64x32, slab (U1 w)⟩, ⟨S1x64x32, slab (C8 w)⟩]
    concatenates_S1x64x32_S1x64x32_S1x64x32_S1x64x32_S1x64x32_S1x64x32_S1x64x32_S1x64x32_S1x64x32_S9x64x32_d0

variable (o : Fin 64) (c : Fin 32)

theorem U0_apply : U0 w (ix2 o c) = u0 w o c := wsl_apply 0 1 (by decide) (by decide) _ w o c
theorem U1_apply : U1 w (ix2 o c) = u1 w o c := wsl_apply 2 1 (by decide) (by decide) _ w o c
theorem U2_apply : U2 w (ix2 o c) = u2 w o c := wsl_apply 1 0 (by decide) (by decide) _ w o c
theorem U3_apply : U3 w (ix2 o c) = u3 w o c := wsl_apply 1 2 (by decide) (by decide) _ w o c
theorem U4_apply : U4 w (ix2 o c) = u4 w o c := wsl_apply 1 1 (by decide) (by decide) _ w o c

theorem P0_apply : P0 w (ix2 o c) = p0 w o c := by
  show Ideal.div (-(wsl 2 0 _ w (ix2 o c))) (wsl 2 1 _ w (ix2 o c)) = _
  rw [wsl_apply 2 0 (by decide) (by decide), wsl_apply 2 1 (by decide) (by decide)]
  rfl
theorem P1_apply : P1 w (ix2 o c) = p1 w o c := by
  show Ideal.div (-(wsl 0 2 _ w (ix2 o c))) (wsl 1 2 _ w (ix2 o c)) = _
  rw [wsl_apply 0 2 (by decide) (by decide), wsl_apply 1 2 (by decide) (by decide)]
  rfl
theorem P3_apply : P3 w (ix2 o c) = p3 w o c := by
  show Ideal.div (-(wsl 2 2 _ w (ix2 o c))) (wsl 1 1 _ w (ix2 o c)) = _
  rw [wsl_apply 2 2 (by decide) (by decide), wsl_apply 1 1 (by decide) (by decide)]
  rfl
theorem P2_apply : P2 w (ix2 o c) = p2 w o c := by
  show Ideal.div (((oneM (ix2 o c) - wsl 0 0 _ w (ix2 o c))
      + Ideal.div (wsl 2 0 _ w (ix2 o c) * wsl 0 1 _ w (ix2 o c)) (wsl 2 1 _ w (ix2 o c)))
      + Ideal.div (wsl 0 2 _ w (ix2 o c) * wsl 1 0 _ w (ix2 o c)) (wsl 1 2 _ w (ix2 o c))) (wsl 1 1 _ w (ix2 o c)) = _
  rw [oneM_apply, wsl_apply 0 0 (by decide) (by decide), wsl_apply 2 0 (by decide) (by decide),
    wsl_apply 0 1 (by decide) (by decide), wsl_apply 2 1 (by decide) (by decide), wsl_apply 0 2 (by decide) (by decide),
    wsl_apply 1 0 (by decide) (by decide), wsl_apply 1 2 (by decide) (by decide), wsl_apply 1 1 (by decide) (by decide)]
  rfl

theorem C0_apply : C0 w (ix2 o c) = coef w 0 o c := by
  show ((oneM (ix2 o c) - U0 w (ix2 o c) * P0 w (ix2 o c)) - U2 w (ix2 o c) * P1 w (ix2 o c))
      - U4 w (ix2 o c) * P2 w (ix2 o c) = _
  rw [oneM_apply, U0_apply, P0_apply, U2_apply, P1_apply, U4_apply, P2_apply]
  rfl
theorem C2_apply : C2 w (ix2 o c) = coef w 2 o c := by
  show (-(U3 w (ix2 o c))) * P1 w (ix2 o c) = _
  rw [U3_apply, P1_apply]; rfl
theorem C6_apply : C6 w (ix2 o c) = coef w 6 o c := by
  show (-(U1 w (ix2 o c))) * P0 w (ix2 o c) = _
  rw [U1_apply, P0_apply]; rfl
theorem C8_apply : C8 w (ix2 o c) = coef w 8 o c := by
  show (-(U4 w (ix2 o c))) * P3 w (ix2 o c) = _
  rw [U4_apply, P3_apply]; rfl

/-- Nine arrays [1, 64, 32] joined along the leading axis, read at (t, o, c): array t at (0, o, c). -/
theorem concat9_apply {α : Type} (u : Fin 9 → (S1x64x32.Idx → α)) (t : Fin 9) :
    concatenate S9x64x32 0 [⟨S1x64x32, u 0⟩, ⟨S1x64x32, u 1⟩, ⟨S1x64x32, u 2⟩, ⟨S1x64x32, u 3⟩, ⟨S1x64x32, u 4⟩,
        ⟨S1x64x32, u 5⟩, ⟨S1x64x32, u 6⟩, ⟨S1x64x32, u 7⟩, ⟨S1x64x32, u 8⟩]
      concatenates_S1x64x32_S1x64x32_S1x64x32_S1x64x32_S1x64x32_S1x64x32_S1x64x32_S1x64x32_S1x64x32_S9x64x32_d0 (ix3 t o c)
      = u t (ix3 (0 : Fin 1) o c) :=
  concatenate_ofFn_unit_apply (t := S9x64x32) (s₁ := S1x64x32) (0 : Fin 3) u
    concatenates_S1x64x32_S1x64x32_S1x64x32_S1x64x32_S1x64x32_S1x64x32_S1x64x32_S1x64x32_S1x64x32_S9x64x32_d0 rfl rfl
    (ix3 t o c) t rfl (ix3 (0 : Fin 1) o c) (fun b hb =>
      match b, hb with
      | ⟨0, _⟩, hb => absurd rfl hb
      | ⟨1, _⟩, _ => rfl
      | ⟨2, _⟩, _ => rfl)

/-- The coefficient array at (t, o, c) is the coefficient of shift t. -/
theorem Kmat_apply (t : Fin 9) : Kmat w (ix3 t o c) = coef w t o c := by
  unfold Kmat
  refine (concat9_apply o c ![slab (C0 w), slab (U0 w), slab (C2 w), slab (U2 w), slab (U4 w), slab (U3 w),
    slab (C6 w), slab (U1 w), slab (C8 w)] t).trans ?_
  match t with
  | ⟨0, _⟩ => exact (slab_apply _ _ o c).trans (C0_apply w o c)
  | ⟨1, _⟩ => exact (slab_apply _ _ o c).trans (U0_apply w o c)
  | ⟨2, _⟩ => exact (slab_apply _ _ o c).trans (C2_apply w o c)
  | ⟨3, _⟩ => exact (slab_apply _ _ o c).trans (U2_apply w o c)
  | ⟨4, _⟩ => exact (slab_apply _ _ o c).trans (U4_apply w o c)
  | ⟨5, _⟩ => exact (slab_apply _ _ o c).trans (U3_apply w o c)
  | ⟨6, _⟩ => exact (slab_apply _ _ o c).trans (C6_apply w o c)
  | ⟨7, _⟩ => exact (slab_apply _ _ o c).trans (U1_apply w o c)
  | ⟨8, _⟩ => exact (slab_apply _ _ o c).trans (C8_apply w o c)

end Coef

/-! ## The padded input -/

/-- The input zero-padded by one cell on each side of its two spatial axes, as the host operations build it: the
    padding value is the integer 0 converted to a float. -/
def Xpad (x : FVec Ideal S2x32x56x56 .f32) : FVec Ideal S2x32x58x58 .f32 :=
  pad S2x32x58x58 ![0, 0, 1, 1] ![0, 0, 1, 1] ![0, 0, 0, 0] x (sitofp (F := Ideal) .f32 (constantI S_ 32 0#32))
    pads_S2x32x56x56_S2x32x58x58_000_000_110_110 h_S_

/-- The padding value is the extended real 0. -/
theorem padValue (i : S_.Idx) : sitofp (F := Ideal) .f32 (constantI S_ 32 0#32) i = 0 := by
  show (((0#32 : BitVec 32).toInt : ℝ) : EReal) = 0
  simp

/-- The padded input at (n, c, i, j) is the input at (n, c, i - 1, j - 1) inside the interior 1..56 and zero on the
    border. -/
theorem Xpad_apply (x : FVec Ideal S2x32x56x56 .f32) (n : Fin 2) (c : Fin 32) (i j : Fin 58) :
    Xpad x (ix4 n c i j) = Cert.ConvSpec.xpad x n c i.val j.val := by
  unfold Xpad Cert.ConvSpec.xpad
  by_cases h : 1 ≤ i.val ∧ i.val ≤ 56 ∧ 1 ≤ j.val ∧ j.val ≤ 56
  · rw [dif_pos h]
    exact pad_apply_of_inside _ _ _ x _ pads_S2x32x56x56_S2x32x58x58_000_000_110_110 h_S_ (ix4 n c i j)
      (ix4 n c ⟨i.val - 1, by omega⟩ ⟨j.val - 1, by omega⟩) (fun a =>
        match a with
        | ⟨0, _⟩ => by show n.val = 0 + n.val * (0 + 1); omega
        | ⟨1, _⟩ => by show c.val = 0 + c.val * (0 + 1); omega
        | ⟨2, _⟩ => by show i.val = 1 + (i.val - 1) * (0 + 1); omega
        | ⟨3, _⟩ => by show j.val = 1 + (j.val - 1) * (0 + 1); omega)
  · rw [dif_neg h]
    by_cases hi : 1 ≤ i.val ∧ i.val ≤ 56
    · have hj : ¬(1 ≤ j.val ∧ j.val ≤ 56) := fun hj => h ⟨hi.1, hi.2, hj.1, hj.2⟩
      refine (pad_apply_of_not_inside _ _ _ x _ pads_S2x32x56x56_S2x32x58x58_000_000_110_110 h_S_ (ix4 n c i j)
        (3 : Fin 4) ?_).trans (padValue _)
      show ¬(1 ≤ j.val ∧ (j.val - 1) % (0 + 1) = 0 ∧ (j.val - 1) / (0 + 1) < 56)
      omega
    · refine (pad_apply_of_not_inside _ _ _ x _ pads_S2x32x56x56_S2x32x58x58_000_000_110_110 h_S_ (ix4 n c i j)
        (2 : Fin 4) ?_).trans (padValue _)
      show ¬(1 ≤ i.val ∧ (i.val - 1) % (0 + 1) = 0 ∧ (i.val - 1) / (0 + 1) < 56)
      omega

/-! ## The concatenation's result, each operand's contents at its own reference -/

/-- The nine coefficient slabs joined along a new leading axis: what the concatenating operation leaves in its
    result array, from the contents of its nine operand arrays. -/
theorem v75_result (G : Valuation τ sig (Elt Ideal)) hxs hy :
    (StableHlo.nary (τ := τ) ![main_v66, main_v67, main_v68, main_v69, main_v70, main_v71, main_v72, main_v73, main_v74] main_v75
      (fun u => concatenate S9x64x32 0 [⟨S1x64x32, u 0⟩, ⟨S1x64x32, u 1⟩, ⟨S1x64x32, u 2⟩, ⟨S1x64x32, u 3⟩, ⟨S1x64x32, u 4⟩,
        ⟨S1x64x32, u 5⟩, ⟨S1x64x32, u 6⟩, ⟨S1x64x32, u 7⟩, ⟨S1x64x32, u 8⟩]
        concatenates_S1x64x32_S1x64x32_S1x64x32_S1x64x32_S1x64x32_S1x64x32_S1x64x32_S1x64x32_S1x64x32_S9x64x32_d0) hxs hy).result G
        (no_index (Proc.devRef .tc main_v75))
      = concatenate S9x64x32 0 [⟨S1x64x32, G (Proc.devRef .tc main_v66)⟩, ⟨S1x64x32, G (Proc.devRef .tc main_v67)⟩,
          ⟨S1x64x32, G (Proc.devRef .tc main_v68)⟩, ⟨S1x64x32, G (Proc.devRef .tc main_v69)⟩,
          ⟨S1x64x32, G (Proc.devRef .tc main_v70)⟩, ⟨S1x64x32, G (Proc.devRef .tc main_v71)⟩,
          ⟨S1x64x32, G (Proc.devRef .tc main_v72)⟩, ⟨S1x64x32, G (Proc.devRef .tc main_v73)⟩,
          ⟨S1x64x32, G (Proc.devRef .tc main_v74)⟩]
          concatenates_S1x64x32_S1x64x32_S1x64x32_S1x64x32_S1x64x32_S1x64x32_S1x64x32_S1x64x32_S1x64x32_S9x64x32_d0 :=
  (nary_result _ _ _ hxs hy G).trans rfl

/-! ## The memory after the host operations -/

variable (m : (ℓ : Loc nD τ sig) → Buf (Elt Ideal) ℓ)

/-- What the region finds in the padded-input array: the zero-padded input argument. -/
theorem V_main_v76 (c : Dev nD) : Conv.V m c main_v76 = Xpad (m ((c : Thread nD τ).loc main_arg0)) := by
  dsimp only [Conv.V]
  simp only [hostOps0, hostOps0_1, List.flatten_cons, List.flatten_nil, List.append_nil, List.cons_append, List.nil_append]
  after_results_simp
  rfl

/-- The padded-input array at (n, c', i, j), as the region finds it. -/
theorem V_main_v76_apply (c : Dev nD) (n : Fin 2) (c' : Fin 32) (i j : Fin 58) :
    Conv.V m c main_v76 (ix4 n c' i j) = Cert.ConvSpec.xpad (m ((c : Thread nD τ).loc main_arg0)) n c' i.val j.val := by
  rw [V_main_v76]
  exact Xpad_apply _ n c' i j

/-- Joining nine arrays respects equality of each. -/
theorem concat9_congr {α : Type} {a0 a1 a2 a3 a4 a5 a6 a7 a8 b0 b1 b2 b3 b4 b5 b6 b7 b8 : S1x64x32.Idx → α}
    (h0 : a0 = b0) (h1 : a1 = b1) (h2 : a2 = b2) (h3 : a3 = b3) (h4 : a4 = b4) (h5 : a5 = b5) (h6 : a6 = b6)
    (h7 : a7 = b7) (h8 : a8 = b8) :
    concatenate S9x64x32 0 [⟨S1x64x32, a0⟩, ⟨S1x64x32, a1⟩, ⟨S1x64x32, a2⟩, ⟨S1x64x32, a3⟩, ⟨S1x64x32, a4⟩,
        ⟨S1x64x32, a5⟩, ⟨S1x64x32, a6⟩, ⟨S1x64x32, a7⟩, ⟨S1x64x32, a8⟩]
      concatenates_S1x64x32_S1x64x32_S1x64x32_S1x64x32_S1x64x32_S1x64x32_S1x64x32_S1x64x32_S1x64x32_S9x64x32_d0
    = concatenate S9x64x32 0 [⟨S1x64x32, b0⟩, ⟨S1x64x32, b1⟩, ⟨S1x64x32, b2⟩, ⟨S1x64x32, b3⟩, ⟨S1x64x32, b4⟩,
        ⟨S1x64x32, b5⟩, ⟨S1x64x32, b6⟩, ⟨S1x64x32, b7⟩, ⟨S1x64x32, b8⟩]
      concatenates_S1x64x32_S1x64x32_S1x64x32_S1x64x32_S1x64x32_S1x64x32_S1x64x32_S1x64x32_S1x64x32_S9x64x32_d0 := by
  subst h0 h1 h2 h3 h4 h5 h6 h7 h8; rfl

/-- One pass computing what a host stretch leaves in a buffer: each operation's result at its own result buffer is
    its function's value, at any other buffer what was there. -/
local macro "host_results" : tactic =>
  `(tactic| simp (disch := decide) only [after_cons, after_nil,
      nullary_result', unary_result', binary_result', reshape_result', v75_result,
      nullary_result_ne', unary_result_ne', binary_result_ne', reshape_result_ne', nary_result_ne'])

set_option maxHeartbeats 4000000 in
/-- What the region finds in the coefficient array: the nine coefficient matrices of the weight argument. -/
theorem V_main_v75 (c : Dev nD) : Conv.V m c main_v75 = Kmat (m ((c : Thread nD τ).loc main_arg1)) := by
  dsimp only [Conv.V]
  simp only [hostOps0, hostOps0_1, List.flatten_cons, List.flatten_nil, List.append_nil, List.cons_append, List.nil_append]
  host_results
  unfold Kmat
  refine concat9_congr ?_ ?_ ?_ ?_ ?_ ?_ ?_ ?_ ?_
  all_goals (host_results; rfl)

/-- The coefficient array at (t, o, c'), as the region finds it. -/
theorem V_main_v75_apply (c : Dev nD) (t : Fin 9) (o : Fin 64) (c' : Fin 32) :
    Conv.V m c main_v75 (ix3 t o c') = Cert.ConvSpec.coef (m ((c : Thread nD τ).loc main_arg1)) t o c' := by
  rw [V_main_v75]
  exact Kmat_apply _ o c' t

end Cert.KernelIdeal.HostVal

end
-- ==== Proof.RefStages.lean ====
/-
  The reference program as pure functions of its two arguments: one definition per value of its main function,
  in program order, each the program's own operation applied to the definitions of its operands, so that a value
  used several times (the zero-padded input; the two predict results that are also shifted a second time) is
  shared by name. r5, r11, r36, r42 are the predict coefficients p0..p3 and r44, r46, r48, r50, r52 the update
  coefficients u0..u4, each an array over (output channel, input channel); r53 is the input zero-padded by one
  cell, r54 its view with a unit output-channel axis; r56, r58, r62, r66 are its copies shifted by (0,1), (1,0),
  (1,1), (2,2) (a slice, then zero fill at the far edge); r72, r78, r89 the three predict results and r91, r93
  the first two shifted by (2,0) and (0,2); r98 .. r114 the update sum; r115 its crop to 56 x 56 and r116 its sum
  over the input channels.
-/
import proofs.«171278_j39032662786092_1_alg».proof.ReferenceIdeal
import proofs.«171278_j39032662786092_1_alg».proof.Proof.Gen.ReferenceIdeal

noncomputable section

namespace Cert.ReferenceIdeal.Stages

open Cert.ReferenceIdeal Cert.ReferenceIdeal.Gen Idealize.ShloMosaic

variable {F : FTy → Type} [FloatOps F]

def r0 (x : (⟨S2x32x56x56, .f32⟩ : BufTy).Contents (Elt F)) (w : (⟨S64x32x3x3, .f32⟩ : BufTy).Contents (Elt F)) : (⟨S64x32x1x1, .f32⟩ : BufTy).Contents (Elt F) :=
  ((extractStridedSlice S64x32x1x1 ![0, 0, 2, 0] · slices_S64x32x3x3_S64x32x1x1_0_0_2_0) : (⟨S64x32x3x3, .f32⟩ : BufTy).Contents (Elt F) → (⟨S64x32x1x1, .f32⟩ : BufTy).Contents (Elt F)) (w)
def r1 (x : (⟨S2x32x56x56, .f32⟩ : BufTy).Contents (Elt F)) (w : (⟨S64x32x3x3, .f32⟩ : BufTy).Contents (Elt F)) : (⟨S64x32, .f32⟩ : BufTy).Contents (Elt F) :=
  shapeCast S64x32 (r0 x w) shapeCasts_S64x32x1x1_S64x32
def r2 (x : (⟨S2x32x56x56, .f32⟩ : BufTy).Contents (Elt F)) (w : (⟨S64x32x3x3, .f32⟩ : BufTy).Contents (Elt F)) : (⟨S64x32, .f32⟩ : BufTy).Contents (Elt F) :=
  (Host.negf : (⟨S64x32, .f32⟩ : BufTy).Contents (Elt F) → (⟨S64x32, .f32⟩ : BufTy).Contents (Elt F)) (r1 x w)
def r3 (x : (⟨S2x32x56x56, .f32⟩ : BufTy).Contents (Elt F)) (w : (⟨S64x32x3x3, .f32⟩ : BufTy).Contents (Elt F)) : (⟨S64x32x1x1, .f32⟩ : BufTy).Contents (Elt F) :=
  ((extractStridedSlice S64x32x1x1 ![0, 0, 2, 1] · slices_S64x32x3x3_S64x32x1x1_0_0_2_1) : (⟨S64x32x3x3, .f32⟩ : BufTy).Contents (Elt F) → (⟨S64x32x1x1, .f32⟩ : BufTy).Contents (Elt F)) (w)
def r4 (x : (⟨S2x32x56x56, .f32⟩ : BufTy).Contents (Elt F)) (w : (⟨S64x32x3x3, .f32⟩ : BufTy).Contents (Elt F)) : (⟨S64x32, .f32⟩ : BufTy).Contents (Elt F) :=
  shapeCast S64x32 (r3 x w) shapeCasts_S64x32x1x1_S64x32
def r5 (x : (⟨S2x32x56x56, .f32⟩ : BufTy).Contents (Elt F)) (w : (⟨S64x32x3x3, .f32⟩ : BufTy).Contents (Elt F)) : (⟨S64x32, .f32⟩ : BufTy).Contents (Elt F) :=
  (Host.divf : (⟨S64x32, .f32⟩ : BufTy).Contents (Elt F) → (⟨S64x32, .f32⟩ : BufTy).Contents (Elt F) → (⟨S64x32, .f32⟩ : BufTy).Contents (Elt F)) (r2 x w) (r4 x w)
def r6 (x : (⟨S2x32x56x56, .f32⟩ : BufTy).Contents (Elt F)) (w : (⟨S64x32x3x3, .f32⟩ : BufTy).Contents (Elt F)) : (⟨S64x32x1x1, .f32⟩ : BufTy).Contents (Elt F) :=
  ((extractStridedSlice S64x32x1x1 ![0, 0, 0, 2] · slices_S64x32x3x3_S64x32x1x1_0_0_0_2) : (⟨S64x32x3x3, .f32⟩ : BufTy).Contents (Elt F) → (⟨S64x32x1x1, .f32⟩ : BufTy).Contents (Elt F)) (w)
def r7 (x : (⟨S2x32x56x56, .f32⟩ : BufTy).Contents (Elt F)) (w : (⟨S64x32x3x3, .f32⟩ : BufTy).Contents (Elt F)) : (⟨S64x32, .f32⟩ : BufTy).Contents (Elt F) :=
  shapeCast S64x32 (r6 x w) shapeCasts_S64x32x1x1_S64x32
def r8 (x : (⟨S2x32x56x56, .f32⟩ : BufTy).Contents (Elt F)) (w : (⟨S64x32x3x3, .f32⟩ : BufTy).Contents (Elt F)) : (⟨S64x32, .f32⟩ : BufTy).Contents (Elt F) :=
  (Host.negf : (⟨S64x32, .f32⟩ : BufTy).Contents (Elt F) → (⟨S64x32, .f32⟩ : BufTy).Contents (Elt F)) (r7 x w)
def r9 (x : (⟨S2x32x56x56, .f32⟩ : BufTy).Contents (Elt F)) (w : (⟨S64x32x3x3, .f32⟩ : BufTy).Contents (Elt F)) : (⟨S64x32x1x1, .f32⟩ : BufTy).Contents (Elt F) :=
  ((extractStridedSlice S64x32x1x1 ![0, 0, 1, 2] · slices_S64x32x3x3_S64x32x1x1_0_0_1_2) : (⟨S64x32x3x3, .f32⟩ : BufTy).Contents (Elt F) → (⟨S64x32x1x1, .f32⟩ : BufTy).Contents (Elt F)) (w)
def r10 (x : (⟨S2x32x56x56, .f32⟩ : BufTy).Contents (Elt F)) (w : (⟨S64x32x3x3, .f32⟩ : BufTy).Contents (Elt F)) : (⟨S64x32, .f32⟩ : BufTy).Contents (Elt F) :=
  shapeCast S64x32 (r9 x w) shapeCasts_S64x32x1x1_S64x32
def r11 (x : (⟨S2x32x56x56, .f32⟩ : BufTy).Contents (Elt F)) (w : (⟨S64x32x3x3, .f32⟩ : BufTy).Contents (Elt F)) : (⟨S64x32, .f32⟩ : BufTy).Contents (Elt F) :=
  (Host.divf : (⟨S64x32, .f32⟩ : BufTy).Contents (Elt F) → (⟨S64x32, .f32⟩ : BufTy).Contents (Elt F) → (⟨S64x32, .f32⟩ : BufTy).Contents (Elt F)) (r8 x w) (r10 x w)
def r12 (x : (⟨S2x32x56x56, .f32⟩ : BufTy).Contents (Elt F)) (w : (⟨S64x32x3x3, .f32⟩ : BufTy).Contents (Elt F)) : (⟨S64x32x1x1, .f32⟩ : BufTy).Contents (Elt F) :=
  ((extractStridedSlice S64x32x1x1 ![0, 0, 0, 0] · slices_S64x32x3x3_S64x32x1x1_0_0_0_0) : (⟨S64x32x3x3, .f32⟩ : BufTy).Contents (Elt F) → (⟨S64x32x1x1, .f32⟩ : BufTy).Contents (Elt F)) (w)
def r13 (x : (⟨S2x32x56x56, .f32⟩ : BufTy).Contents (Elt F)) (w : (⟨S64x32x3x3, .f32⟩ : BufTy).Contents (Elt F)) : (⟨S64x32, .f32⟩ : BufTy).Contents (Elt F) :=
  shapeCast S64x32 (r12 x w) shapeCasts_S64x32x1x1_S64x32
def r_cst (x : (⟨S2x32x56x56, .f32⟩ : BufTy).Contents (Elt F)) (w : (⟨S64x32x3x3, .f32⟩ : BufTy).Contents (Elt F)) : (⟨S_, .f32⟩ : BufTy).Contents (Elt F) :=
  (constant S_ .f32 0x3F800000#32)
def r14 (x : (⟨S2x32x56x56, .f32⟩ : BufTy).Contents (Elt F)) (w : (⟨S64x32x3x3, .f32⟩ : BufTy).Contents (Elt F)) : (⟨S64x32, .f32⟩ : BufTy).Contents (Elt F) :=
  (broadcastInDim S64x32 ![] bcast_S_S64x32 : (⟨S_, .f32⟩ : BufTy).Contents (Elt F) → (⟨S64x32, .f32⟩ : BufTy).Contents (Elt F)) (r_cst x w)
def r15 (x : (⟨S2x32x56x56, .f32⟩ : BufTy).Contents (Elt F)) (w : (⟨S64x32x3x3, .f32⟩ : BufTy).Contents (Elt F)) : (⟨S64x32, .f32⟩ : BufTy).Contents (Elt F) :=
  (subf : (⟨S64x32, .f32⟩ : BufTy).Contents (Elt F) → (⟨S64x32, .f32⟩ : BufTy).Contents (Elt F) → (⟨S64x32, .f32⟩ : BufTy).Contents (Elt F)) (r14 x w) (r13 x w)
def r16 (x : (⟨S2x32x56x56, .f32⟩ : BufTy).Contents (Elt F)) (w : (⟨S64x32x3x3, .f32⟩ : BufTy).Contents (Elt F)) : (⟨S64x32x1x1, .f32⟩ : BufTy).Contents (Elt F) :=
  ((extractStridedSlice S64x32x1x1 ![0, 0, 2, 0] · slices_S64x32x3x3_S64x32x1x1_0_0_2_0) : (⟨S64x32x3x3, .f32⟩ : BufTy).Contents (Elt F) → (⟨S64x32x1x1, .f32⟩ : BufTy).Contents (Elt F)) (w)
def r17 (x : (⟨S2x32x56x56, .f32⟩ : BufTy).Contents (Elt F)) (w : (⟨S64x32x3x3, .f32⟩ : BufTy).Contents (Elt F)) : (⟨S64x32, .f32⟩ : BufTy).Contents (Elt F) :=
  shapeCast S64x32 (r16 x w) shapeCasts_S64x32x1x1_S64x32
def r18 (x : (⟨S2x32x56x56, .f32⟩ : BufTy).Contents (Elt F)) (w : (⟨S64x32x3x3, .f32⟩ : BufTy).Contents (Elt F)) : (⟨S64x32x1x1, .f32⟩ : BufTy).Contents (Elt F) :=
  ((extractStridedSlice S64x32x1x1 ![0, 0, 0, 1] · slices_S64x32x3x3_S64x32x1x1_0_0_0_1) : (⟨S64x32x3x3, .f32⟩ : BufTy).Contents (Elt F) → (⟨S64x32x1x1, .f32⟩ : BufTy).Contents (Elt F)) (w)
def r19 (x : (⟨S2x32x56x56, .f32⟩ : BufTy).Contents (Elt F)) (w : (⟨S64x32x3x3, .f32⟩ : BufTy).Contents (Elt F)) : (⟨S64x32, .f32⟩ : BufTy).Contents (Elt F) :=
  shapeCast S64x32 (r18 x w) shapeCasts_S64x32x1x1_S64x32
def r20 (x : (⟨S2x32x56x56, .f32⟩ : BufTy).Contents (Elt F)) (w : (⟨S64x32x3x3, .f32⟩ : BufTy).Contents (Elt F)) : (⟨S64x32, .f32⟩ : BufTy).Contents (Elt F) :=
  (mulf : (⟨S64x32, .f32⟩ : BufTy).Contents (Elt F) → (⟨S64x32, .f32⟩ : BufTy).Contents (Elt F) → (⟨S64x32, .f32⟩ : BufTy).Contents (Elt F)) (r17 x w) (r19 x w)
def r21 (x : (⟨S2x32x56x56, .f32⟩ : BufTy).Contents (Elt F)) (w : (⟨S64x32x3x3, .f32⟩ : BufTy).Contents (Elt F)) : (⟨S64x32x1x1, .f32⟩ : BufTy).Contents (Elt F) :=
  ((extractStridedSlice S64x32x1x1 ![0, 0, 2, 1] · slices_S64x32x3x3_S64x32x1x1_0_0_2_1) : (⟨S64x32x3x3, .f32⟩ : BufTy).Contents (Elt F) → (⟨S64x32x1x1, .f32⟩ : BufTy).Contents (Elt F)) (w)
def r22 (x : (⟨S2x32x56x56, .f32⟩ : BufTy).Contents (Elt F)) (w : (⟨S64x32x3x3, .f32⟩ : BufTy).Contents (Elt F)) : (⟨S64x32, .f32⟩ : BufTy).Contents (Elt F) :=
  shapeCast S64x32 (r21 x w) shapeCasts_S64x32x1x1_S64x32
def r23 (x : (⟨S2x32x56x56, .f32⟩ : BufTy).Contents (Elt F)) (w : (⟨S64x32x3x3, .f32⟩ : BufTy).Contents (Elt F)) : (⟨S64x32, .f32⟩ : BufTy).Contents (Elt F) :=
  (Host.divf : (⟨S64x32, .f32⟩ : BufTy).Contents (Elt F) → (⟨S64x32, .f32⟩ : BufTy).Contents (Elt F) → (⟨S64x32, .f32⟩ : BufTy).Contents (Elt F)) (r20 x w) (r22 x w)
def r24 (x : (⟨S2x32x56x56, .f32⟩ : BufTy).Contents (Elt F)) (w : (⟨S64x32x3x3, .f32⟩ : BufTy).Contents (Elt F)) : (⟨S64x32, .f32⟩ : BufTy).Contents (Elt F) :=
  (addf : (⟨S64x32, .f32⟩ : BufTy).Contents (Elt F) → (⟨S64x32, .f32⟩ : BufTy).Contents (Elt F) → (⟨S64x32, .f32⟩ : BufTy).Contents (Elt F)) (r15 x w) (r23 x w)
def r25 (x : (⟨S2x32x56x56, .f32⟩ : BufTy).Contents (Elt F)) (w : (⟨S64x32x3x3, .f32⟩ : BufTy).Contents (Elt F)) : (⟨S64x32x1x1, .f32⟩ : BufTy).Contents (Elt F) :=
  ((extractStridedSlice S64x32x1x1 ![0, 0, 0, 2] · slices_S64x32x3x3_S64x32x1x1_0_0_0_2) : (⟨S64x32x3x3, .f32⟩ : BufTy).Contents (Elt F) → (⟨S64x32x1x1, .f32⟩ : BufTy).Contents (Elt F)) (w)
def r26 (x : (⟨S2x32x56x56, .f32⟩ : BufTy).Contents (Elt F)) (w : (⟨S64x32x3x3, .f32⟩ : BufTy).Contents (Elt F)) : (⟨S64x32, .f32⟩ : BufTy).Contents (Elt F) :=
  shapeCast S64x32 (r25 x w) shapeCasts_S64x32x1x1_S64x32
def r27 (x : (⟨S2x32x56x56, .f32⟩ : BufTy).Contents (Elt F)) (w : (⟨S64x32x3x3, .f32⟩ : BufTy).Contents (Elt F)) : (⟨S64x32x1x1, .f32⟩ : BufTy).Contents (Elt F) :=
  ((extractStridedSlice S64x32x1x1 ![0, 0, 1, 0] · slices_S64x32x3x3_S64x32x1x1_0_0_1_0) : (⟨S64x32x3x3, .f32⟩ : BufTy).Contents (Elt F) → (⟨S64x32x1x1, .f32⟩ : BufTy).Contents (Elt F)) (w)
def r28 (x : (⟨S2x32x56x56, .f32⟩ : BufTy).Contents (Elt F)) (w : (⟨S64x32x3x3, .f32⟩ : BufTy).Contents (Elt F)) : (⟨S64x32, .f32⟩ : BufTy).Contents (Elt F) :=
  shapeCast S64x32 (r27 x w) shapeCasts_S64x32x1x1_S64x32
def r29 (x : (⟨S2x32x56x56, .f32⟩ : BufTy).Contents (Elt F)) (w : (⟨S64x32x3x3, .f32⟩ : BufTy).Contents (Elt F)) : (⟨S64x32, .f32⟩ : BufTy).Contents (Elt F) :=
  (mulf : (⟨S64x32, .f32⟩ : BufTy).Contents (Elt F) → (⟨S64x32, .f32⟩ : BufTy).Contents (Elt F) → (⟨S64x32, .f32⟩ : BufTy).Contents (Elt F)) (r26 x w) (r28 x w)
def r30 (x : (⟨S2x32x56x56, .f32⟩ : BufTy).Contents (Elt F)) (w : (⟨S64x32x3x3, .f32⟩ : BufTy).Contents (Elt F)) : (⟨S64x32x1x1, .f32⟩ : BufTy).Contents (Elt F) :=
  ((extractStridedSlice S64x32x1x1 ![0, 0, 1, 2] · slices_S64x32x3x3_S64x32x1x1_0_0_1_2) : (⟨S64x32x3x3, .f32⟩ : BufTy).Contents (Elt F) → (⟨S64x32x1x1, .f32⟩ : BufTy).Contents (Elt F)) (w)
def r31 (x : (⟨S2x32x56x56, .f32⟩ : BufTy).Contents (Elt F)) (w : (⟨S64x32x3x3, .f32⟩ : BufTy).Contents (Elt F)) : (⟨S64x32, .f32⟩ : BufTy).Contents (Elt F) :=
  shapeCast S64x32 (r30 x w) shapeCasts_S64x32x1x1_S64x32
def r32 (x : (⟨S2x32x56x56, .f32⟩ : BufTy).Contents (Elt F)) (w : (⟨S64x32x3x3, .f32⟩ : BufTy).Contents (Elt F)) : (⟨S64x32, .f32⟩ : BufTy).Contents (Elt F) :=
  (Host.divf : (⟨S64x32, .f32⟩ : BufTy).Contents (Elt F) → (⟨S64x32, .f32⟩ : BufTy).Contents (Elt F) → (⟨S64x32, .f32⟩ : BufTy).Contents (Elt F)) (r29 x w) (r31 x w)
def r33 (x : (⟨S2x32x56x56, .f32⟩ : BufTy).Contents (Elt F)) (w : (⟨S64x32x3x3, .f32⟩ : BufTy).Contents (Elt F)) : (⟨S64x32, .f32⟩ : BufTy).Contents (Elt F) :=
  (addf : (⟨S64x32, .f32⟩ : BufTy).Contents (Elt F) → (⟨S64x32, .f32⟩ : BufTy).Contents (Elt F) → (⟨S64x32, .f32⟩ : BufTy).Contents (Elt F)) (r24 x w) (r32 x w)
def r34 (x : (⟨S2x32x56x56, .f32⟩ : BufTy).Contents (Elt F)) (w : (⟨S64x32x3x3, .f32⟩ : BufTy).Contents (Elt F)) : (⟨S64x32x1x1, .f32⟩ : BufTy).Contents (Elt F) :=
  ((extractStridedSlice S64x32x1x1 ![0, 0, 1, 1] · slices_S64x32x3x3_S64x32x1x1_0_0_1_1) : (⟨S64x32x3x3, .f32⟩ : BufTy).Contents (Elt F) → (⟨S64x32x1x1, .f32⟩ : BufTy).Contents (Elt F)) (w)
def r35 (x : (⟨S2x32x56x56, .f32⟩ : BufTy).Contents (Elt F)) (w : (⟨S64x32x3x3, .f32⟩ : BufTy).Contents (Elt F)) : (⟨S64x32, .f32⟩ : BufTy).Contents (Elt F) :=
  shapeCast S64x32 (r34 x w) shapeCasts_S64x32x1x1_S64x32
def r36 (x : (⟨S2x32x56x56, .f32⟩ : BufTy).Contents (Elt F)) (w : (⟨S64x32x3x3, .f32⟩ : BufTy).Contents (Elt F)) : (⟨S64x32, .f32⟩ : BufTy).Contents (Elt F) :=
  (Host.divf : (⟨S64x32, .f32⟩ : BufTy).Contents (Elt F) → (⟨S64x32, .f32⟩ : BufTy).Contents (Elt F) → (⟨S64x32, .f32⟩ : BufTy).Contents (Elt F)) (r33 x w) (r35 x w)
def r37 (x : (⟨S2x32x56x56, .f32⟩ : BufTy).Contents (Elt F)) (w : (⟨S64x32x3x3, .f32⟩ : BufTy).Contents (Elt F)) : (⟨S64x32x1x1, .f32⟩ : BufTy).Contents (Elt F) :=
  ((extractStridedSlice S64x32x1x1 ![0, 0, 2, 2] · slices_S64x32x3x3_S64x32x1x1_0_0_2_2) : (⟨S64x32x3x3, .f32⟩ : BufTy).Contents (Elt F) → (⟨S64x32x1x1, .f32⟩ : BufTy).Contents (Elt F)) (w)
def r38 (x : (⟨S2x32x56x56, .f32⟩ : BufTy).Contents (Elt F)) (w : (⟨S64x32x3x3, .f32⟩ : BufTy).Contents (Elt F)) : (⟨S64x32, .f32⟩ : BufTy).Contents (Elt F) :=
  shapeCast S64x32 (r37 x w) shapeCasts_S64x32x1x1_S64x32
def r39 (x : (⟨S2x32x56x56, .f32⟩ : BufTy).Contents (Elt F)) (w : (⟨S64x32x3x3, .f32⟩ : BufTy).Contents (Elt F)) : (⟨S64x32, .f32⟩ : BufTy).Contents (Elt F) :=
  (Host.negf : (⟨S64x32, .f32⟩ : BufTy).Contents (Elt F) → (⟨S64x32, .f32⟩ : BufTy).Contents (Elt F)) (r38 x w)
def r40 (x : (⟨S2x32x56x56, .f32⟩ : BufTy).Contents (Elt F)) (w : (⟨S64x32x3x3, .f32⟩ : BufTy).Contents (Elt F)) : (⟨S64x32x1x1, .f32⟩ : BufTy).Contents (Elt F) :=
  ((extractStridedSlice S64x32x1x1 ![0, 0, 1, 1] · slices_S64x32x3x3_S64x32x1x1_0_0_1_1) : (⟨S64x32x3x3, .f32⟩ : BufTy).Contents (Elt F) → (⟨S64x32x1x1, .f32⟩ : BufTy).Contents (Elt F)) (w)
def r41 (x : (⟨S2x32x56x56, .f32⟩ : BufTy).Contents (Elt F)) (w : (⟨S64x32x3x3, .f32⟩ : BufTy).Contents (Elt F)) : (⟨S64x32, .f32⟩ : BufTy).Contents (Elt F) :=
  shapeCast S64x32 (r40 x w) shapeCasts_S64x32x1x1_S64x32
def r42 (x : (⟨S2x32x56x56, .f32⟩ : BufTy).Contents (Elt F)) (w : (⟨S64x32x3x3, .f32⟩ : BufTy).Contents (Elt F)) : (⟨S64x32, .f32⟩ : BufTy).Contents (Elt F) :=
  (Host.divf : (⟨S64x32, .f32⟩ : BufTy).Contents (Elt F) → (⟨S64x32, .f32⟩ : BufTy).Contents (Elt F) → (⟨S64x32, .f32⟩ : BufTy).Contents (Elt F)) (r39 x w) (r41 x w)
def r43 (x : (⟨S2x32x56x56, .f32⟩ : BufTy).Contents (Elt F)) (w : (⟨S64x32x3x3, .f32⟩ : BufTy).Contents (Elt F)) : (⟨S64x32x1x1, .f32⟩ : BufTy).Contents (Elt F) :=
  ((extractStridedSlice S64x32x1x1 ![0, 0, 0, 1] · slices_S64x32x3x3_S64x32x1x1_0_0_0_1) : (⟨S64x32x3x3, .f32⟩ : BufTy).Contents (Elt F) → (⟨S64x32x1x1, .f32⟩ : BufTy).Contents (Elt F)) (w)
def r44 (x : (⟨S2x32x56x56, .f32⟩ : BufTy).Contents (Elt F)) (w : (⟨S64x32x3x3, .f32⟩ : BufTy).Contents (Elt F)) : (⟨S64x32, .f32⟩ : BufTy).Contents (Elt F) :=
  shapeCast S64x32 (r43 x w) shapeCasts_S64x32x1x1_S64x32
def r45 (x : (⟨S2x32x56x56, .f32⟩ : BufTy).Contents (Elt F)) (w : (⟨S64x32x3x3, .f32⟩ : BufTy).Contents (Elt F)) : (⟨S64x32x1x1, .f32⟩ : BufTy).Contents (Elt F) :=
  ((extractStridedSlice S64x32x1x1 ![0, 0, 2, 1] · slices_S64x32x3x3_S64x32x1x1_0_0_2_1) : (⟨S64x32x3x3, .f32⟩ : BufTy).Contents (Elt F) → (⟨S64x32x1x1, .f32⟩ : BufTy).Contents (Elt F)) (w)
def r46 (x : (⟨S2x32x56x56, .f32⟩ : BufTy).Contents (Elt F)) (w : (⟨S64x32x3x3, .f32⟩ : BufTy).Contents (Elt F)) : (⟨S64x32, .f32⟩ : BufTy).Contents (Elt F) :=
  shapeCast S64x32 (r45 x w) shapeCasts_S64x32x1x1_S64x32
def r47 (x : (⟨S2x32x56x56, .f32⟩ : BufTy).Contents (Elt F)) (w : (⟨S64x32x3x3, .f32⟩ : BufTy).Contents (Elt F)) : (⟨S64x32x1x1, .f32⟩ : BufTy).Contents (Elt F) :=
  ((extractStridedSlice S64x32x1x1 ![0, 0, 1, 0] · slices_S64x32x3x3_S64x32x1x1_0_0_1_0) : (⟨S64x32x3x3, .f32⟩ : BufTy).Contents (Elt F) → (⟨S64x32x1x1, .f32⟩ : BufTy).Contents (Elt F)) (w)
def r48 (x : (⟨S2x32x56x56, .f32⟩ : BufTy).Contents (Elt F)) (w : (⟨S64x32x3x3, .f32⟩ : BufTy).Contents (Elt F)) : (⟨S64x32, .f32⟩ : BufTy).Contents (Elt F) :=
  shapeCast S64x32 (r47 x w) shapeCasts_S64x32x1x1_S64x32
def r49 (x : (⟨S2x32x56x56, .f32⟩ : BufTy).Contents (Elt F)) (w : (⟨S64x32x3x3, .f32⟩ : BufTy).Contents (Elt F)) : (⟨S64x32x1x1, .f32⟩ : BufTy).Contents (Elt F) :=
  ((extractStridedSlice S64x32x1x1 ![0, 0, 1, 2] · slices_S64x32x3x3_S64x32x1x1_0_0_1_2) : (⟨S64x32x3x3, .f32⟩ : BufTy).Contents (Elt F) → (⟨S64x32x1x1, .f32⟩ : BufTy).Contents (Elt F)) (w)
def r50 (x : (⟨S2x32x56x56, .f32⟩ : BufTy).Contents (Elt F)) (w : (⟨S64x32x3x3, .f32⟩ : BufTy).Contents (Elt F)) : (⟨S64x32, .f32⟩ : BufTy).Contents (Elt F) :=
  shapeCast S64x32 (r49 x w) shapeCasts_S64x32x1x1_S64x32
def r51 (x : (⟨S2x32x56x56, .f32⟩ : BufTy).Contents (Elt F)) (w : (⟨S64x32x3x3, .f32⟩ : BufTy).Contents (Elt F)) : (⟨S64x32x1x1, .f32⟩ : BufTy).Contents (Elt F) :=
  ((extractStridedSlice S64x32x1x1 ![0, 0, 1, 1] · slices_S64x32x3x3_S64x32x1x1_0_0_1_1) : (⟨S64x32x3x3, .f32⟩ : BufTy).Contents (Elt F) → (⟨S64x32x1x1, .f32⟩ : BufTy).Contents (Elt F)) (w)
def r52 (x : (⟨S2x32x56x56, .f32⟩ : BufTy).Contents (Elt F)) (w : (⟨S64x32x3x3, .f32⟩ : BufTy).Contents (Elt F)) : (⟨S64x32, .f32⟩ : BufTy).Contents (Elt F) :=
  shapeCast S64x32 (r51 x w) shapeCasts_S64x32x1x1_S64x32
def r_c (x : (⟨S2x32x56x56, .f32⟩ : BufTy).Contents (Elt F)) (w : (⟨S64x32x3x3, .f32⟩ : BufTy).Contents (Elt F)) : (⟨S_, .i32⟩ : BufTy).Contents (Elt F) :=
  (constantI S_ 32 0#32)
def r_call0_v0 (x : (⟨S2x32x56x56, .f32⟩ : BufTy).Contents (Elt F)) (w : (⟨S64x32x3x3, .f32⟩ : BufTy).Contents (Elt F)) : (⟨S_, .f32⟩ : BufTy).Contents (Elt F) :=
  (sitofp .f32) (r_c x w)
def r53 (x : (⟨S2x32x56x56, .f32⟩ : BufTy).Contents (Elt F)) (w : (⟨S64x32x3x3, .f32⟩ : BufTy).Contents (Elt F)) : (⟨S2x32x58x58, .f32⟩ : BufTy).Contents (Elt F) :=
  (fun x v => pad S2x32x58x58 ![0, 0, 1, 1] ![0, 0, 1, 1] ![0, 0, 0, 0] x v pads_S2x32x56x56_S2x32x58x58_000_000_110_110 h_S_) (x) (r_call0_v0 x w)
def r54 (x : (⟨S2x32x56x56, .f32⟩ : BufTy).Contents (Elt F)) (w : (⟨S64x32x3x3, .f32⟩ : BufTy).Contents (Elt F)) : (⟨S2x1x32x58x58, .f32⟩ : BufTy).Contents (Elt F) :=
  (broadcastInDim S2x1x32x58x58 ![0, 2, 3, 4] bcast_S2x32x58x58_S2x1x32x58x58_0_2_3_4 : (⟨S2x32x58x58, .f32⟩ : BufTy).Contents (Elt F) → (⟨S2x1x32x58x58, .f32⟩ : BufTy).Contents (Elt F)) (r53 x w)
def r55 (x : (⟨S2x32x56x56, .f32⟩ : BufTy).Contents (Elt F)) (w : (⟨S64x32x3x3, .f32⟩ : BufTy).Contents (Elt F)) : (⟨S2x1x32x58x57, .f32⟩ : BufTy).Contents (Elt F) :=
  ((extractStridedSlice S2x1x32x58x57 ![0, 0, 0, 0, 1] · slices_S2x1x32x58x58_S2x1x32x58x57_0_0_0_0_1) : (⟨S2x1x32x58x58, .f32⟩ : BufTy).Contents (Elt F) → (⟨S2x1x32x58x57, .f32⟩ : BufTy).Contents (Elt F)) (r54 x w)
def r_c_0 (x : (⟨S2x32x56x56, .f32⟩ : BufTy).Contents (Elt F)) (w : (⟨S64x32x3x3, .f32⟩ : BufTy).Contents (Elt F)) : (⟨S_, .i32⟩ : BufTy).Contents (Elt F) :=
  (constantI S_ 32 0#32)
def r_call1_v0 (x : (⟨S2x32x56x56, .f32⟩ : BufTy).Contents (Elt F)) (w : (⟨S64x32x3x3, .f32⟩ : BufTy).Contents (Elt F)) : (⟨S_, .f32⟩ : BufTy).Contents (Elt F) :=
  (sitofp .f32) (r_c_0 x w)
def r56 (x : (⟨S2x32x56x56, .f32⟩ : BufTy).Contents (Elt F)) (w : (⟨S64x32x3x3, .f32⟩ : BufTy).Contents (Elt F)) : (⟨S2x1x32x58x58, .f32⟩ : BufTy).Contents (Elt F) :=
  (fun x v => pad S2x1x32x58x58 ![0, 0, 0, 0, 0] ![0, 0, 0, 0, 1] ![0, 0, 0, 0, 0] x v pads_S2x1x32x58x57_S2x1x32x58x58_000_000_000_000_010 h_S_) (r55 x w) (r_call1_v0 x w)
def r57 (x : (⟨S2x32x56x56, .f32⟩ : BufTy).Contents (Elt F)) (w : (⟨S64x32x3x3, .f32⟩ : BufTy).Contents (Elt F)) : (⟨S2x1x32x57x58, .f32⟩ : BufTy).Contents (Elt F) :=
  ((extractStridedSlice S2x1x32x57x58 ![0, 0, 0, 1, 0] · slices_S2x1x32x58x58_S2x1x32x57x58_0_0_0_1_0) : (⟨S2x1x32x58x58, .f32⟩ : BufTy).Contents (Elt F) → (⟨S2x1x32x57x58, .f32⟩ : BufTy).Contents (Elt F)) (r54 x w)
def r_c_1 (x : (⟨S2x32x56x56, .f32⟩ : BufTy).Contents (Elt F)) (w : (⟨S64x32x3x3, .f32⟩ : BufTy).Contents (Elt F)) : (⟨S_, .i32⟩ : BufTy).Contents (Elt F) :=
  (constantI S_ 32 0#32)
def r_call2_v0 (x : (⟨S2x32x56x56, .f32⟩ : BufTy).Contents (Elt F)) (w : (⟨S64x32x3x3, .f32⟩ : BufTy).Contents (Elt F)) : (⟨S_, .f32⟩ : BufTy).Contents (Elt F) :=
  (sitofp .f32) (r_c_1 x w)
def r58 (x : (⟨S2x32x56x56, .f32⟩ : BufTy).Contents (Elt F)) (w : (⟨S64x32x3x3, .f32⟩ : BufTy).Contents (Elt F)) : (⟨S2x1x32x58x58, .f32⟩ : BufTy).Contents (Elt F) :=
  (fun x v => pad S2x1x32x58x58 ![0, 0, 0, 0, 0] ![0, 0, 0, 1, 0] ![0, 0, 0, 0, 0] x v pads_S2x1x32x57x58_S2x1x32x58x58_000_000_000_010_000 h_S_) (r57 x w) (r_call2_v0 x w)
def r59 (x : (⟨S2x32x56x56, .f32⟩ : BufTy).Contents (Elt F)) (w : (⟨S64x32x3x3, .f32⟩ : BufTy).Contents (Elt F)) : (⟨S2x1x32x57x58, .f32⟩ : BufTy).Contents (Elt F) :=
  ((extractStridedSlice S2x1x32x57x58 ![0, 0, 0, 1, 0] · slices_S2x1x32x58x58_S2x1x32x57x58_0_0_0_1_0) : (⟨S2x1x32x58x58, .f32⟩ : BufTy).Contents (Elt F) → (⟨S2x1x32x57x58, .f32⟩ : BufTy).Contents (Elt F)) (r54 x w)
def r_c_2 (x : (⟨S2x32x56x56, .f32⟩ : BufTy).Contents (Elt F)) (w : (⟨S64x32x3x3, .f32⟩ : BufTy).Contents (Elt F)) : (⟨S_, .i32⟩ : BufTy).Contents (Elt F) :=
  (constantI S_ 32 0#32)
def r_call3_v0 (x : (⟨S2x32x56x56, .f32⟩ : BufTy).Contents (Elt F)) (w : (⟨S64x32x3x3, .f32⟩ : BufTy).Contents (Elt F)) : (⟨S_, .f32⟩ : BufTy).Contents (Elt F) :=
  (sitofp .f32) (r_c_2 x w)
def r60 (x : (⟨S2x32x56x56, .f32⟩ : BufTy).Contents (Elt F)) (w : (⟨S64x32x3x3, .f32⟩ : BufTy).Contents (Elt F)) : (⟨S2x1x32x58x58, .f32⟩ : BufTy).Contents (Elt F) :=
  (fun x v => pad S2x1x32x58x58 ![0, 0, 0, 0, 0] ![0, 0, 0, 1, 0] ![0, 0, 0, 0, 0] x v pads_S2x1x32x57x58_S2x1x32x58x58_000_000_000_010_000 h_S_) (r59 x w) (r_call3_v0 x w)
def r61 (x : (⟨S2x32x56x56, .f32⟩ : BufTy).Contents (Elt F)) (w : (⟨S64x32x3x3, .f32⟩ : BufTy).Contents (Elt F)) : (⟨S2x1x32x58x57, .f32⟩ : BufTy).Contents (Elt F) :=
  ((extractStridedSlice S2x1x32x58x57 ![0, 0, 0, 0, 1] · slices_S2x1x32x58x58_S2x1x32x58x57_0_0_0_0_1) : (⟨S2x1x32x58x58, .f32⟩ : BufTy).Contents (Elt F) → (⟨S2x1x32x58x57, .f32⟩ : BufTy).Contents (Elt F)) (r60 x w)
def r_c_3 (x : (⟨S2x32x56x56, .f32⟩ : BufTy).Contents (Elt F)) (w : (⟨S64x32x3x3, .f32⟩ : BufTy).Contents (Elt F)) : (⟨S_, .i32⟩ : BufTy).Contents (Elt F) :=
  (constantI S_ 32 0#32)
def r_call4_v0 (x : (⟨S2x32x56x56, .f32⟩ : BufTy).Contents (Elt F)) (w : (⟨S64x32x3x3, .f32⟩ : BufTy).Contents (Elt F)) : (⟨S_, .f32⟩ : BufTy).Contents (Elt F) :=
  (sitofp .f32) (r_c_3 x w)
def r62 (x : (⟨S2x32x56x56, .f32⟩ : BufTy).Contents (Elt F)) (w : (⟨S64x32x3x3, .f32⟩ : BufTy).Contents (Elt F)) : (⟨S2x1x32x58x58, .f32⟩ : BufTy).Contents (Elt F) :=
  (fun x v => pad S2x1x32x58x58 ![0, 0, 0, 0, 0] ![0, 0, 0, 0, 1] ![0, 0, 0, 0, 0] x v pads_S2x1x32x58x57_S2x1x32x58x58_000_000_000_000_010 h_S_) (r61 x w) (r_call4_v0 x w)
def r63 (x : (⟨S2x32x56x56, .f32⟩ : BufTy).Contents (Elt F)) (w : (⟨S64x32x3x3, .f32⟩ : BufTy).Contents (Elt F)) : (⟨S2x1x32x56x58, .f32⟩ : BufTy).Contents (Elt F) :=
  ((extractStridedSlice S2x1x32x56x58 ![0, 0, 0, 2, 0] · slices_S2x1x32x58x58_S2x1x32x56x58_0_0_0_2_0) : (⟨S2x1x32x58x58, .f32⟩ : BufTy).Contents (Elt F) → (⟨S2x1x32x56x58, .f32⟩ : BufTy).Contents (Elt F)) (r54 x w)
def r_c_4 (x : (⟨S2x32x56x56, .f32⟩ : BufTy).Contents (Elt F)) (w : (⟨S64x32x3x3, .f32⟩ : BufTy).Contents (Elt F)) : (⟨S_, .i32⟩ : BufTy).Contents (Elt F) :=
  (constantI S_ 32 0#32)
def r_call5_v0 (x : (⟨S2x32x56x56, .f32⟩ : BufTy).Contents (Elt F)) (w : (⟨S64x32x3x3, .f32⟩ : BufTy).Contents (Elt F)) : (⟨S_, .f32⟩ : BufTy).Contents (Elt F) :=
  (sitofp .f32) (r_c_4 x w)
def r64 (x : (⟨S2x32x56x56, .f32⟩ : BufTy).Contents (Elt F)) (w : (⟨S64x32x3x3, .f32⟩ : BufTy).Contents (Elt F)) : (⟨S2x1x32x58x58, .f32⟩ : BufTy).Contents (Elt F) :=
  (fun x v => pad S2x1x32x58x58 ![0, 0, 0, 0, 0] ![0, 0, 0, 2, 0] ![0, 0, 0, 0, 0] x v pads_S2x1x32x56x58_S2x1x32x58x58_000_000_000_020_000 h_S_) (r63 x w) (r_call5_v0 x w)
def r65 (x : (⟨S2x32x56x56, .f32⟩ : BufTy).Contents (Elt F)) (w : (⟨S64x32x3x3, .f32⟩ : BufTy).Contents (Elt F)) : (⟨S2x1x32x58x56, .f32⟩ : BufTy).Contents (Elt F) :=
  ((extractStridedSlice S2x1x32x58x56 ![0, 0, 0, 0, 2] · slices_S2x1x32x58x58_S2x1x32x58x56_0_0_0_0_2) : (⟨S2x1x32x58x58, .f32⟩ : BufTy).Contents (Elt F) → (⟨S2x1x32x58x56, .f32⟩ : BufTy).Contents (Elt F)) (r64 x w)
def r_c_5 (x : (⟨S2x32x56x56, .f32⟩ : BufTy).Contents (Elt F)) (w : (⟨S64x32x3x3, .f32⟩ : BufTy).Contents (Elt F)) : (⟨S_, .i32⟩ : BufTy).Contents (Elt F) :=
  (constantI S_ 32 0#32)
def r_call6_v0 (x : (⟨S2x32x56x56, .f32⟩ : BufTy).Contents (Elt F)) (w : (⟨S64x32x3x3, .f32⟩ : BufTy).Contents (Elt F)) : (⟨S_, .f32⟩ : BufTy).Contents (Elt F) :=
  (sitofp .f32) (r_c_5 x w)
def r66 (x : (⟨S2x32x56x56, .f32⟩ : BufTy).Contents (Elt F)) (w : (⟨S64x32x3x3, .f32⟩ : BufTy).Contents (Elt F)) : (⟨S2x1x32x58x58, .f32⟩ : BufTy).Contents (Elt F) :=
  (fun x v => pad S2x1x32x58x58 ![0, 0, 0, 0, 0] ![0, 0, 0, 0, 2] ![0, 0, 0, 0, 0] x v pads_S2x1x32x58x56_S2x1x32x58x58_000_000_000_000_020 h_S_) (r65 x w) (r_call6_v0 x w)
def r67 (x : (⟨S2x32x56x56, .f32⟩ : BufTy).Contents (Elt F)) (w : (⟨S64x32x3x3, .f32⟩ : BufTy).Contents (Elt F)) : (⟨S1x64x32x1x1, .f32⟩ : BufTy).Contents (Elt F) :=
  (broadcastInDim S1x64x32x1x1 ![1, 2] bcast_S64x32_S1x64x32x1x1_1_2 : (⟨S64x32, .f32⟩ : BufTy).Contents (Elt F) → (⟨S1x64x32x1x1, .f32⟩ : BufTy).Contents (Elt F)) (r5 x w)
def r68 (x : (⟨S2x32x56x56, .f32⟩ : BufTy).Contents (Elt F)) (w : (⟨S64x32x3x3, .f32⟩ : BufTy).Contents (Elt F)) : (⟨S2x64x32x58x58, .f32⟩ : BufTy).Contents (Elt F) :=
  (broadcastInDim S2x64x32x58x58 ![0, 1, 2, 3, 4] bcast_S1x64x32x1x1_S2x64x32x58x58_0_1_2_3_4 : (⟨S1x64x32x1x1, .f32⟩ : BufTy).Contents (Elt F) → (⟨S2x64x32x58x58, .f32⟩ : BufTy).Contents (Elt F)) (r67 x w)
def r69 (x : (⟨S2x32x56x56, .f32⟩ : BufTy).Contents (Elt F)) (w : (⟨S64x32x3x3, .f32⟩ : BufTy).Contents (Elt F)) : (⟨S2x64x32x58x58, .f32⟩ : BufTy).Contents (Elt F) :=
  (broadcastInDim S2x64x32x58x58 ![0, 1, 2, 3, 4] bcast_S2x1x32x58x58_S2x64x32x58x58_0_1_2_3_4 : (⟨S2x1x32x58x58, .f32⟩ : BufTy).Contents (Elt F) → (⟨S2x64x32x58x58, .f32⟩ : BufTy).Contents (Elt F)) (r54 x w)
def r70 (x : (⟨S2x32x56x56, .f32⟩ : BufTy).Contents (Elt F)) (w : (⟨S64x32x3x3, .f32⟩ : BufTy).Contents (Elt F)) : (⟨S2x64x32x58x58, .f32⟩ : BufTy).Contents (Elt F) :=
  (mulf : (⟨S2x64x32x58x58, .f32⟩ : BufTy).Contents (Elt F) → (⟨S2x64x32x58x58, .f32⟩ : BufTy).Contents (Elt F) → (⟨S2x64x32x58x58, .f32⟩ : BufTy).Contents (Elt F)) (r68 x w) (r69 x w)
def r71 (x : (⟨S2x32x56x56, .f32⟩ : BufTy).Contents (Elt F)) (w : (⟨S64x32x3x3, .f32⟩ : BufTy).Contents (Elt F)) : (⟨S2x64x32x58x58, .f32⟩ : BufTy).Contents (Elt F) :=
  (broadcastInDim S2x64x32x58x58 ![0, 1, 2, 3, 4] bcast_S2x1x32x58x58_S2x64x32x58x58_0_1_2_3_4 : (⟨S2x1x32x58x58, .f32⟩ : BufTy).Contents (Elt F) → (⟨S2x64x32x58x58, .f32⟩ : BufTy).Contents (Elt F)) (r56 x w)
def r72 (x : (⟨S2x32x56x56, .f32⟩ : BufTy).Contents (Elt F)) (w : (⟨S64x32x3x3, .f32⟩ : BufTy).Contents (Elt F)) : (⟨S2x64x32x58x58, .f32⟩ : BufTy).Contents (Elt F) :=
  (subf : (⟨S2x64x32x58x58, .f32⟩ : BufTy).Contents (Elt F) → (⟨S2x64x32x58x58, .f32⟩ : BufTy).Contents (Elt F) → (⟨S2x64x32x58x58, .f32⟩ : BufTy).Contents (Elt F)) (r71 x w) (r70 x w)
def r73 (x : (⟨S2x32x56x56, .f32⟩ : BufTy).Contents (Elt F)) (w : (⟨S64x32x3x3, .f32⟩ : BufTy).Contents (Elt F)) : (⟨S1x64x32x1x1, .f32⟩ : BufTy).Contents (Elt F) :=
  (broadcastInDim S1x64x32x1x1 ![1, 2] bcast_S64x32_S1x64x32x1x1_1_2 : (⟨S64x32, .f32⟩ : BufTy).Contents (Elt F) → (⟨S1x64x32x1x1, .f32⟩ : BufTy).Contents (Elt F)) (r11 x w)
def r74 (x : (⟨S2x32x56x56, .f32⟩ : BufTy).Contents (Elt F)) (w : (⟨S64x32x3x3, .f32⟩ : BufTy).Contents (Elt F)) : (⟨S2x64x32x58x58, .f32⟩ : BufTy).Contents (Elt F) :=
  (broadcastInDim S2x64x32x58x58 ![0, 1, 2, 3, 4] bcast_S1x64x32x1x1_S2x64x32x58x58_0_1_2_3_4 : (⟨S1x64x32x1x1, .f32⟩ : BufTy).Contents (Elt F) → (⟨S2x64x32x58x58, .f32⟩ : BufTy).Contents (Elt F)) (r73 x w)
def r75 (x : (⟨S2x32x56x56, .f32⟩ : BufTy).Contents (Elt F)) (w : (⟨S64x32x3x3, .f32⟩ : BufTy).Contents (Elt F)) : (⟨S2x64x32x58x58, .f32⟩ : BufTy).Contents (Elt F) :=
  (broadcastInDim S2x64x32x58x58 ![0, 1, 2, 3, 4] bcast_S2x1x32x58x58_S2x64x32x58x58_0_1_2_3_4 : (⟨S2x1x32x58x58, .f32⟩ : BufTy).Contents (Elt F) → (⟨S2x64x32x58x58, .f32⟩ : BufTy).Contents (Elt F)) (r54 x w)
def r76 (x : (⟨S2x32x56x56, .f32⟩ : BufTy).Contents (Elt F)) (w : (⟨S64x32x3x3, .f32⟩ : BufTy).Contents (Elt F)) : (⟨S2x64x32x58x58, .f32⟩ : BufTy).Contents (Elt F) :=
  (mulf : (⟨S2x64x32x58x58, .f32⟩ : BufTy).Contents (Elt F) → (⟨S2x64x32x58x58, .f32⟩ : BufTy).Contents (Elt F) → (⟨S2x64x32x58x58, .f32⟩ : BufTy).Contents (Elt F)) (r74 x w) (r75 x w)
def r77 (x : (⟨S2x32x56x56, .f32⟩ : BufTy).Contents (Elt F)) (w : (⟨S64x32x3x3, .f32⟩ : BufTy).Contents (Elt F)) : (⟨S2x64x32x58x58, .f32⟩ : BufTy).Contents (Elt F) :=
  (broadcastInDim S2x64x32x58x58 ![0, 1, 2, 3, 4] bcast_S2x1x32x58x58_S2x64x32x58x58_0_1_2_3_4 : (⟨S2x1x32x58x58, .f32⟩ : BufTy).Contents (Elt F) → (⟨S2x64x32x58x58, .f32⟩ : BufTy).Contents (Elt F)) (r58 x w)
def r78 (x : (⟨S2x32x56x56, .f32⟩ : BufTy).Contents (Elt F)) (w : (⟨S64x32x3x3, .f32⟩ : BufTy).Contents (Elt F)) : (⟨S2x64x32x58x58, .f32⟩ : BufTy).Contents (Elt F) :=
  (subf : (⟨S2x64x32x58x58, .f32⟩ : BufTy).Contents (Elt F) → (⟨S2x64x32x58x58, .f32⟩ : BufTy).Contents (Elt F) → (⟨S2x64x32x58x58, .f32⟩ : BufTy).Contents (Elt F)) (r77 x w) (r76 x w)
def r79 (x : (⟨S2x32x56x56, .f32⟩ : BufTy).Contents (Elt F)) (w : (⟨S64x32x3x3, .f32⟩ : BufTy).Contents (Elt F)) : (⟨S1x64x32x1x1, .f32⟩ : BufTy).Contents (Elt F) :=
  (broadcastInDim S1x64x32x1x1 ![1, 2] bcast_S64x32_S1x64x32x1x1_1_2 : (⟨S64x32, .f32⟩ : BufTy).Contents (Elt F) → (⟨S1x64x32x1x1, .f32⟩ : BufTy).Contents (Elt F)) (r36 x w)
def r80 (x : (⟨S2x32x56x56, .f32⟩ : BufTy).Contents (Elt F)) (w : (⟨S64x32x3x3, .f32⟩ : BufTy).Contents (Elt F)) : (⟨S2x64x32x58x58, .f32⟩ : BufTy).Contents (Elt F) :=
  (broadcastInDim S2x64x32x58x58 ![0, 1, 2, 3, 4] bcast_S1x64x32x1x1_S2x64x32x58x58_0_1_2_3_4 : (⟨S1x64x32x1x1, .f32⟩ : BufTy).Contents (Elt F) → (⟨S2x64x32x58x58, .f32⟩ : BufTy).Contents (Elt F)) (r79 x w)
def r81 (x : (⟨S2x32x56x56, .f32⟩ : BufTy).Contents (Elt F)) (w : (⟨S64x32x3x3, .f32⟩ : BufTy).Contents (Elt F)) : (⟨S2x64x32x58x58, .f32⟩ : BufTy).Contents (Elt F) :=
  (broadcastInDim S2x64x32x58x58 ![0, 1, 2, 3, 4] bcast_S2x1x32x58x58_S2x64x32x58x58_0_1_2_3_4 : (⟨S2x1x32x58x58, .f32⟩ : BufTy).Contents (Elt F) → (⟨S2x64x32x58x58, .f32⟩ : BufTy).Contents (Elt F)) (r54 x w)
def r82 (x : (⟨S2x32x56x56, .f32⟩ : BufTy).Contents (Elt F)) (w : (⟨S64x32x3x3, .f32⟩ : BufTy).Contents (Elt F)) : (⟨S2x64x32x58x58, .f32⟩ : BufTy).Contents (Elt F) :=
  (mulf : (⟨S2x64x32x58x58, .f32⟩ : BufTy).Contents (Elt F) → (⟨S2x64x32x58x58, .f32⟩ : BufTy).Contents (Elt F) → (⟨S2x64x32x58x58, .f32⟩ : BufTy).Contents (Elt F)) (r80 x w) (r81 x w)
def r83 (x : (⟨S2x32x56x56, .f32⟩ : BufTy).Contents (Elt F)) (w : (⟨S64x32x3x3, .f32⟩ : BufTy).Contents (Elt F)) : (⟨S2x64x32x58x58, .f32⟩ : BufTy).Contents (Elt F) :=
  (broadcastInDim S2x64x32x58x58 ![0, 1, 2, 3, 4] bcast_S2x1x32x58x58_S2x64x32x58x58_0_1_2_3_4 : (⟨S2x1x32x58x58, .f32⟩ : BufTy).Contents (Elt F) → (⟨S2x64x32x58x58, .f32⟩ : BufTy).Contents (Elt F)) (r62 x w)
def r84 (x : (⟨S2x32x56x56, .f32⟩ : BufTy).Contents (Elt F)) (w : (⟨S64x32x3x3, .f32⟩ : BufTy).Contents (Elt F)) : (⟨S2x64x32x58x58, .f32⟩ : BufTy).Contents (Elt F) :=
  (subf : (⟨S2x64x32x58x58, .f32⟩ : BufTy).Contents (Elt F) → (⟨S2x64x32x58x58, .f32⟩ : BufTy).Contents (Elt F) → (⟨S2x64x32x58x58, .f32⟩ : BufTy).Contents (Elt F)) (r83 x w) (r82 x w)
def r85 (x : (⟨S2x32x56x56, .f32⟩ : BufTy).Contents (Elt F)) (w : (⟨S64x32x3x3, .f32⟩ : BufTy).Contents (Elt F)) : (⟨S1x64x32x1x1, .f32⟩ : BufTy).Contents (Elt F) :=
  (broadcastInDim S1x64x32x1x1 ![1, 2] bcast_S64x32_S1x64x32x1x1_1_2 : (⟨S64x32, .f32⟩ : BufTy).Contents (Elt F) → (⟨S1x64x32x1x1, .f32⟩ : BufTy).Contents (Elt F)) (r42 x w)
def r86 (x : (⟨S2x32x56x56, .f32⟩ : BufTy).Contents (Elt F)) (w : (⟨S64x32x3x3, .f32⟩ : BufTy).Contents (Elt F)) : (⟨S2x64x32x58x58, .f32⟩ : BufTy).Contents (Elt F) :=
  (broadcastInDim S2x64x32x58x58 ![0, 1, 2, 3, 4] bcast_S1x64x32x1x1_S2x64x32x58x58_0_1_2_3_4 : (⟨S1x64x32x1x1, .f32⟩ : BufTy).Contents (Elt F) → (⟨S2x64x32x58x58, .f32⟩ : BufTy).Contents (Elt F)) (r85 x w)
def r87 (x : (⟨S2x32x56x56, .f32⟩ : BufTy).Contents (Elt F)) (w : (⟨S64x32x3x3, .f32⟩ : BufTy).Contents (Elt F)) : (⟨S2x64x32x58x58, .f32⟩ : BufTy).Contents (Elt F) :=
  (broadcastInDim S2x64x32x58x58 ![0, 1, 2, 3, 4] bcast_S2x1x32x58x58_S2x64x32x58x58_0_1_2_3_4 : (⟨S2x1x32x58x58, .f32⟩ : BufTy).Contents (Elt F) → (⟨S2x64x32x58x58, .f32⟩ : BufTy).Contents (Elt F)) (r66 x w)
def r88 (x : (⟨S2x32x56x56, .f32⟩ : BufTy).Contents (Elt F)) (w : (⟨S64x32x3x3, .f32⟩ : BufTy).Contents (Elt F)) : (⟨S2x64x32x58x58, .f32⟩ : BufTy).Contents (Elt F) :=
  (mulf : (⟨S2x64x32x58x58, .f32⟩ : BufTy).Contents (Elt F) → (⟨S2x64x32x58x58, .f32⟩ : BufTy).Contents (Elt F) → (⟨S2x64x32x58x58, .f32⟩ : BufTy).Contents (Elt F)) (r86 x w) (r87 x w)
def r89 (x : (⟨S2x32x56x56, .f32⟩ : BufTy).Contents (Elt F)) (w : (⟨S64x32x3x3, .f32⟩ : BufTy).Contents (Elt F)) : (⟨S2x64x32x58x58, .f32⟩ : BufTy).Contents (Elt F) :=
  (subf : (⟨S2x64x32x58x58, .f32⟩ : BufTy).Contents (Elt F) → (⟨S2x64x32x58x58, .f32⟩ : BufTy).Contents (Elt F) → (⟨S2x64x32x58x58, .f32⟩ : BufTy).Contents (Elt F)) (r84 x w) (r88 x w)
def r90 (x : (⟨S2x32x56x56, .f32⟩ : BufTy).Contents (Elt F)) (w : (⟨S64x32x3x3, .f32⟩ : BufTy).Contents (Elt F)) : (⟨S2x64x32x56x58, .f32⟩ : BufTy).Contents (Elt F) :=
  ((extractStridedSlice S2x64x32x56x58 ![0, 0, 0, 2, 0] · slices_S2x64x32x58x58_S2x64x32x56x58_0_0_0_2_0) : (⟨S2x64x32x58x58, .f32⟩ : BufTy).Contents (Elt F) → (⟨S2x64x32x56x58, .f32⟩ : BufTy).Contents (Elt F)) (r72 x w)
def r_c_6 (x : (⟨S2x32x56x56, .f32⟩ : BufTy).Contents (Elt F)) (w : (⟨S64x32x3x3, .f32⟩ : BufTy).Contents (Elt F)) : (⟨S_, .i32⟩ : BufTy).Contents (Elt F) :=
  (constantI S_ 32 0#32)
def r_call7_v0 (x : (⟨S2x32x56x56, .f32⟩ : BufTy).Contents (Elt F)) (w : (⟨S64x32x3x3, .f32⟩ : BufTy).Contents (Elt F)) : (⟨S_, .f32⟩ : BufTy).Contents (Elt F) :=
  (sitofp .f32) (r_c_6 x w)
def r91 (x : (⟨S2x32x56x56, .f32⟩ : BufTy).Contents (Elt F)) (w : (⟨S64x32x3x3, .f32⟩ : BufTy).Contents (Elt F)) : (⟨S2x64x32x58x58, .f32⟩ : BufTy).Contents (Elt F) :=
  (fun x v => pad S2x64x32x58x58 ![0, 0, 0, 0, 0] ![0, 0, 0, 2, 0] ![0, 0, 0, 0, 0] x v pads_S2x64x32x56x58_S2x64x32x58x58_000_000_000_020_000 h_S_) (r90 x w) (r_call7_v0 x w)
def r92 (x : (⟨S2x32x56x56, .f32⟩ : BufTy).Contents (Elt F)) (w : (⟨S64x32x3x3, .f32⟩ : BufTy).Contents (Elt F)) : (⟨S2x64x32x58x56, .f32⟩ : BufTy).Contents (Elt F) :=
  ((extractStridedSlice S2x64x32x58x56 ![0, 0, 0, 0, 2] · slices_S2x64x32x58x58_S2x64x32x58x56_0_0_0_0_2) : (⟨S2x64x32x58x58, .f32⟩ : BufTy).Contents (Elt F) → (⟨S2x64x32x58x56, .f32⟩ : BufTy).Contents (Elt F)) (r78 x w)
def r_c_7 (x : (⟨S2x32x56x56, .f32⟩ : BufTy).Contents (Elt F)) (w : (⟨S64x32x3x3, .f32⟩ : BufTy).Contents (Elt F)) : (⟨S_, .i32⟩ : BufTy).Contents (Elt F) :=
  (constantI S_ 32 0#32)
def r_call8_v0 (x : (⟨S2x32x56x56, .f32⟩ : BufTy).Contents (Elt F)) (w : (⟨S64x32x3x3, .f32⟩ : BufTy).Contents (Elt F)) : (⟨S_, .f32⟩ : BufTy).Contents (Elt F) :=
  (sitofp .f32) (r_c_7 x w)
def r93 (x : (⟨S2x32x56x56, .f32⟩ : BufTy).Contents (Elt F)) (w : (⟨S64x32x3x3, .f32⟩ : BufTy).Contents (Elt F)) : (⟨S2x64x32x58x58, .f32⟩ : BufTy).Contents (Elt F) :=
  (fun x v => pad S2x64x32x58x58 ![0, 0, 0, 0, 0] ![0, 0, 0, 0, 2] ![0, 0, 0, 0, 0] x v pads_S2x64x32x58x56_S2x64x32x58x58_000_000_000_000_020 h_S_) (r92 x w) (r_call8_v0 x w)
def r94 (x : (⟨S2x32x56x56, .f32⟩ : BufTy).Contents (Elt F)) (w : (⟨S64x32x3x3, .f32⟩ : BufTy).Contents (Elt F)) : (⟨S1x64x32x1x1, .f32⟩ : BufTy).Contents (Elt F) :=
  (broadcastInDim S1x64x32x1x1 ![1, 2] bcast_S64x32_S1x64x32x1x1_1_2 : (⟨S64x32, .f32⟩ : BufTy).Contents (Elt F) → (⟨S1x64x32x1x1, .f32⟩ : BufTy).Contents (Elt F)) (r44 x w)
def r95 (x : (⟨S2x32x56x56, .f32⟩ : BufTy).Contents (Elt F)) (w : (⟨S64x32x3x3, .f32⟩ : BufTy).Contents (Elt F)) : (⟨S2x64x32x58x58, .f32⟩ : BufTy).Contents (Elt F) :=
  (broadcastInDim S2x64x32x58x58 ![0, 1, 2, 3, 4] bcast_S1x64x32x1x1_S2x64x32x58x58_0_1_2_3_4 : (⟨S1x64x32x1x1, .f32⟩ : BufTy).Contents (Elt F) → (⟨S2x64x32x58x58, .f32⟩ : BufTy).Contents (Elt F)) (r94 x w)
def r96 (x : (⟨S2x32x56x56, .f32⟩ : BufTy).Contents (Elt F)) (w : (⟨S64x32x3x3, .f32⟩ : BufTy).Contents (Elt F)) : (⟨S2x64x32x58x58, .f32⟩ : BufTy).Contents (Elt F) :=
  (mulf : (⟨S2x64x32x58x58, .f32⟩ : BufTy).Contents (Elt F) → (⟨S2x64x32x58x58, .f32⟩ : BufTy).Contents (Elt F) → (⟨S2x64x32x58x58, .f32⟩ : BufTy).Contents (Elt F)) (r95 x w) (r72 x w)
def r97 (x : (⟨S2x32x56x56, .f32⟩ : BufTy).Contents (Elt F)) (w : (⟨S64x32x3x3, .f32⟩ : BufTy).Contents (Elt F)) : (⟨S2x64x32x58x58, .f32⟩ : BufTy).Contents (Elt F) :=
  (broadcastInDim S2x64x32x58x58 ![0, 1, 2, 3, 4] bcast_S2x1x32x58x58_S2x64x32x58x58_0_1_2_3_4 : (⟨S2x1x32x58x58, .f32⟩ : BufTy).Contents (Elt F) → (⟨S2x64x32x58x58, .f32⟩ : BufTy).Contents (Elt F)) (r54 x w)
def r98 (x : (⟨S2x32x56x56, .f32⟩ : BufTy).Contents (Elt F)) (w : (⟨S64x32x3x3, .f32⟩ : BufTy).Contents (Elt F)) : (⟨S2x64x32x58x58, .f32⟩ : BufTy).Contents (Elt F) :=
  (addf : (⟨S2x64x32x58x58, .f32⟩ : BufTy).Contents (Elt F) → (⟨S2x64x32x58x58, .f32⟩ : BufTy).Contents (Elt F) → (⟨S2x64x32x58x58, .f32⟩ : BufTy).Contents (Elt F)) (r97 x w) (r96 x w)
def r99 (x : (⟨S2x32x56x56, .f32⟩ : BufTy).Contents (Elt F)) (w : (⟨S64x32x3x3, .f32⟩ : BufTy).Contents (Elt F)) : (⟨S1x64x32x1x1, .f32⟩ : BufTy).Contents (Elt F) :=
  (broadcastInDim S1x64x32x1x1 ![1, 2] bcast_S64x32_S1x64x32x1x1_1_2 : (⟨S64x32, .f32⟩ : BufTy).Contents (Elt F) → (⟨S1x64x32x1x1, .f32⟩ : BufTy).Contents (Elt F)) (r46 x w)
def r100 (x : (⟨S2x32x56x56, .f32⟩ : BufTy).Contents (Elt F)) (w : (⟨S64x32x3x3, .f32⟩ : BufTy).Contents (Elt F)) : (⟨S2x64x32x58x58, .f32⟩ : BufTy).Contents (Elt F) :=
  (broadcastInDim S2x64x32x58x58 ![0, 1, 2, 3, 4] bcast_S1x64x32x1x1_S2x64x32x58x58_0_1_2_3_4 : (⟨S1x64x32x1x1, .f32⟩ : BufTy).Contents (Elt F) → (⟨S2x64x32x58x58, .f32⟩ : BufTy).Contents (Elt F)) (r99 x w)
def r101 (x : (⟨S2x32x56x56, .f32⟩ : BufTy).Contents (Elt F)) (w : (⟨S64x32x3x3, .f32⟩ : BufTy).Contents (Elt F)) : (⟨S2x64x32x58x58, .f32⟩ : BufTy).Contents (Elt F) :=
  (mulf : (⟨S2x64x32x58x58, .f32⟩ : BufTy).Contents (Elt F) → (⟨S2x64x32x58x58, .f32⟩ : BufTy).Contents (Elt F) → (⟨S2x64x32x58x58, .f32⟩ : BufTy).Contents (Elt F)) (r100 x w) (r91 x w)
def r102 (x : (⟨S2x32x56x56, .f32⟩ : BufTy).Contents (Elt F)) (w : (⟨S64x32x3x3, .f32⟩ : BufTy).Contents (Elt F)) : (⟨S2x64x32x58x58, .f32⟩ : BufTy).Contents (Elt F) :=
  (addf : (⟨S2x64x32x58x58, .f32⟩ : BufTy).Contents (Elt F) → (⟨S2x64x32x58x58, .f32⟩ : BufTy).Contents (Elt F) → (⟨S2x64x32x58x58, .f32⟩ : BufTy).Contents (Elt F)) (r98 x w) (r101 x w)
def r103 (x : (⟨S2x32x56x56, .f32⟩ : BufTy).Contents (Elt F)) (w : (⟨S64x32x3x3, .f32⟩ : BufTy).Contents (Elt F)) : (⟨S1x64x32x1x1, .f32⟩ : BufTy).Contents (Elt F) :=
  (broadcastInDim S1x64x32x1x1 ![1, 2] bcast_S64x32_S1x64x32x1x1_1_2 : (⟨S64x32, .f32⟩ : BufTy).Contents (Elt F) → (⟨S1x64x32x1x1, .f32⟩ : BufTy).Contents (Elt F)) (r48 x w)
def r104 (x : (⟨S2x32x56x56, .f32⟩ : BufTy).Contents (Elt F)) (w : (⟨S64x32x3x3, .f32⟩ : BufTy).Contents (Elt F)) : (⟨S2x64x32x58x58, .f32⟩ : BufTy).Contents (Elt F) :=
  (broadcastInDim S2x64x32x58x58 ![0, 1, 2, 3, 4] bcast_S1x64x32x1x1_S2x64x32x58x58_0_1_2_3_4 : (⟨S1x64x32x1x1, .f32⟩ : BufTy).Contents (Elt F) → (⟨S2x64x32x58x58, .f32⟩ : BufTy).Contents (Elt F)) (r103 x w)
def r105 (x : (⟨S2x32x56x56, .f32⟩ : BufTy).Contents (Elt F)) (w : (⟨S64x32x3x3, .f32⟩ : BufTy).Contents (Elt F)) : (⟨S2x64x32x58x58, .f32⟩ : BufTy).Contents (Elt F) :=
  (mulf : (⟨S2x64x32x58x58, .f32⟩ : BufTy).Contents (Elt F) → (⟨S2x64x32x58x58, .f32⟩ : BufTy).Contents (Elt F) → (⟨S2x64x32x58x58, .f32⟩ : BufTy).Contents (Elt F)) (r104 x w) (r78 x w)
def r106 (x : (⟨S2x32x56x56, .f32⟩ : BufTy).Contents (Elt F)) (w : (⟨S64x32x3x3, .f32⟩ : BufTy).Contents (Elt F)) : (⟨S2x64x32x58x58, .f32⟩ : BufTy).Contents (Elt F) :=
  (addf : (⟨S2x64x32x58x58, .f32⟩ : BufTy).Contents (Elt F) → (⟨S2x64x32x58x58, .f32⟩ : BufTy).Contents (Elt F) → (⟨S2x64x32x58x58, .f32⟩ : BufTy).Contents (Elt F)) (r102 x w) (r105 x w)
def r107 (x : (⟨S2x32x56x56, .f32⟩ : BufTy).Contents (Elt F)) (w : (⟨S64x32x3x3, .f32⟩ : BufTy).Contents (Elt F)) : (⟨S1x64x32x1x1, .f32⟩ : BufTy).Contents (Elt F) :=
  (broadcastInDim S1x64x32x1x1 ![1, 2] bcast_S64x32_S1x64x32x1x1_1_2 : (⟨S64x32, .f32⟩ : BufTy).Contents (Elt F) → (⟨S1x64x32x1x1, .f32⟩ : BufTy).Contents (Elt F)) (r50 x w)
def r108 (x : (⟨S2x32x56x56, .f32⟩ : BufTy).Contents (Elt F)) (w : (⟨S64x32x3x3, .f32⟩ : BufTy).Contents (Elt F)) : (⟨S2x64x32x58x58, .f32⟩ : BufTy).Contents (Elt F) :=
  (broadcastInDim S2x64x32x58x58 ![0, 1, 2, 3, 4] bcast_S1x64x32x1x1_S2x64x32x58x58_0_1_2_3_4 : (⟨S1x64x32x1x1, .f32⟩ : BufTy).Contents (Elt F) → (⟨S2x64x32x58x58, .f32⟩ : BufTy).Contents (Elt F)) (r107 x w)
def r109 (x : (⟨S2x32x56x56, .f32⟩ : BufTy).Contents (Elt F)) (w : (⟨S64x32x3x3, .f32⟩ : BufTy).Contents (Elt F)) : (⟨S2x64x32x58x58, .f32⟩ : BufTy).Contents (Elt F) :=
  (mulf : (⟨S2x64x32x58x58, .f32⟩ : BufTy).Contents (Elt F) → (⟨S2x64x32x58x58, .f32⟩ : BufTy).Contents (Elt F) → (⟨S2x64x32x58x58, .f32⟩ : BufTy).Contents (Elt F)) (r108 x w) (r93 x w)
def r110 (x : (⟨S2x32x56x56, .f32⟩ : BufTy).Contents (Elt F)) (w : (⟨S64x32x3x3, .f32⟩ : BufTy).Contents (Elt F)) : (⟨S2x64x32x58x58, .f32⟩ : BufTy).Contents (Elt F) :=
  (addf : (⟨S2x64x32x58x58, .f32⟩ : BufTy).Contents (Elt F) → (⟨S2x64x32x58x58, .f32⟩ : BufTy).Contents (Elt F) → (⟨S2x64x32x58x58, .f32⟩ : BufTy).Contents (Elt F)) (r106 x w) (r109 x w)
def r111 (x : (⟨S2x32x56x56, .f32⟩ : BufTy).Contents (Elt F)) (w : (⟨S64x32x3x3, .f32⟩ : BufTy).Contents (Elt F)) : (⟨S1x64x32x1x1, .f32⟩ : BufTy).Contents (Elt F) :=
  (broadcastInDim S1x64x32x1x1 ![1, 2] bcast_S64x32_S1x64x32x1x1_1_2 : (⟨S64x32, .f32⟩ : BufTy).Contents (Elt F) → (⟨S1x64x32x1x1, .f32⟩ : BufTy).Contents (Elt F)) (r52 x w)
def r112 (x : (⟨S2x32x56x56, .f32⟩ : BufTy).Contents (Elt F)) (w : (⟨S64x32x3x3, .f32⟩ : BufTy).Contents (Elt F)) : (⟨S2x64x32x58x58, .f32⟩ : BufTy).Contents (Elt F) :=
  (broadcastInDim S2x64x32x58x58 ![0, 1, 2, 3, 4] bcast_S1x64x32x1x1_S2x64x32x58x58_0_1_2_3_4 : (⟨S1x64x32x1x1, .f32⟩ : BufTy).Contents (Elt F) → (⟨S2x64x32x58x58, .f32⟩ : BufTy).Contents (Elt F)) (r111 x w)
def r113 (x : (⟨S2x32x56x56, .f32⟩ : BufTy).Contents (Elt F)) (w : (⟨S64x32x3x3, .f32⟩ : BufTy).Contents (Elt F)) : (⟨S2x64x32x58x58, .f32⟩ : BufTy).Contents (Elt F) :=
  (mulf : (⟨S2x64x32x58x58, .f32⟩ : BufTy).Contents (Elt F) → (⟨S2x64x32x58x58, .f32⟩ : BufTy).Contents (Elt F) → (⟨S2x64x32x58x58, .f32⟩ : BufTy).Contents (Elt F)) (r112 x w) (r89 x w)
def r114 (x : (⟨S2x32x56x56, .f32⟩ : BufTy).Contents (Elt F)) (w : (⟨S64x32x3x3, .f32⟩ : BufTy).Contents (Elt F)) : (⟨S2x64x32x58x58, .f32⟩ : BufTy).Contents (Elt F) :=
  (addf : (⟨S2x64x32x58x58, .f32⟩ : BufTy).Contents (Elt F) → (⟨S2x64x32x58x58, .f32⟩ : BufTy).Contents (Elt F) → (⟨S2x64x32x58x58, .f32⟩ : BufTy).Contents (Elt F)) (r110 x w) (r113 x w)
def r115 (x : (⟨S2x32x56x56, .f32⟩ : BufTy).Contents (Elt F)) (w : (⟨S64x32x3x3, .f32⟩ : BufTy).Contents (Elt F)) : (⟨S2x64x32x56x56, .f32⟩ : BufTy).Contents (Elt F) :=
  ((extractStridedSlice S2x64x32x56x56 ![0, 0, 0, 0, 0] · slices_S2x64x32x58x58_S2x64x32x56x56_0_0_0_0_0) : (⟨S2x64x32x58x58, .f32⟩ : BufTy).Contents (Elt F) → (⟨S2x64x32x56x56, .f32⟩ : BufTy).Contents (Elt F)) (r114 x w)
def r_cst_8 (x : (⟨S2x32x56x56, .f32⟩ : BufTy).Contents (Elt F)) (w : (⟨S64x32x3x3, .f32⟩ : BufTy).Contents (Elt F)) : (⟨S_, .f32⟩ : BufTy).Contents (Elt F) :=
  (constant S_ .f32 0x00000000#32)
def r116 (x : (⟨S2x32x56x56, .f32⟩ : BufTy).Contents (Elt F)) (w : (⟨S64x32x3x3, .f32⟩ : BufTy).Contents (Elt F)) : (⟨S2x64x56x56, .f32⟩ : BufTy).Contents (Elt F) :=
  ((fun x v => Host.reduceAdd x v reducesTo_S2x64x32x56x56_S2x64x56x56_d2 h_S_) : (⟨S2x64x32x56x56, .f32⟩ : BufTy).Contents (Elt F) → (⟨S_, .f32⟩ : BufTy).Contents (Elt F) → (⟨S2x64x56x56, .f32⟩ : BufTy).Contents (Elt F)) (r115 x w) (r_cst_8 x w)

end Cert.ReferenceIdeal.Stages

end
-- ==== Proof.LibStretches.lean ====
/-
  Two facts for reading a long straight line of host operations in stretches.

  When a line of operations is the concatenation of two lines, the memory after it is the memory after the second
  line started from the memory after the first (after_append); so a long line can be evaluated stretch by stretch,
  each stretch over an arbitrary starting memory, and a value that several later operations read is evaluated once.
  A property of every operation of two lines holds of every operation of their concatenation (forall_append): the
  side condition a run over the whole line takes, assembled from the stretches'.
-/
import Idealize.ShloMosaic.Lib.StableHlo.Run

noncomputable section

namespace Idealize.ShloMosaic.StableHlo.Stretches

open Idealize.ShloMosaic Idealize.ShloMosaic.StableHlo

variable {τ : Topo} {sig : RefSig} {Val : EltTy → Type}

/-- The memory after two lines run one after the other is the memory after the second, from the memory after the
    first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- What holds of every operation of two lines holds of every operation of their concatenation. -/
theorem forall_append {p : HloOp τ sig Val → Prop} : ∀ (l₁ l₂ : List (HloOp τ sig Val)), l₁.Forall p → l₂.Forall p → (l₁ ++ l₂).Forall p
  | [], _, _, h₂ => h₂
  | a :: l, l₂, h₁, h₂ => by
    rw [List.cons_append, List.forall_cons]; rw [List.forall_cons] at h₁; exact ⟨h₁.1, forall_append l l₂ h₁.2 h₂⟩

end Idealize.ShloMosaic.StableHlo.Stretches

end
-- ==== Proof.RefOps.lean ====
/-
  The reference program's main function as a list of its 137 host operations (a called function's operations in
  its call's place), whole and cut into four consecutive stretches: the weight arithmetic, the zero padding of the
  input with its four shifted copies, the predict results with their second shifts, and the update sum with the
  crop and the sum over input channels; and the facts a run over the list takes: the main function is the list run
  in order, no buffer or semaphore is scoped, every operation touches TensorCore references only.
-/
import proofs.«171278_j39032662786092_1_alg».proof.Proof.RefStages
import proofs.«171278_j39032662786092_1_alg».proof.Proof.LibStretches
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.StableHlo.Stretches

variable {F : FTy → Type} [FloatOps F]

abbrev segA : List (HloOp τ sig (Elt F)) :=
  [ unary main_arg1 main_v0 ((extractStridedSlice S64x32x1x1 ![0, 0, 2, 0] · slices_S64x32x3x3_S64x32x1x1_0_0_2_0) : (⟨S64x32x3x3, .f32⟩ : BufTy).Contents (Elt F) → (⟨S64x32x1x1, .f32⟩ : BufTy).Contents (Elt F)),
    reshape main_v0 main_v1 rfl shapeCasts_S64x32x1x1_S64x32,
    unary main_v1 main_v2 (Host.negf : (⟨S64x32, .f32⟩ : BufTy).Contents (Elt F) → (⟨S64x32, .f32⟩ : BufTy).Contents (Elt F)),
    unary main_arg1 main_v3 ((extractStridedSlice S64x32x1x1 ![0, 0, 2, 1] · slices_S64x32x3x3_S64x32x1x1_0_0_2_1) : (⟨S64x32x3x3, .f32⟩ : BufTy).Contents (Elt F) → (⟨S64x32x1x1, .f32⟩ : BufTy).Contents (Elt F)),
    reshape main_v3 main_v4 rfl shapeCasts_S64x32x1x1_S64x32,
    binary main_v2 main_v4 main_v5 (Host.divf : (⟨S64x32, .f32⟩ : BufTy).Contents (Elt F) → (⟨S64x32, .f32⟩ : BufTy).Contents (Elt F) → (⟨S64x32, .f32⟩ : BufTy).Contents (Elt F)),
    unary main_arg1 main_v6 ((extractStridedSlice S64x32x1x1 ![0, 0, 0, 2] · slices_S64x32x3x3_S64x32x1x1_0_0_0_2) : (⟨S64x32x3x3, .f32⟩ : BufTy).Contents (Elt F) → (⟨S64x32x1x1, .f32⟩ : BufTy).Contents (Elt F)),
    reshape main_v6 main_v7 rfl shapeCasts_S64x32x1x1_S64x32,
    unary main_v7 main_v8 (Host.negf : (⟨S64x32, .f32⟩ : BufTy).Contents (Elt F) → (⟨S64x32, .f32⟩ : BufTy).Contents (Elt F)),
    unary main_arg1 main_v9 ((extractStridedSlice S64x32x1x1 ![0, 0, 1, 2] · slices_S64x32x3x3_S64x32x1x1_0_0_1_2) : (⟨S64x32x3x3, .f32⟩ : BufTy).Contents (Elt F) → (⟨S64x32x1x1, .f32⟩ : BufTy).Contents (Elt F)),
    reshape main_v9 main_v10 rfl shapeCasts_S64x32x1x1_S64x32,
    binary main_v8 main_v10 main_v11 (Host.divf : (⟨S64x32, .f32⟩ : BufTy).Contents (Elt F) → (⟨S64x32, .f32⟩ : BufTy).Contents (Elt F) → (⟨S64x32, .f32⟩ : BufTy).Contents (Elt F)),
    unary main_arg1 main_v12 ((extractStridedSlice S64x32x1x1 ![0, 0, 0, 0] · slices_S64x32x3x3_S64x32x1x1_0_0_0_0) : (⟨S64x32x3x3, .f32⟩ : BufTy).Contents (Elt F) → (⟨S64x32x1x1, .f32⟩ : BufTy).Contents (Elt F)),
    reshape main_v12 main_v13 rfl shapeCasts_S64x32x1x1_S64x32,
    nullary main_cst (constant S_ .f32 0x3F800000#32),
    unary main_cst main_v14 (broadcastInDim S64x32 ![] bcast_S_S64x32 : (⟨S_, .f32⟩ : BufTy).Contents (Elt F) → (⟨S64x32, .f32⟩ : BufTy).Contents (Elt F)),
    binary main_v14 main_v13 main_v15 (subf : (⟨S64x32, .f32⟩ : BufTy).Contents (Elt F) → (⟨S64x32, .f32⟩ : BufTy).Contents (Elt F) → (⟨S64x32, .f32⟩ : BufTy).Contents (Elt F)),
    unary main_arg1 main_v16 ((extractStridedSlice S64x32x1x1 ![0, 0, 2, 0] · slices_S64x32x3x3_S64x32x1x1_0_0_2_0) : (⟨S64x32x3x3, .f32⟩ : BufTy).Contents (Elt F) → (⟨S64x32x1x1, .f32⟩ : BufTy).Contents (Elt F)),
    reshape main_v16 main_v17 rfl shapeCasts_S64x32x1x1_S64x32,
    unary main_arg1 main_v18 ((extractStridedSlice S64x32x1x1 ![0, 0, 0, 1] · slices_S64x32x3x3_S64x32x1x1_0_0_0_1) : (⟨S64x32x3x3, .f32⟩ : BufTy).Contents (Elt F) → (⟨S64x32x1x1, .f32⟩ : BufTy).Contents (Elt F)),
    reshape main_v18 main_v19 rfl shapeCasts_S64x32x1x1_S64x32,
    binary main_v17 main_v19 main_v20 (mulf : (⟨S64x32, .f32⟩ : BufTy).Contents (Elt F) → (⟨S64x32, .f32⟩ : BufTy).Contents (Elt F) → (⟨S64x32, .f32⟩ : BufTy).Contents (Elt F)),
    unary main_arg1 main_v21 ((extractStridedSlice S64x32x1x1 ![0, 0, 2, 1] · slices_S64x32x3x3_S64x32x1x1_0_0_2_1) : (⟨S64x32x3x3, .f32⟩ : BufTy).Contents (Elt F) → (⟨S64x32x1x1, .f32⟩ : BufTy).Contents (Elt F)),
    reshape main_v21 main_v22 rfl shapeCasts_S64x32x1x1_S64x32,
    binary main_v20 main_v22 main_v23 (Host.divf : (⟨S64x32, .f32⟩ : BufTy).Contents (Elt F) → (⟨S64x32, .f32⟩ : BufTy).Contents (Elt F) → (⟨S64x32, .f32⟩ : BufTy).Contents (Elt F)),
    binary main_v15 main_v23 main_v24 (addf : (⟨S64x32, .f32⟩ : BufTy).Contents (Elt F) → (⟨S64x32, .f32⟩ : BufTy).Contents (Elt F) → (⟨S64x32, .f32⟩ : BufTy).Contents (Elt F)),
    unary main_arg1 main_v25 ((extractStridedSlice S64x32x1x1 ![0, 0, 0, 2] · slices_S64x32x3x3_S64x32x1x1_0_0_0_2) : (⟨S64x32x3x3, .f32⟩ : BufTy).Contents (Elt F) → (⟨S64x32x1x1, .f32⟩ : BufTy).Contents (Elt F)),
    reshape main_v25 main_v26 rfl shapeCasts_S64x32x1x1_S64x32,
    unary main_arg1 main_v27 ((extractStridedSlice S64x32x1x1 ![0, 0, 1, 0] · slices_S64x32x3x3_S64x32x1x1_0_0_1_0) : (⟨S64x32x3x3, .f32⟩ : BufTy).Contents (Elt F) → (⟨S64x32x1x1, .f32⟩ : BufTy).Contents (Elt F)),
    reshape main_v27 main_v28 rfl shapeCasts_S64x32x1x1_S64x32,
    binary main_v26 main_v28 main_v29 (mulf : (⟨S64x32, .f32⟩ : BufTy).Contents (Elt F) → (⟨S64x32, .f32⟩ : BufTy).Contents (Elt F) → (⟨S64x32, .f32⟩ : BufTy).Contents (Elt F)),
    unary main_arg1 main_v30 ((extractStridedSlice S64x32x1x1 ![0, 0, 1, 2] · slices_S64x32x3x3_S64x32x1x1_0_0_1_2) : (⟨S64x32x3x3, .f32⟩ : BufTy).Contents (Elt F) → (⟨S64x32x1x1, .f32⟩ : BufTy).Contents (Elt F)),
    reshape main_v30 main_v31 rfl shapeCasts_S64x32x1x1_S64x32,
    binary main_v29 main_v31 main_v32 (Host.divf : (⟨S64x32, .f32⟩ : BufTy).Contents (Elt F) → (⟨S64x32, .f32⟩ : BufTy).Contents (Elt F) → (⟨S64x32, .f32⟩ : BufTy).Contents (Elt F)),
    binary main_v24 main_v32 main_v33 (addf : (⟨S64x32, .f32⟩ : BufTy).Contents (Elt F) → (⟨S64x32, .f32⟩ : BufTy).Contents (Elt F) → (⟨S64x32, .f32⟩ : BufTy).Contents (Elt F)),
    unary main_arg1 main_v34 ((extractStridedSlice S64x32x1x1 ![0, 0, 1, 1] · slices_S64x32x3x3_S64x32x1x1_0_0_1_1) : (⟨S64x32x3x3, .f32⟩ : BufTy).Contents (Elt F) → (⟨S64x32x1x1, .f32⟩ : BufTy).Contents (Elt F)),
    reshape main_v34 main_v35 rfl shapeCasts_S64x32x1x1_S64x32,
    binary main_v33 main_v35 main_v36 (Host.divf : (⟨S64x32, .f32⟩ : BufTy).Contents (Elt F) → (⟨S64x32, .f32⟩ : BufTy).Contents (Elt F) → (⟨S64x32, .f32⟩ : BufTy).Contents (Elt F)),
    unary main_arg1 main_v37 ((extractStridedSlice S64x32x1x1 ![0, 0, 2, 2] · slices_S64x32x3x3_S64x32x1x1_0_0_2_2) : (⟨S64x32x3x3, .f32⟩ : BufTy).Contents (Elt F) → (⟨S64x32x1x1, .f32⟩ : BufTy).Contents (Elt F)),
    reshape main_v37 main_v38 rfl shapeCasts_S64x32x1x1_S64x32,
    unary main_v38 main_v39 (Host.negf : (⟨S64x32, .f32⟩ : BufTy).Contents (Elt F) → (⟨S64x32, .f32⟩ : BufTy).Contents (Elt F)),
    unary main_arg1 main_v40 ((extractStridedSlice S64x32x1x1 ![0, 0, 1, 1] · slices_S64x32x3x3_S64x32x1x1_0_0_1_1) : (⟨S64x32x3x3, .f32⟩ : BufTy).Contents (Elt F) → (⟨S64x32x1x1, .f32⟩ : BufTy).Contents (Elt F)),
    reshape main_v40 main_v41 rfl shapeCasts_S64x32x1x1_S64x32,
    binary main_v39 main_v41 main_v42 (Host.divf : (⟨S64x32, .f32⟩ : BufTy).Contents (Elt F) → (⟨S64x32, .f32⟩ : BufTy).Contents (Elt F) → (⟨S64x32, .f32⟩ : BufTy).Contents (Elt F)),
    unary main_arg1 main_v43 ((extractStridedSlice S64x32x1x1 ![0, 0, 0, 1] · slices_S64x32x3x3_S64x32x1x1_0_0_0_1) : (⟨S64x32x3x3, .f32⟩ : BufTy).Contents (Elt F) → (⟨S64x32x1x1, .f32⟩ : BufTy).Contents (Elt F)),
    reshape main_v43 main_v44 rfl shapeCasts_S64x32x1x1_S64x32,
    unary main_arg1 main_v45 ((extractStridedSlice S64x32x1x1 ![0, 0, 2, 1] · slices_S64x32x3x3_S64x32x1x1_0_0_2_1) : (⟨S64x32x3x3, .f32⟩ : BufTy).Contents (Elt F) → (⟨S64x32x1x1, .f32⟩ : BufTy).Contents (Elt F)),
    reshape main_v45 main_v46 rfl shapeCasts_S64x32x1x1_S64x32,
    unary main_arg1 main_v47 ((extractStridedSlice S64x32x1x1 ![0, 0, 1, 0] · slices_S64x32x3x3_S64x32x1x1_0_0_1_0) : (⟨S64x32x3x3, .f32⟩ : BufTy).Contents (Elt F) → (⟨S64x32x1x1, .f32⟩ : BufTy).Contents (Elt F)),
    reshape main_v47 main_v48 rfl shapeCasts_S64x32x1x1_S64x32,
    unary main_arg1 main_v49 ((extractStridedSlice S64x32x1x1 ![0, 0, 1, 2] · slices_S64x32x3x3_S64x32x1x1_0_0_1_2) : (⟨S64x32x3x3, .f32⟩ : BufTy).Contents (Elt F) → (⟨S64x32x1x1, .f32⟩ : BufTy).Contents (Elt F)),
    reshape main_v49 main_v50 rfl shapeCasts_S64x32x1x1_S64x32,
    unary main_arg1 main_v51 ((extractStridedSlice S64x32x1x1 ![0, 0, 1, 1] · slices_S64x32x3x3_S64x32x1x1_0_0_1_1) : (⟨S64x32x3x3, .f32⟩ : BufTy).Contents (Elt F) → (⟨S64x32x1x1, .f32⟩ : BufTy).Contents (Elt F)),
    reshape main_v51 main_v52 rfl shapeCasts_S64x32x1x1_S64x32 ]

abbrev segB : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S2x32x56x56, .f32⟩) main_arg0) (TRef.of (T := ⟨S_, .f32⟩) main_call0_v0) (TRef.of (T := ⟨S2x32x58x58, .f32⟩) main_v53) (fun x v => pad S2x32x58x58 ![0, 0, 1, 1] ![0, 0, 1, 1] ![0, 0, 0, 0] x v pads_S2x32x56x56_S2x32x58x58_000_000_110_110 h_S_),
    unary main_v53 main_v54 (broadcastInDim S2x1x32x58x58 ![0, 2, 3, 4] bcast_S2x32x58x58_S2x1x32x58x58_0_2_3_4 : (⟨S2x32x58x58, .f32⟩ : BufTy).Contents (Elt F) → (⟨S2x1x32x58x58, .f32⟩ : BufTy).Contents (Elt F)),
    unary main_v54 main_v55 ((extractStridedSlice S2x1x32x58x57 ![0, 0, 0, 0, 1] · slices_S2x1x32x58x58_S2x1x32x58x57_0_0_0_0_1) : (⟨S2x1x32x58x58, .f32⟩ : BufTy).Contents (Elt F) → (⟨S2x1x32x58x57, .f32⟩ : BufTy).Contents (Elt F)),
    nullary main_c_0 (constantI S_ 32 0#32),
    TRef.unary (TRef.of (T := ⟨S_, .i32⟩) main_c_0) (TRef.of (T := ⟨S_, .f32⟩) main_call1_v0) (sitofp .f32),
    TRef.binary (TRef.of (T := ⟨S2x1x32x58x57, .f32⟩) main_v55) (TRef.of (T := ⟨S_, .f32⟩) main_call1_v0) (TRef.of (T := ⟨S2x1x32x58x58, .f32⟩) main_v56) (fun x v => pad S2x1x32x58x58 ![0, 0, 0, 0, 0] ![0, 0, 0, 0, 1] ![0, 0, 0, 0, 0] x v pads_S2x1x32x58x57_S2x1x32x58x58_000_000_000_000_010 h_S_),
    unary main_v54 main_v57 ((extractStridedSlice S2x1x32x57x58 ![0, 0, 0, 1, 0] · slices_S2x1x32x58x58_S2x1x32x57x58_0_0_0_1_0) : (⟨S2x1x32x58x58, .f32⟩ : BufTy).Contents (Elt F) → (⟨S2x1x32x57x58, .f32⟩ : BufTy).Contents (Elt F)),
    nullary main_c_1 (constantI S_ 32 0#32),
    TRef.unary (TRef.of (T := ⟨S_, .i32⟩) main_c_1) (TRef.of (T := ⟨S_, .f32⟩) main_call2_v0) (sitofp .f32),
    TRef.binary (TRef.of (T := ⟨S2x1x32x57x58, .f32⟩) main_v57) (TRef.of (T := ⟨S_, .f32⟩) main_call2_v0) (TRef.of (T := ⟨S2x1x32x58x58, .f32⟩) main_v58) (fun x v => pad S2x1x32x58x58 ![0, 0, 0, 0, 0] ![0, 0, 0, 1, 0] ![0, 0, 0, 0, 0] x v pads_S2x1x32x57x58_S2x1x32x58x58_000_000_000_010_000 h_S_),
    unary main_v54 main_v59 ((extractStridedSlice S2x1x32x57x58 ![0, 0, 0, 1, 0] · slices_S2x1x32x58x58_S2x1x32x57x58_0_0_0_1_0) : (⟨S2x1x32x58x58, .f32⟩ : BufTy).Contents (Elt F) → (⟨S2x1x32x57x58, .f32⟩ : BufTy).Contents (Elt F)),
    nullary main_c_2 (constantI S_ 32 0#32),
    TRef.unary (TRef.of (T := ⟨S_, .i32⟩) main_c_2) (TRef.of (T := ⟨S_, .f32⟩) main_call3_v0) (sitofp .f32),
    TRef.binary (TRef.of (T := ⟨S2x1x32x57x58, .f32⟩) main_v59) (TRef.of (T := ⟨S_, .f32⟩) main_call3_v0) (TRef.of (T := ⟨S2x1x32x58x58, .f32⟩) main_v60) (fun x v => pad S2x1x32x58x58 ![0, 0, 0, 0, 0] ![0, 0, 0, 1, 0] ![0, 0, 0, 0, 0] x v pads_S2x1x32x57x58_S2x1x32x58x58_000_000_000_010_000 h_S_),
    unary main_v60 main_v61 ((extractStridedSlice S2x1x32x58x57 ![0, 0, 0, 0, 1] · slices_S2x1x32x58x58_S2x1x32x58x57_0_0_0_0_1) : (⟨S2x1x32x58x58, .f32⟩ : BufTy).Contents (Elt F) → (⟨S2x1x32x58x57, .f32⟩ : BufTy).Contents (Elt F)),
    nullary main_c_3 (constantI S_ 32 0#32),
    TRef.unary (TRef.of (T := ⟨S_, .i32⟩) main_c_3) (TRef.of (T := ⟨S_, .f32⟩) main_call4_v0) (sitofp .f32),
    TRef.binary (TRef.of (T := ⟨S2x1x32x58x57, .f32⟩) main_v61) (TRef.of (T := ⟨S_, .f32⟩) main_call4_v0) (TRef.of (T := ⟨S2x1x32x58x58, .f32⟩) main_v62) (fun x v => pad S2x1x32x58x58 ![0, 0, 0, 0, 0] ![0, 0, 0, 0, 1] ![0, 0, 0, 0, 0] x v pads_S2x1x32x58x57_S2x1x32x58x58_000_000_000_000_010 h_S_),
    unary main_v54 main_v63 ((extractStridedSlice S2x1x32x56x58 ![0, 0, 0, 2, 0] · slices_S2x1x32x58x58_S2x1x32x56x58_0_0_0_2_0) : (⟨S2x1x32x58x58, .f32⟩ : BufTy).Contents (Elt F) → (⟨S2x1x32x56x58, .f32⟩ : BufTy).Contents (Elt F)),
    nullary main_c_4 (constantI S_ 32 0#32),
    TRef.unary (TRef.of (T := ⟨S_, .i32⟩) main_c_4) (TRef.of (T := ⟨S_, .f32⟩) main_call5_v0) (sitofp .f32),
    TRef.binary (TRef.of (T := ⟨S2x1x32x56x58, .f32⟩) main_v63) (TRef.of (T := ⟨S_, .f32⟩) main_call5_v0) (TRef.of (T := ⟨S2x1x32x58x58, .f32⟩) main_v64) (fun x v => pad S2x1x32x58x58 ![0, 0, 0, 0, 0] ![0, 0, 0, 2, 0] ![0, 0, 0, 0, 0] x v pads_S2x1x32x56x58_S2x1x32x58x58_000_000_000_020_000 h_S_),
    unary main_v64 main_v65 ((extractStridedSlice S2x1x32x58x56 ![0, 0, 0, 0, 2] · slices_S2x1x32x58x58_S2x1x32x58x56_0_0_0_0_2) : (⟨S2x1x32x58x58, .f32⟩ : BufTy).Contents (Elt F) → (⟨S2x1x32x58x56, .f32⟩ : BufTy).Contents (Elt F)),
    nullary main_c_5 (constantI S_ 32 0#32),
    TRef.unary (TRef.of (T := ⟨S_, .i32⟩) main_c_5) (TRef.of (T := ⟨S_, .f32⟩) main_call6_v0) (sitofp .f32),
    TRef.binary (TRef.of (T := ⟨S2x1x32x58x56, .f32⟩) main_v65) (TRef.of (T := ⟨S_, .f32⟩) main_call6_v0) (TRef.of (T := ⟨S2x1x32x58x58, .f32⟩) main_v66) (fun x v => pad S2x1x32x58x58 ![0, 0, 0, 0, 0] ![0, 0, 0, 0, 2] ![0, 0, 0, 0, 0] x v pads_S2x1x32x58x56_S2x1x32x58x58_000_000_000_000_020 h_S_) ]

abbrev segC : List (HloOp τ sig (Elt F)) :=
  [ unary main_v5 main_v67 (broadcastInDim S1x64x32x1x1 ![1, 2] bcast_S64x32_S1x64x32x1x1_1_2 : (⟨S64x32, .f32⟩ : BufTy).Contents (Elt F) → (⟨S1x64x32x1x1, .f32⟩ : BufTy).Contents (Elt F)),
    unary main_v67 main_v68 (broadcastInDim S2x64x32x58x58 ![0, 1, 2, 3, 4] bcast_S1x64x32x1x1_S2x64x32x58x58_0_1_2_3_4 : (⟨S1x64x32x1x1, .f32⟩ : BufTy).Contents (Elt F) → (⟨S2x64x32x58x58, .f32⟩ : BufTy).Contents (Elt F)),
    unary main_v54 main_v69 (broadcastInDim S2x64x32x58x58 ![0, 1, 2, 3, 4] bcast_S2x1x32x58x58_S2x64x32x58x58_0_1_2_3_4 : (⟨S2x1x32x58x58, .f32⟩ : BufTy).Contents (Elt F) → (⟨S2x64x32x58x58, .f32⟩ : BufTy).Contents (Elt F)),
    binary main_v68 main_v69 main_v70 (mulf : (⟨S2x64x32x58x58, .f32⟩ : BufTy).Contents (Elt F) → (⟨S2x64x32x58x58, .f32⟩ : BufTy).Contents (Elt F) → (⟨S2x64x32x58x58, .f32⟩ : BufTy).Contents (Elt F)),
    unary main_v56 main_v71 (broadcastInDim S2x64x32x58x58 ![0, 1, 2, 3, 4] bcast_S2x1x32x58x58_S2x64x32x58x58_0_1_2_3_4 : (⟨S2x1x32x58x58, .f32⟩ : BufTy).Contents (Elt F) → (⟨S2x64x32x58x58, .f32⟩ : BufTy).Contents (Elt F)),
    binary main_v71 main_v70 main_v72 (subf : (⟨S2x64x32x58x58, .f32⟩ : BufTy).Contents (Elt F) → (⟨S2x64x32x58x58, .f32⟩ : BufTy).Contents (Elt F) → (⟨S2x64x32x58x58, .f32⟩ : BufTy).Contents (Elt F)),
    unary main_v11 main_v73 (broadcastInDim S1x64x32x1x1 ![1, 2] bcast_S64x32_S1x64x32x1x1_1_2 : (⟨S64x32, .f32⟩ : BufTy).Contents (Elt F) → (⟨S1x64x32x1x1, .f32⟩ : BufTy).Contents (Elt F)),
    unary main_v73 main_v74 (broadcastInDim S2x64x32x58x58 ![0, 1, 2, 3, 4] bcast_S1x64x32x1x1_S2x64x32x58x58_0_1_2_3_4 : (⟨S1x64x32x1x1, .f32⟩ : BufTy).Contents (Elt F) → (⟨S2x64x32x58x58, .f32⟩ : BufTy).Contents (Elt F)),
    unary main_v54 main_v75 (broadcastInDim S2x64x32x58x58 ![0, 1, 2, 3, 4] bcast_S2x1x32x58x58_S2x64x32x58x58_0_1_2_3_4 : (⟨S2x1x32x58x58, .f32⟩ : BufTy).Contents (Elt F) → (⟨S2x64x32x58x58, .f32⟩ : BufTy).Contents (Elt F)),
    binary main_v74 main_v75 main_v76 (mulf : (⟨S2x64x32x58x58, .f32⟩ : BufTy).Contents (Elt F) → (⟨S2x64x32x58x58, .f32⟩ : BufTy).Contents (Elt F) → (⟨S2x64x32x58x58, .f32⟩ : BufTy).Contents (Elt F)),
    unary main_v58 main_v77 (broadcastInDim S2x64x32x58x58 ![0, 1, 2, 3, 4] bcast_S2x1x32x58x58_S2x64x32x58x58_0_1_2_3_4 : (⟨S2x1x32x58x58, .f32⟩ : BufTy).Contents (Elt F) → (⟨S2x64x32x58x58, .f32⟩ : BufTy).Contents (Elt F)),
    binary main_v77 main_v76 main_v78 (subf : (⟨S2x64x32x58x58, .f32⟩ : BufTy).Contents (Elt F) → (⟨S2x64x32x58x58, .f32⟩ : BufTy).Contents (Elt F) → (⟨S2x64x32x58x58, .f32⟩ : BufTy).Contents (Elt F)),
    unary main_v36 main_v79 (broadcastInDim S1x64x32x1x1 ![1, 2] bcast_S64x32_S1x64x32x1x1_1_2 : (⟨S64x32, .f32⟩ : BufTy).Contents (Elt F) → (⟨S1x64x32x1x1, .f32⟩ : BufTy).Contents (Elt F)),
    unary main_v79 main_v80 (broadcastInDim S2x64x32x58x58 ![0, 1, 2, 3, 4] bcast_S1x64x32x1x1_S2x64x32x58x58_0_1_2_3_4 : (⟨S1x64x32x1x1, .f32⟩ : BufTy).Contents (Elt F) → (⟨S2x64x32x58x58, .f32⟩ : BufTy).Contents (Elt F)),
    unary main_v54 main_v81 (broadcastInDim S2x64x32x58x58 ![0, 1, 2, 3, 4] bcast_S2x1x32x58x58_S2x64x32x58x58_0_1_2_3_4 : (⟨S2x1x32x58x58, .f32⟩ : BufTy).Contents (Elt F) → (⟨S2x64x32x58x58, .f32⟩ : BufTy).Contents (Elt F)),
    binary main_v80 main_v81 main_v82 (mulf : (⟨S2x64x32x58x58, .f32⟩ : BufTy).Contents (Elt F) → (⟨S2x64x32x58x58, .f32⟩ : BufTy).Contents (Elt F) → (⟨S2x64x32x58x58, .f32⟩ : BufTy).Contents (Elt F)),
    unary main_v62 main_v83 (broadcastInDim S2x64x32x58x58 ![0, 1, 2, 3, 4] bcast_S2x1x32x58x58_S2x64x32x58x58_0_1_2_3_4 : (⟨S2x1x32x58x58, .f32⟩ : BufTy).Contents (Elt F) → (⟨S2x64x32x58x58, .f32⟩ : BufTy).Contents (Elt F)),
    binary main_v83 main_v82 main_v84 (subf : (⟨S2x64x32x58x58, .f32⟩ : BufTy).Contents (Elt F) → (⟨S2x64x32x58x58, .f32⟩ : BufTy).Contents (Elt F) → (⟨S2x64x32x58x58, .f32⟩ : BufTy).Contents (Elt F)),
    unary main_v42 main_v85 (broadcastInDim S1x64x32x1x1 ![1, 2] bcast_S64x32_S1x64x32x1x1_1_2 : (⟨S64x32, .f32⟩ : BufTy).Contents (Elt F) → (⟨S1x64x32x1x1, .f32⟩ : BufTy).Contents (Elt F)),
    unary main_v85 main_v86 (broadcastInDim S2x64x32x58x58 ![0, 1, 2, 3, 4] bcast_S1x64x32x1x1_S2x64x32x58x58_0_1_2_3_4 : (⟨S1x64x32x1x1, .f32⟩ : BufTy).Contents (Elt F) → (⟨S2x64x32x58x58, .f32⟩ : BufTy).Contents (Elt F)),
    unary main_v66 main_v87 (broadcastInDim S2x64x32x58x58 ![0, 1, 2, 3, 4] bcast_S2x1x32x58x58_S2x64x32x58x58_0_1_2_3_4 : (⟨S2x1x32x58x58, .f32⟩ : BufTy).Contents (Elt F) → (⟨S2x64x32x58x58, .f32⟩ : BufTy).Contents (Elt F)),
    binary main_v86 main_v87 main_v88 (mulf : (⟨S2x64x32x58x58, .f32⟩ : BufTy).Contents (Elt F) → (⟨S2x64x32x58x58, .f32⟩ : BufTy).Contents (Elt F) → (⟨S2x64x32x58x58, .f32⟩ : BufTy).Contents (Elt F)),
    binary main_v84 main_v88 main_v89 (subf : (⟨S2x64x32x58x58, .f32⟩ : BufTy).Contents (Elt F) → (⟨S2x64x32x58x58, .f32⟩ : BufTy).Contents (Elt F) → (⟨S2x64x32x58x58, .f32⟩ : BufTy).Contents (Elt F)),
    unary main_v72 main_v90 ((extractStridedSlice S2x64x32x56x58 ![0, 0, 0, 2, 0] · slices_S2x64x32x58x58_S2x64x32x56x58_0_0_0_2_0) : (⟨S2x64x32x58x58, .f32⟩ : BufTy).Contents (Elt F) → (⟨S2x64x32x56x58, .f32⟩ : BufTy).Contents (Elt F)),
    nullary main_c_6 (constantI S_ 32 0#32),
    TRef.unary (TRef.of (T := ⟨S_, .i32⟩) main_c_6) (TRef.of (T := ⟨S_, .f32⟩) main_call7_v0) (sitofp .f32),
    TRef.binary (TRef.of (T := ⟨S2x64x32x56x58, .f32⟩) main_v90) (TRef.of (T := ⟨S_, .f32⟩) main_call7_v0) (TRef.of (T := ⟨S2x64x32x58x58, .f32⟩) main_v91) (fun x v => pad S2x64x32x58x58 ![0, 0, 0, 0, 0] ![0, 0, 0, 2, 0] ![0, 0, 0, 0, 0] x v pads_S2x64x32x56x58_S2x64x32x58x58_000_000_000_020_000 h_S_),
    unary main_v78 main_v92 ((extractStridedSlice S2x64x32x58x56 ![0, 0, 0, 0, 2] · slices_S2x64x32x58x58_S2x64x32x58x56_0_0_0_0_2) : (⟨S2x64x32x58x58, .f32⟩ : BufTy).Contents (Elt F) → (⟨S2x64x32x58x56, .f32⟩ : BufTy).Contents (Elt F)),
    nullary main_c_7 (constantI S_ 32 0#32),
    TRef.unary (TRef.of (T := ⟨S_, .i32⟩) main_c_7) (TRef.of (T := ⟨S_, .f32⟩) main_call8_v0) (sitofp .f32),
    TRef.binary (TRef.of (T := ⟨S2x64x32x58x56, .f32⟩) main_v92) (TRef.of (T := ⟨S_, .f32⟩) main_call8_v0) (TRef.of (T := ⟨S2x64x32x58x58, .f32⟩) main_v93) (fun x v => pad S2x64x32x58x58 ![0, 0, 0, 0, 0] ![0, 0, 0, 0, 2] ![0, 0, 0, 0, 0] x v pads_S2x64x32x58x56_S2x64x32x58x58_000_000_000_000_020 h_S_) ]

abbrev segD : List (HloOp τ sig (Elt F)) :=
  [ unary main_v44 main_v94 (broadcastInDim S1x64x32x1x1 ![1, 2] bcast_S64x32_S1x64x32x1x1_1_2 : (⟨S64x32, .f32⟩ : BufTy).Contents (Elt F) → (⟨S1x64x32x1x1, .f32⟩ : BufTy).Contents (Elt F)),
    unary main_v94 main_v95 (broadcastInDim S2x64x32x58x58 ![0, 1, 2, 3, 4] bcast_S1x64x32x1x1_S2x64x32x58x58_0_1_2_3_4 : (⟨S1x64x32x1x1, .f32⟩ : BufTy).Contents (Elt F) → (⟨S2x64x32x58x58, .f32⟩ : BufTy).Contents (Elt F)),
    binary main_v95 main_v72 main_v96 (mulf : (⟨S2x64x32x58x58, .f32⟩ : BufTy).Contents (Elt F) → (⟨S2x64x32x58x58, .f32⟩ : BufTy).Contents (Elt F) → (⟨S2x64x32x58x58, .f32⟩ : BufTy).Contents (Elt F)),
    unary main_v54 main_v97 (broadcastInDim S2x64x32x58x58 ![0, 1, 2, 3, 4] bcast_S2x1x32x58x58_S2x64x32x58x58_0_1_2_3_4 : (⟨S2x1x32x58x58, .f32⟩ : BufTy).Contents (Elt F) → (⟨S2x64x32x58x58, .f32⟩ : BufTy).Contents (Elt F)),
    binary main_v97 main_v96 main_v98 (addf : (⟨S2x64x32x58x58, .f32⟩ : BufTy).Contents (Elt F) → (⟨S2x64x32x58x58, .f32⟩ : BufTy).Contents (Elt F) → (⟨S2x64x32x58x58, .f32⟩ : BufTy).Contents (Elt F)),
    unary main_v46 main_v99 (broadcastInDim S1x64x32x1x1 ![1, 2] bcast_S64x32_S1x64x32x1x1_1_2 : (⟨S64x32, .f32⟩ : BufTy).Contents (Elt F) → (⟨S1x64x32x1x1, .f32⟩ : BufTy).Contents (Elt F)),
    unary main_v99 main_v100 (broadcastInDim S2x64x32x58x58 ![0, 1, 2, 3, 4] bcast_S1x64x32x1x1_S2x64x32x58x58_0_1_2_3_4 : (⟨S1x64x32x1x1, .f32⟩ : BufTy).Contents (Elt F) → (⟨S2x64x32x58x58, .f32⟩ : BufTy).Contents (Elt F)),
    binary main_v100 main_v91 main_v101 (mulf : (⟨S2x64x32x58x58, .f32⟩ : BufTy).Contents (Elt F) → (⟨S2x64x32x58x58, .f32⟩ : BufTy).Contents (Elt F) → (⟨S2x64x32x58x58, .f32⟩ : BufTy).Contents (Elt F)),
    binary main_v98 main_v101 main_v102 (addf : (⟨S2x64x32x58x58, .f32⟩ : BufTy).Contents (Elt F) → (⟨S2x64x32x58x58, .f32⟩ : BufTy).Contents (Elt F) → (⟨S2x64x32x58x58, .f32⟩ : BufTy).Contents (Elt F)),
    unary main_v48 main_v103 (broadcastInDim S1x64x32x1x1 ![1, 2] bcast_S64x32_S1x64x32x1x1_1_2 : (⟨S64x32, .f32⟩ : BufTy).Contents (Elt F) → (⟨S1x64x32x1x1, .f32⟩ : BufTy).Contents (Elt F)),
    unary main_v103 main_v104 (broadcastInDim S2x64x32x58x58 ![0, 1, 2, 3, 4] bcast_S1x64x32x1x1_S2x64x32x58x58_0_1_2_3_4 : (⟨S1x64x32x1x1, .f32⟩ : BufTy).Contents (Elt F) → (⟨S2x64x32x58x58, .f32⟩ : BufTy).Contents (Elt F)),
    binary main_v104 main_v78 main_v105 (mulf : (⟨S2x64x32x58x58, .f32⟩ : BufTy).Contents (Elt F) → (⟨S2x64x32x58x58, .f32⟩ : BufTy).Contents (Elt F) → (⟨S2x64x32x58x58, .f32⟩ : BufTy).Contents (Elt F)),
    binary main_v102 main_v105 main_v106 (addf : (⟨S2x64x32x58x58, .f32⟩ : BufTy).Contents (Elt F) → (⟨S2x64x32x58x58, .f32⟩ : BufTy).Contents (Elt F) → (⟨S2x64x32x58x58, .f32⟩ : BufTy).Contents (Elt F)),
    unary main_v50 main_v107 (broadcastInDim S1x64x32x1x1 ![1, 2] bcast_S64x32_S1x64x32x1x1_1_2 : (⟨S64x32, .f32⟩ : BufTy).Contents (Elt F) → (⟨S1x64x32x1x1, .f32⟩ : BufTy).Contents (Elt F)),
    unary main_v107 main_v108 (broadcastInDim S2x64x32x58x58 ![0, 1, 2, 3, 4] bcast_S1x64x32x1x1_S2x64x32x58x58_0_1_2_3_4 : (⟨S1x64x32x1x1, .f32⟩ : BufTy).Contents (Elt F) → (⟨S2x64x32x58x58, .f32⟩ : BufTy).Contents (Elt F)),
    binary main_v108 main_v93 main_v109 (mulf : (⟨S2x64x32x58x58, .f32⟩ : BufTy).Contents (Elt F) → (⟨S2x64x32x58x58, .f32⟩ : BufTy).Contents (Elt F) → (⟨S2x64x32x58x58, .f32⟩ : BufTy).Contents (Elt F)),
    binary main_v106 main_v109 main_v110 (addf : (⟨S2x64x32x58x58, .f32⟩ : BufTy).Contents (Elt F) → (⟨S2x64x32x58x58, .f32⟩ : BufTy).Contents (Elt F) → (⟨S2x64x32x58x58, .f32⟩ : BufTy).Contents (Elt F)),
    unary main_v52 main_v111 (broadcastInDim S1x64x32x1x1 ![1, 2] bcast_S64x32_S1x64x32x1x1_1_2 : (⟨S64x32, .f32⟩ : BufTy).Contents (Elt F) → (⟨S1x64x32x1x1, .f32⟩ : BufTy).Contents (Elt F)),
    unary main_v111 main_v112 (broadcastInDim S2x64x32x58x58 ![0, 1, 2, 3, 4] bcast_S1x64x32x1x1_S2x64x32x58x58_0_1_2_3_4 : (⟨S1x64x32x1x1, .f32⟩ : BufTy).Contents (Elt F) → (⟨S2x64x32x58x58, .f32⟩ : BufTy).Contents (Elt F)),
    binary main_v112 main_v89 main_v113 (mulf : (⟨S2x64x32x58x58, .f32⟩ : BufTy).Contents (Elt F) → (⟨S2x64x32x58x58, .f32⟩ : BufTy).Contents (Elt F) → (⟨S2x64x32x58x58, .f32⟩ : BufTy).Contents (Elt F)),
    binary main_v110 main_v113 main_v114 (addf : (⟨S2x64x32x58x58, .f32⟩ : BufTy).Contents (Elt F) → (⟨S2x64x32x58x58, .f32⟩ : BufTy).Contents (Elt F) → (⟨S2x64x32x58x58, .f32⟩ : BufTy).Contents (Elt F)),
    unary main_v114 main_v115 ((extractStridedSlice S2x64x32x56x56 ![0, 0, 0, 0, 0] · slices_S2x64x32x58x58_S2x64x32x56x56_0_0_0_0_0) : (⟨S2x64x32x58x58, .f32⟩ : BufTy).Contents (Elt F) → (⟨S2x64x32x56x56, .f32⟩ : BufTy).Contents (Elt F)),
    nullary main_cst_8 (constant S_ .f32 0x00000000#32),
    binary main_v115 main_cst_8 main_v116 ((fun x v => Host.reduceAdd x v reducesTo_S2x64x32x56x56_S2x64x56x56_d2 h_S_) : (⟨S2x64x32x56x56, .f32⟩ : BufTy).Contents (Elt F) → (⟨S_, .f32⟩ : BufTy).Contents (Elt F) → (⟨S2x64x56x56, .f32⟩ : BufTy).Contents (Elt F)) ]

/-- The 137 operations of the main function, in order. -/
abbrev ops : List (HloOp τ sig (Elt F)) := segA ++ (segB ++ (segC ++ segD))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem segA_sub : (segA : List (HloOp τ sig (Elt F))).Forall fun op => op.bufs ⊆ tcRefs τ sig :=
  ⟨unary_bufs_sub .., reshape_bufs_sub .., unary_bufs_sub .., unary_bufs_sub .., reshape_bufs_sub .., binary_bufs_sub .., unary_bufs_sub .., reshape_bufs_sub .., unary_bufs_sub .., unary_bufs_sub .., reshape_bufs_sub .., binary_bufs_sub .., unary_bufs_sub .., reshape_bufs_sub .., nullary_bufs_sub .., unary_bufs_sub .., binary_bufs_sub .., unary_bufs_sub .., reshape_bufs_sub .., unary_bufs_sub .., reshape_bufs_sub .., binary_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., binary_bufs_sub .., binary_bufs_sub .., unary_bufs_sub .., reshape_bufs_sub .., binary_bufs_sub .., unary_bufs_sub .., reshape_bufs_sub .., unary_bufs_sub .., unary_bufs_sub .., reshape_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩
theorem segB_sub : (segB : List (HloOp τ sig (Elt F))).Forall fun op => op.bufs ⊆ tcRefs τ sig :=
  ⟨nullary_bufs_sub .., unary_bufs_sub .., binary_bufs_sub .., unary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub ..⟩
theorem segC_sub : (segC : List (HloOp τ sig (Elt F))).Forall fun op => op.bufs ⊆ tcRefs τ sig :=
  ⟨unary_bufs_sub .., unary_bufs_sub .., unary_bufs_sub .., binary_bufs_sub .., unary_bufs_sub .., binary_bufs_sub .., unary_bufs_sub .., unary_bufs_sub .., unary_bufs_sub .., binary_bufs_sub .., unary_bufs_sub .., binary_bufs_sub .., unary_bufs_sub .., unary_bufs_sub .., unary_bufs_sub .., binary_bufs_sub .., unary_bufs_sub .., binary_bufs_sub .., unary_bufs_sub .., unary_bufs_sub .., unary_bufs_sub .., binary_bufs_sub .., binary_bufs_sub .., unary_bufs_sub .., nullary_bufs_sub .., unary_bufs_sub .., binary_bufs_sub .., unary_bufs_sub .., nullary_bufs_sub .., unary_bufs_sub .., binary_bufs_sub ..⟩
theorem segD_sub : (segD : List (HloOp τ sig (Elt F))).Forall fun op => op.bufs ⊆ tcRefs τ sig :=
  ⟨unary_bufs_sub .., unary_bufs_sub .., binary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., nullary_bufs_sub .., binary_bufs_sub ..⟩
theorem ops_sub : (ops : List (HloOp τ sig (Elt F))).Forall fun op => op.bufs ⊆ tcRefs τ sig :=
  forall_append _ _ segA_sub (forall_append _ _ segB_sub (forall_append _ _ segC_sub segD_sub))

end Cert.ReferenceIdeal.RefRun

end
-- ==== Proof.RefSegA.lean ====
/-
  Stretch A of the reference's operations over any memory W: each value the stretch passes on is its stage
  function of the values it was handed, and every buffer it does not write is kept.
-/
import proofs.«171278_j39032662786092_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option Elab.async false

set_option maxHeartbeats 4000000 in
theorem segA_r5 (W : Valuation τ sig (Elt F)) (x : (⟨S2x32x56x56, .f32⟩ : BufTy).Contents (Elt F)) (w : (⟨S64x32x3x3, .f32⟩ : BufTy).Contents (Elt F)) (h0 : W (Proc.devRef .tc main_arg1) = w) :
    after segA W (Proc.devRef .tc main_v5) = Stages.r5 x w := by
  after_results
  rw [h0]
  unfold Stages.r5 Stages.r2 Stages.r1 Stages.r0 Stages.r4 Stages.r3
  rfl
set_option maxHeartbeats 4000000 in
theorem segA_r11 (W : Valuation τ sig (Elt F)) (x : (⟨S2x32x56x56, .f32⟩ : BufTy).Contents (Elt F)) (w : (⟨S64x32x3x3, .f32⟩ : BufTy).Contents (Elt F)) (h0 : W (Proc.devRef .tc main_arg1) = w) :
    after segA W (Proc.devRef .tc main_v11) = Stages.r11 x w := by
  after_results
  rw [h0]
  unfold Stages.r11 Stages.r8 Stages.r7 Stages.r6 Stages.r10 Stages.r9
  rfl
set_option maxHeartbeats 4000000 in
theorem segA_r36 (W : Valuation τ sig (Elt F)) (x : (⟨S2x32x56x56, .f32⟩ : BufTy).Contents (Elt F)) (w : (⟨S64x32x3x3, .f32⟩ : BufTy).Contents (Elt F)) (h0 : W (Proc.devRef .tc main_arg1) = w) :
    after segA W (Proc.devRef .tc main_v36) = Stages.r36 x w := by
  after_results
  rw [h0]
  unfold Stages.r36 Stages.r33 Stages.r24 Stages.r15 Stages.r14 Stages.r_cst Stages.r13 Stages.r12 Stages.r23 Stages.r20 Stages.r17 Stages.r16 Stages.r19 Stages.r18 Stages.r22 Stages.r21 Stages.r32 Stages.r29 Stages.r26 Stages.r25 Stages.r28 Stages.r27 Stages.r31 Stages.r30 Stages.r35 Stages.r34
  rfl
set_option maxHeartbeats 4000000 in
theorem segA_r42 (W : Valuation τ sig (Elt F)) (x : (⟨S2x32x56x56, .f32⟩ : BufTy).Contents (Elt F)) (w : (⟨S64x32x3x3, .f32⟩ : BufTy).Contents (Elt F)) (h0 : W (Proc.devRef .tc main_arg1) = w) :
    after segA W (Proc.devRef .tc main_v42) = Stages.r42 x w := by
  after_results
  rw [h0]
  unfold Stages.r42 Stages.r39 Stages.r38 Stages.r37 Stages.r41 Stages.r40
  rfl
set_option maxHeartbeats 4000000 in
theorem segA_r44 (W : Valuation τ sig (Elt F)) (x : (⟨S2x32x56x56, .f32⟩ : BufTy).Contents (Elt F)) (w : (⟨S64x32x3x3, .f32⟩ : BufTy).Contents (Elt F)) (h0 : W (Proc.devRef .tc main_arg1) = w) :
    after segA W (Proc.devRef .tc main_v44) = Stages.r44 x w := by
  after_results
  rw [h0]
  unfold Stages.r44 Stages.r43
  rfl
set_option maxHeartbeats 4000000 in
theorem segA_r46 (W : Valuation τ sig (Elt F)) (x : (⟨S2x32x56x56, .f32⟩ : BufTy).Contents (Elt F)) (w : (⟨S64x32x3x3, .f32⟩ : BufTy).Contents (Elt F)) (h0 : W (Proc.devRef .tc main_arg1) = w) :
    after segA W (Proc.devRef .tc main_v46) = Stages.r46 x w := by
  after_results
  rw [h0]
  unfold Stages.r46 Stages.r45
  rfl
set_option maxHeartbeats 4000000 in
theorem segA_r48 (W : Valuation τ sig (Elt F)) (x : (⟨S2x32x56x56, .f32⟩ : BufTy).Contents (Elt F)) (w : (⟨S64x32x3x3, .f32⟩ : BufTy).Contents (Elt F)) (h0 : W (Proc.devRef .tc main_arg1) = w) :
    after segA W (Proc.devRef .tc main_v48) = Stages.r48 x w := by
  after_results
  rw [h0]
  unfold Stages.r48 Stages.r47
  rfl
set_option maxHeartbeats 4000000 in
theorem segA_r50 (W : Valuation τ sig (Elt F)) (x : (⟨S2x32x56x56, .f32⟩ : BufTy).Contents (Elt F)) (w : (⟨S64x32x3x3, .f32⟩ : BufTy).Contents (Elt F)) (h0 : W (Proc.devRef .tc main_arg1) = w) :
    after segA W (Proc.devRef .tc main_v50) = Stages.r50 x w := by
  after_results
  rw [h0]
  unfold Stages.r50 Stages.r49
  rfl
set_option maxHeartbeats 4000000 in
theorem segA_r52 (W : Valuation τ sig (Elt F)) (x : (⟨S2x32x56x56, .f32⟩ : BufTy).Contents (Elt F)) (w : (⟨S64x32x3x3, .f32⟩ : BufTy).Contents (Elt F)) (h0 : W (Proc.devRef .tc main_arg1) = w) :
    after segA W (Proc.devRef .tc main_v52) = Stages.r52 x w := by
  after_results
  rw [h0]
  unfold Stages.r52 Stages.r51
  rfl
theorem segA_keep_arg0 (W : Valuation τ sig (Elt F)) : after segA W (Proc.devRef .tc main_arg0) = W (Proc.devRef .tc main_arg0) := by
  after_results
theorem segA_keep_arg1 (W : Valuation τ sig (Elt F)) : after segA W (Proc.devRef .tc main_arg1) = W (Proc.devRef .tc main_arg1) := by
  after_results

end Cert.ReferenceIdeal.RefRun

end
-- ==== Proof.RefSegB.lean ====
/-
  Stretch B of the reference's operations over any memory W: each value the stretch passes on is its stage
  function of the values it was handed, and every buffer it does not write is kept.
-/
import proofs.«171278_j39032662786092_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option Elab.async false

set_option maxHeartbeats 4000000 in
theorem segB_r54 (W : Valuation τ sig (Elt F)) (x : (⟨S2x32x56x56, .f32⟩ : BufTy).Contents (Elt F)) (w : (⟨S64x32x3x3, .f32⟩ : BufTy).Contents (Elt F)) (h0 : W (Proc.devRef .tc main_arg0) = x) :
    after segB W (Proc.devRef .tc main_v54) = Stages.r54 x w := by
  after_results
  rw [h0]
  unfold Stages.r54 Stages.r53 Stages.r_call0_v0 Stages.r_c
  rfl
set_option maxHeartbeats 4000000 in
theorem segB_r56 (W : Valuation τ sig (Elt F)) (x : (⟨S2x32x56x56, .f32⟩ : BufTy).Contents (Elt F)) (w : (⟨S64x32x3x3, .f32⟩ : BufTy).Contents (Elt F)) (h0 : W (Proc.devRef .tc main_arg0) = x) :
    after segB W (Proc.devRef .tc main_v56) = Stages.r56 x w := by
  after_results
  rw [h0]
  unfold Stages.r56 Stages.r55 Stages.r54 Stages.r53 Stages.r_call0_v0 Stages.r_c Stages.r_call1_v0 Stages.r_c_0
  rfl
set_option maxHeartbeats 4000000 in
theorem segB_r58 (W : Valuation τ sig (Elt F)) (x : (⟨S2x32x56x56, .f32⟩ : BufTy).Contents (Elt F)) (w : (⟨S64x32x3x3, .f32⟩ : BufTy).Contents (Elt F)) (h0 : W (Proc.devRef .tc main_arg0) = x) :
    after segB W (Proc.devRef .tc main_v58) = Stages.r58 x w := by
  after_results
  rw [h0]
  unfold Stages.r58 Stages.r57 Stages.r54 Stages.r53 Stages.r_call0_v0 Stages.r_c Stages.r_call2_v0 Stages.r_c_1
  rfl
set_option maxHeartbeats 4000000 in
theorem segB_r62 (W : Valuation τ sig (Elt F)) (x : (⟨S2x32x56x56, .f32⟩ : BufTy).Contents (Elt F)) (w : (⟨S64x32x3x3, .f32⟩ : BufTy).Contents (Elt F)) (h0 : W (Proc.devRef .tc main_arg0) = x) :
    after segB W (Proc.devRef .tc main_v62) = Stages.r62 x w := by
  after_results
  rw [h0]
  unfold Stages.r62 Stages.r61 Stages.r60 Stages.r59 Stages.r54 Stages.r53 Stages.r_call0_v0 Stages.r_c Stages.r_call3_v0 Stages.r_c_2 Stages.r_call4_v0 Stages.r_c_3
  rfl
set_option maxHeartbeats 4000000 in
theorem segB_r66 (W : Valuation τ sig (Elt F)) (x : (⟨S2x32x56x56, .f32⟩ : BufTy).Contents (Elt F)) (w : (⟨S64x32x3x3, .f32⟩ : BufTy).Contents (Elt F)) (h0 : W (Proc.devRef .tc main_arg0) = x) :
    after segB W (Proc.devRef .tc main_v66) = Stages.r66 x w := by
  after_results
  rw [h0]
  unfold Stages.r66 Stages.r65 Stages.r64 Stages.r63 Stages.r54 Stages.r53 Stages.r_call0_v0 Stages.r_c Stages.r_call5_v0 Stages.r_c_4 Stages.r_call6_v0 Stages.r_c_5
  rfl
theorem segB_keep_arg0 (W : Valuation τ sig (Elt F)) : after segB W (Proc.devRef .tc main_arg0) = W (Proc.devRef .tc main_arg0) := by
  after_results
theorem segB_keep_arg1 (W : Valuation τ sig (Elt F)) : after segB W (Proc.devRef .tc main_arg1) = W (Proc.devRef .tc main_arg1) := by
  after_results
theorem segB_keep_v5 (W : Valuation τ sig (Elt F)) : after segB W (Proc.devRef .tc main_v5) = W (Proc.devRef .tc main_v5) := by
  after_results
theorem segB_keep_v11 (W : Valuation τ sig (Elt F)) : after segB W (Proc.devRef .tc main_v11) = W (Proc.devRef .tc main_v11) := by
  after_results
theorem segB_keep_v36 (W : Valuation τ sig (Elt F)) : after segB W (Proc.devRef .tc main_v36) = W (Proc.devRef .tc main_v36) := by
  after_results
theorem segB_keep_v42 (W : Valuation τ sig (Elt F)) : after segB W (Proc.devRef .tc main_v42) = W (Proc.devRef .tc main_v42) := by
  after_results
theorem segB_keep_v44 (W : Valuation τ sig (Elt F)) : after segB W (Proc.devRef .tc main_v44) = W (Proc.devRef .tc main_v44) := by
  after_results
theorem segB_keep_v46 (W : Valuation τ sig (Elt F)) : after segB W (Proc.devRef .tc main_v46) = W (Proc.devRef .tc main_v46) := by
  after_results
theorem segB_keep_v48 (W : Valuation τ sig (Elt F)) : after segB W (Proc.devRef .tc main_v48) = W (Proc.devRef .tc main_v48) := by
  after_results
theorem segB_keep_v50 (W : Valuation τ sig (Elt F)) : after segB W (Proc.devRef .tc main_v50) = W (Proc.devRef .tc main_v50) := by
  after_results
theorem segB_keep_v52 (W : Valuation τ sig (Elt F)) : after segB W (Proc.devRef .tc main_v52) = W (Proc.devRef .tc main_v52) := by
  after_results

end Cert.ReferenceIdeal.RefRun

end
-- ==== Proof.RefSegC.lean ====
/-
  Stretch C of the reference's operations over any memory W: each value the stretch passes on is its stage
  function of the values it was handed, and every buffer it does not write is kept.
-/
import proofs.«171278_j39032662786092_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option Elab.async false

set_option maxHeartbeats 4000000 in
theorem segC_r72 (W : Valuation τ sig (Elt F)) (x : (⟨S2x32x56x56, .f32⟩ : BufTy).Contents (Elt F)) (w : (⟨S64x32x3x3, .f32⟩ : BufTy).Contents (Elt F)) (h0 : W (Proc.devRef .tc main_v56) = Stages.r56 x w) (h1 : W (Proc.devRef .tc main_v5) = Stages.r5 x w) (h2 : W (Proc.devRef .tc main_v54) = Stages.r54 x w) :
    after segC W (Proc.devRef .tc main_v72) = Stages.r72 x w := by
  after_results
  rw [h0, h1, h2]
  unfold Stages.r72 Stages.r71 Stages.r70 Stages.r68 Stages.r67 Stages.r69
  rfl
set_option maxHeartbeats 4000000 in
theorem segC_r78 (W : Valuation τ sig (Elt F)) (x : (⟨S2x32x56x56, .f32⟩ : BufTy).Contents (Elt F)) (w : (⟨S64x32x3x3, .f32⟩ : BufTy).Contents (Elt F)) (h0 : W (Proc.devRef .tc main_v58) = Stages.r58 x w) (h1 : W (Proc.devRef .tc main_v11) = Stages.r11 x w) (h2 : W (Proc.devRef .tc main_v54) = Stages.r54 x w) :
    after segC W (Proc.devRef .tc main_v78) = Stages.r78 x w := by
  after_results
  rw [h0, h1, h2]
  unfold Stages.r78 Stages.r77 Stages.r76 Stages.r74 Stages.r73 Stages.r75
  rfl
set_option maxHeartbeats 4000000 in
theorem segC_r89 (W : Valuation τ sig (Elt F)) (x : (⟨S2x32x56x56, .f32⟩ : BufTy).Contents (Elt F)) (w : (⟨S64x32x3x3, .f32⟩ : BufTy).Contents (Elt F)) (h0 : W (Proc.devRef .tc main_v62) = Stages.r62 x w) (h1 : W (Proc.devRef .tc main_v36) = Stages.r36 x w) (h2 : W (Proc.devRef .tc main_v54) = Stages.r54 x w) (h3 : W (Proc.devRef .tc main_v42) = Stages.r42 x w) (h4 : W (Proc.devRef .tc main_v66) = Stages.r66 x w) :
    after segC W (Proc.devRef .tc main_v89) = Stages.r89 x w := by
  after_results
  rw [h0, h1, h2, h3, h4]
  unfold Stages.r89 Stages.r84 Stages.r83 Stages.r82 Stages.r80 Stages.r79 Stages.r81 Stages.r88 Stages.r86 Stages.r85 Stages.r87
  rfl
set_option maxHeartbeats 4000000 in
theorem segC_r91 (W : Valuation τ sig (Elt F)) (x : (⟨S2x32x56x56, .f32⟩ : BufTy).Contents (Elt F)) (w : (⟨S64x32x3x3, .f32⟩ : BufTy).Contents (Elt F)) (h0 : W (Proc.devRef .tc main_v56) = Stages.r56 x w) (h1 : W (Proc.devRef .tc main_v5) = Stages.r5 x w) (h2 : W (Proc.devRef .tc main_v54) = Stages.r54 x w) :
    after segC W (Proc.devRef .tc main_v91) = Stages.r91 x w := by
  after_results
  rw [h0, h1, h2]
  unfold Stages.r91 Stages.r90 Stages.r72 Stages.r71 Stages.r70 Stages.r68 Stages.r67 Stages.r69 Stages.r_call7_v0 Stages.r_c_6
  rfl
set_option maxHeartbeats 4000000 in
theorem segC_r93 (W : Valuation τ sig (Elt F)) (x : (⟨S2x32x56x56, .f32⟩ : BufTy).Contents (Elt F)) (w : (⟨S64x32x3x3, .f32⟩ : BufTy).Contents (Elt F)) (h0 : W (Proc.devRef .tc main_v58) = Stages.r58 x w) (h1 : W (Proc.devRef .tc main_v11) = Stages.r11 x w) (h2 : W (Proc.devRef .tc main_v54) = Stages.r54 x w) :
    after segC W (Proc.devRef .tc main_v93) = Stages.r93 x w := by
  after_results
  rw [h0, h1, h2]
  unfold Stages.r93 Stages.r92 Stages.r78 Stages.r77 Stages.r76 Stages.r74 Stages.r73 Stages.r75 Stages.r_call8_v0 Stages.r_c_7
  rfl
theorem segC_keep_arg0 (W : Valuation τ sig (Elt F)) : after segC W (Proc.devRef .tc main_arg0) = W (Proc.devRef .tc main_arg0) := by
  after_results
theorem segC_keep_arg1 (W : Valuation τ sig (Elt F)) : after segC W (Proc.devRef .tc main_arg1) = W (Proc.devRef .tc main_arg1) := by
  after_results
theorem segC_keep_v54 (W : Valuation τ sig (Elt F)) : after segC W (Proc.devRef .tc main_v54) = W (Proc.devRef .tc main_v54) := by
  after_results
theorem segC_keep_v44 (W : Valuation τ sig (Elt F)) : after segC W (Proc.devRef .tc main_v44) = W (Proc.devRef .tc main_v44) := by
  after_results
theorem segC_keep_v46 (W : Valuation τ sig (Elt F)) : after segC W (Proc.devRef .tc main_v46) = W (Proc.devRef .tc main_v46) := by
  after_results
theorem segC_keep_v48 (W : Valuation τ sig (Elt F)) : after segC W (Proc.devRef .tc main_v48) = W (Proc.devRef .tc main_v48) := by
  after_results
theorem segC_keep_v50 (W : Valuation τ sig (Elt F)) : after segC W (Proc.devRef .tc main_v50) = W (Proc.devRef .tc main_v50) := by
  after_results
theorem segC_keep_v52 (W : Valuation τ sig (Elt F)) : after segC W (Proc.devRef .tc main_v52) = W (Proc.devRef .tc main_v52) := by
  after_results

end Cert.ReferenceIdeal.RefRun

end
-- ==== Proof.RefSegD.lean ====
/-
  Stretch D of the reference's operations over any memory W: each value the stretch passes on is its stage
  function of the values it was handed, and every buffer it does not write is kept.
-/
import proofs.«171278_j39032662786092_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option Elab.async false

set_option maxHeartbeats 4000000 in
theorem segD_r116 (W : Valuation τ sig (Elt F)) (x : (⟨S2x32x56x56, .f32⟩ : BufTy).Contents (Elt F)) (w : (⟨S64x32x3x3, .f32⟩ : BufTy).Contents (Elt F)) (h0 : W (Proc.devRef .tc main_v54) = Stages.r54 x w) (h1 : W (Proc.devRef .tc main_v44) = Stages.r44 x w) (h2 : W (Proc.devRef .tc main_v72) = Stages.r72 x w) (h3 : W (Proc.devRef .tc main_v46) = Stages.r46 x w) (h4 : W (Proc.devRef .tc main_v91) = Stages.r91 x w) (h5 : W (Proc.devRef .tc main_v48) = Stages.r48 x w) (h6 : W (Proc.devRef .tc main_v78) = Stages.r78 x w) (h7 : W (Proc.devRef .tc main_v50) = Stages.r50 x w) (h8 : W (Proc.devRef .tc main_v93) = Stages.r93 x w) (h9 : W (Proc.devRef .tc main_v52) = Stages.r52 x w) (h10 : W (Proc.devRef .tc main_v89) = Stages.r89 x w) :
    after segD W (Proc.devRef .tc main_v116) = Stages.r116 x w := by
  after_results
  rw [h0, h1, h2, h3, h4, h5, h6, h7, h8, h9, h10]
  unfold Stages.r116 Stages.r115 Stages.r114 Stages.r110 Stages.r106 Stages.r102 Stages.r98 Stages.r97 Stages.r96 Stages.r95 Stages.r94 Stages.r101 Stages.r100 Stages.r99 Stages.r105 Stages.r104 Stages.r103 Stages.r109 Stages.r108 Stages.r107 Stages.r113 Stages.r112 Stages.r111 Stages.r_cst_8
  rfl
theorem segD_keep_arg0 (W : Valuation τ sig (Elt F)) : after segD W (Proc.devRef .tc main_arg0) = W (Proc.devRef .tc main_arg0) := by
  after_results
theorem segD_keep_arg1 (W : Valuation τ sig (Elt F)) : after segD W (Proc.devRef .tc main_arg1) = W (Proc.devRef .tc main_arg1) := by
  after_results

end Cert.ReferenceIdeal.RefRun

end
-- ==== Proof.RefRun.lean ====
/-
  The reference program's run, read back stretch by stretch: from any starting memory μ with argument arrays x and
  w, after the four stretches in order every value still needed is its stage function of x and w, the result buffer
  is Stages.r116 x w, and the two argument arrays are as they were; so every weakly fair execution of the reference
  terminates with its result at Stages.r116 of the arguments, and the arguments unchanged.
-/
import proofs.«171278_j39032662786092_1_alg».proof.Proof.RefSegA
import proofs.«171278_j39032662786092_1_alg».proof.Proof.RefSegB
import proofs.«171278_j39032662786092_1_alg».proof.Proof.RefSegC
import proofs.«171278_j39032662786092_1_alg».proof.Proof.RefSegD

noncomputable section

namespace Cert.ReferenceIdeal.RefRun

open Cert.ReferenceIdeal Cert.ReferenceIdeal.Gen Idealize.ShloMosaic Idealize.ShloMosaic.TcCoe Idealize.SL.Sem Idealize.ShloMosaic.StableHlo Idealize.ShloMosaic.StableHlo.Stretches

variable {F : FTy → Type} [FloatOps F]

theorem lv0_arg0 (μ : Valuation τ sig (Elt F)) : (after segA μ) (Proc.devRef .tc main_arg0) = μ (Proc.devRef .tc main_arg0) :=
  segA_keep_arg0 μ
theorem lv0_arg1 (μ : Valuation τ sig (Elt F)) : (after segA μ) (Proc.devRef .tc main_arg1) = μ (Proc.devRef .tc main_arg1) :=
  segA_keep_arg1 μ
theorem lv0_v5 (μ : Valuation τ sig (Elt F)) : (after segA μ) (Proc.devRef .tc main_v5) = Stages.r5 (μ (Proc.devRef .tc main_arg0)) (μ (Proc.devRef .tc main_arg1)) :=
  segA_r5 μ _ _ rfl
theorem lv0_v11 (μ : Valuation τ sig (Elt F)) : (after segA μ) (Proc.devRef .tc main_v11) = Stages.r11 (μ (Proc.devRef .tc main_arg0)) (μ (Proc.devRef .tc main_arg1)) :=
  segA_r11 μ _ _ rfl
theorem lv0_v36 (μ : Valuation τ sig (Elt F)) : (after segA μ) (Proc.devRef .tc main_v36) = Stages.r36 (μ (Proc.devRef .tc main_arg0)) (μ (Proc.devRef .tc main_arg1)) :=
  segA_r36 μ _ _ rfl
theorem lv0_v42 (μ : Valuation τ sig (Elt F)) : (after segA μ) (Proc.devRef .tc main_v42) = Stages.r42 (μ (Proc.devRef .tc main_arg0)) (μ (Proc.devRef .tc main_arg1)) :=
  segA_r42 μ _ _ rfl
theorem lv0_v44 (μ : Valuation τ sig (Elt F)) : (after segA μ) (Proc.devRef .tc main_v44) = Stages.r44 (μ (Proc.devRef .tc main_arg0)) (μ (Proc.devRef .tc main_arg1)) :=
  segA_r44 μ _ _ rfl
theorem lv0_v46 (μ : Valuation τ sig (Elt F)) : (after segA μ) (Proc.devRef .tc main_v46) = Stages.r46 (μ (Proc.devRef .tc main_arg0)) (μ (Proc.devRef .tc main_arg1)) :=
  segA_r46 μ _ _ rfl
theorem lv0_v48 (μ : Valuation τ sig (Elt F)) : (after segA μ) (Proc.devRef .tc main_v48) = Stages.r48 (μ (Proc.devRef .tc main_arg0)) (μ (Proc.devRef .tc main_arg1)) :=
  segA_r48 μ _ _ rfl
theorem lv0_v50 (μ : Valuation τ sig (Elt F)) : (after segA μ) (Proc.devRef .tc main_v50) = Stages.r50 (μ (Proc.devRef .tc main_arg0)) (μ (Proc.devRef .tc main_arg1)) :=
  segA_r50 μ _ _ rfl
theorem lv0_v52 (μ : Valuation τ sig (Elt F)) : (after segA μ) (Proc.devRef .tc main_v52) = Stages.r52 (μ (Proc.devRef .tc main_arg0)) (μ (Proc.devRef .tc main_arg1)) :=
  segA_r52 μ _ _ rfl
theorem lv1_arg0 (μ : Valuation τ sig (Elt F)) : (after segB (after segA μ)) (Proc.devRef .tc main_arg0) = μ (Proc.devRef .tc main_arg0) :=
  (segB_keep_arg0 (after segA μ)).trans (lv0_arg0 μ)
theorem lv1_arg1 (μ : Valuation τ sig (Elt F)) : (after segB (after segA μ)) (Proc.devRef .tc main_arg1) = μ (Proc.devRef .tc main_arg1) :=
  (segB_keep_arg1 (after segA μ)).trans (lv0_arg1 μ)
theorem lv1_v56 (μ : Valuation τ sig (Elt F)) : (after segB (after segA μ)) (Proc.devRef .tc main_v56) = Stages.r56 (μ (Proc.devRef .tc main_arg0)) (μ (Proc.devRef .tc main_arg1)) :=
  segB_r56 (after segA μ) _ _ (lv0_arg0 μ)
theorem lv1_v5 (μ : Valuation τ sig (Elt F)) : (after segB (after segA μ)) (Proc.devRef .tc main_v5) = Stages.r5 (μ (Proc.devRef .tc main_arg0)) (μ (Proc.devRef .tc main_arg1)) :=
  (segB_keep_v5 (after segA μ)).trans (lv0_v5 μ)
theorem lv1_v54 (μ : Valuation τ sig (Elt F)) : (after segB (after segA μ)) (Proc.devRef .tc main_v54) = Stages.r54 (μ (Proc.devRef .tc main_arg0)) (μ (Proc.devRef .tc main_arg1)) :=
  segB_r54 (after segA μ) _ _ (lv0_arg0 μ)
theorem lv1_v58 (μ : Valuation τ sig (Elt F)) : (after segB (after segA μ)) (Proc.devRef .tc main_v58) = Stages.r58 (μ (Proc.devRef .tc main_arg0)) (μ (Proc.devRef .tc main_arg1)) :=
  segB_r58 (after segA μ) _ _ (lv0_arg0 μ)
theorem lv1_v11 (μ : Valuation τ sig (Elt F)) : (after segB (after segA μ)) (Proc.devRef .tc main_v11) = Stages.r11 (μ (Proc.devRef .tc main_arg0)) (μ (Proc.devRef .tc main_arg1)) :=
  (segB_keep_v11 (after segA μ)).trans (lv0_v11 μ)
theorem lv1_v62 (μ : Valuation τ sig (Elt F)) : (after segB (after segA μ)) (Proc.devRef .tc main_v62) = Stages.r62 (μ (Proc.devRef .tc main_arg0)) (μ (Proc.devRef .tc main_arg1)) :=
  segB_r62 (after segA μ) _ _ (lv0_arg0 μ)
theorem lv1_v36 (μ : Valuation τ sig (Elt F)) : (after segB (after segA μ)) (Proc.devRef .tc main_v36) = Stages.r36 (μ (Proc.devRef .tc main_arg0)) (μ (Proc.devRef .tc main_arg1)) :=
  (segB_keep_v36 (after segA μ)).trans (lv0_v36 μ)
theorem lv1_v42 (μ : Valuation τ sig (Elt F)) : (after segB (after segA μ)) (Proc.devRef .tc main_v42) = Stages.r42 (μ (Proc.devRef .tc main_arg0)) (μ (Proc.devRef .tc main_arg1)) :=
  (segB_keep_v42 (after segA μ)).trans (lv0_v42 μ)
theorem lv1_v66 (μ : Valuation τ sig (Elt F)) : (after segB (after segA μ)) (Proc.devRef .tc main_v66) = Stages.r66 (μ (Proc.devRef .tc main_arg0)) (μ (Proc.devRef .tc main_arg1)) :=
  segB_r66 (after segA μ) _ _ (lv0_arg0 μ)
theorem lv1_v44 (μ : Valuation τ sig (Elt F)) : (after segB (after segA μ)) (Proc.devRef .tc main_v44) = Stages.r44 (μ (Proc.devRef .tc main_arg0)) (μ (Proc.devRef .tc main_arg1)) :=
  (segB_keep_v44 (after segA μ)).trans (lv0_v44 μ)
theorem lv1_v46 (μ : Valuation τ sig (Elt F)) : (after segB (after segA μ)) (Proc.devRef .tc main_v46) = Stages.r46 (μ (Proc.devRef .tc main_arg0)) (μ (Proc.devRef .tc main_arg1)) :=
  (segB_keep_v46 (after segA μ)).trans (lv0_v46 μ)
theorem lv1_v48 (μ : Valuation τ sig (Elt F)) : (after segB (after segA μ)) (Proc.devRef .tc main_v48) = Stages.r48 (μ (Proc.devRef .tc main_arg0)) (μ (Proc.devRef .tc main_arg1)) :=
  (segB_keep_v48 (after segA μ)).trans (lv0_v48 μ)
theorem lv1_v50 (μ : Valuation τ sig (Elt F)) : (after segB (after segA μ)) (Proc.devRef .tc main_v50) = Stages.r50 (μ (Proc.devRef .tc main_arg0)) (μ (Proc.devRef .tc main_arg1)) :=
  (segB_keep_v50 (after segA μ)).trans (lv0_v50 μ)
theorem lv1_v52 (μ : Valuation τ sig (Elt F)) : (after segB (after segA μ)) (Proc.devRef .tc main_v52) = Stages.r52 (μ (Proc.devRef .tc main_arg0)) (μ (Proc.devRef .tc main_arg1)) :=
  (segB_keep_v52 (after segA μ)).trans (lv0_v52 μ)
theorem lv2_arg0 (μ : Valuation τ sig (Elt F)) : (after segC (after segB (after segA μ))) (Proc.devRef .tc main_arg0) = μ (Proc.devRef .tc main_arg0) :=
  (segC_keep_arg0 (after segB (after segA μ))).trans (lv1_arg0 μ)
theorem lv2_arg1 (μ : Valuation τ sig (Elt F)) : (after segC (after segB (after segA μ))) (Proc.devRef .tc main_arg1) = μ (Proc.devRef .tc main_arg1) :=
  (segC_keep_arg1 (after segB (after segA μ))).trans (lv1_arg1 μ)
theorem lv2_v54 (μ : Valuation τ sig (Elt F)) : (after segC (after segB (after segA μ))) (Proc.devRef .tc main_v54) = Stages.r54 (μ (Proc.devRef .tc main_arg0)) (μ (Proc.devRef .tc main_arg1)) :=
  (segC_keep_v54 (after segB (after segA μ))).trans (lv1_v54 μ)
theorem lv2_v44 (μ : Valuation τ sig (Elt F)) : (after segC (after segB (after segA μ))) (Proc.devRef .tc main_v44) = Stages.r44 (μ (Proc.devRef .tc main_arg0)) (μ (Proc.devRef .tc main_arg1)) :=
  (segC_keep_v44 (after segB (after segA μ))).trans (lv1_v44 μ)
theorem lv2_v72 (μ : Valuation τ sig (Elt F)) : (after segC (after segB (after segA μ))) (Proc.devRef .tc main_v72) = Stages.r72 (μ (Proc.devRef .tc main_arg0)) (μ (Proc.devRef .tc main_arg1)) :=
  segC_r72 (after segB (after segA μ)) _ _ (lv1_v56 μ) (lv1_v5 μ) (lv1_v54 μ)
theorem lv2_v46 (μ : Valuation τ sig (Elt F)) : (after segC (after segB (after segA μ))) (Proc.devRef .tc main_v46) = Stages.r46 (μ (Proc.devRef .tc main_arg0)) (μ (Proc.devRef .tc main_arg1)) :=
  (segC_keep_v46 (after segB (after segA μ))).trans (lv1_v46 μ)
theorem lv2_v91 (μ : Valuation τ sig (Elt F)) : (after segC (after segB (after segA μ))) (Proc.devRef .tc main_v91) = Stages.r91 (μ (Proc.devRef .tc main_arg0)) (μ (Proc.devRef .tc main_arg1)) :=
  segC_r91 (after segB (after segA μ)) _ _ (lv1_v56 μ) (lv1_v5 μ) (lv1_v54 μ)
theorem lv2_v48 (μ : Valuation τ sig (Elt F)) : (after segC (after segB (after segA μ))) (Proc.devRef .tc main_v48) = Stages.r48 (μ (Proc.devRef .tc main_arg0)) (μ (Proc.devRef .tc main_arg1)) :=
  (segC_keep_v48 (after segB (after segA μ))).trans (lv1_v48 μ)
theorem lv2_v78 (μ : Valuation τ sig (Elt F)) : (after segC (after segB (after segA μ))) (Proc.devRef .tc main_v78) = Stages.r78 (μ (Proc.devRef .tc main_arg0)) (μ (Proc.devRef .tc main_arg1)) :=
  segC_r78 (after segB (after segA μ)) _ _ (lv1_v58 μ) (lv1_v11 μ) (lv1_v54 μ)
theorem lv2_v50 (μ : Valuation τ sig (Elt F)) : (after segC (after segB (after segA μ))) (Proc.devRef .tc main_v50) = Stages.r50 (μ (Proc.devRef .tc main_arg0)) (μ (Proc.devRef .tc main_arg1)) :=
  (segC_keep_v50 (after segB (after segA μ))).trans (lv1_v50 μ)
theorem lv2_v93 (μ : Valuation τ sig (Elt F)) : (after segC (after segB (after segA μ))) (Proc.devRef .tc main_v93) = Stages.r93 (μ (Proc.devRef .tc main_arg0)) (μ (Proc.devRef .tc main_arg1)) :=
  segC_r93 (after segB (after segA μ)) _ _ (lv1_v58 μ) (lv1_v11 μ) (lv1_v54 μ)
theorem lv2_v52 (μ : Valuation τ sig (Elt F)) : (after segC (after segB (after segA μ))) (Proc.devRef .tc main_v52) = Stages.r52 (μ (Proc.devRef .tc main_arg0)) (μ (Proc.devRef .tc main_arg1)) :=
  (segC_keep_v52 (after segB (after segA μ))).trans (lv1_v52 μ)
theorem lv2_v89 (μ : Valuation τ sig (Elt F)) : (after segC (after segB (after segA μ))) (Proc.devRef .tc main_v89) = Stages.r89 (μ (Proc.devRef .tc main_arg0)) (μ (Proc.devRef .tc main_arg1)) :=
  segC_r89 (after segB (after segA μ)) _ _ (lv1_v62 μ) (lv1_v36 μ) (lv1_v54 μ) (lv1_v42 μ) (lv1_v66 μ)
theorem lv3_arg0 (μ : Valuation τ sig (Elt F)) : (after segD (after segC (after segB (after segA μ)))) (Proc.devRef .tc main_arg0) = μ (Proc.devRef .tc main_arg0) :=
  (segD_keep_arg0 (after segC (after segB (after segA μ)))).trans (lv2_arg0 μ)
theorem lv3_arg1 (μ : Valuation τ sig (Elt F)) : (after segD (after segC (after segB (after segA μ)))) (Proc.devRef .tc main_arg1) = μ (Proc.devRef .tc main_arg1) :=
  (segD_keep_arg1 (after segC (after segB (after segA μ)))).trans (lv2_arg1 μ)
theorem lv3_v116 (μ : Valuation τ sig (Elt F)) : (after segD (after segC (after segB (after segA μ)))) (Proc.devRef .tc main_v116) = Stages.r116 (μ (Proc.devRef .tc main_arg0)) (μ (Proc.devRef .tc main_arg1)) :=
  segD_r116 (after segC (after segB (after segA μ))) _ _ (lv2_v54 μ) (lv2_v44 μ) (lv2_v72 μ) (lv2_v46 μ) (lv2_v91 μ) (lv2_v48 μ) (lv2_v78 μ) (lv2_v50 μ) (lv2_v93 μ) (lv2_v52 μ) (lv2_v89 μ)

theorem after_ops (μ : Valuation τ sig (Elt F)) : after ops μ = (after segD (after segC (after segB (after segA μ)))) := by
  unfold ops; rw [after_append, after_append, after_append]

/-- Every weakly fair execution of the reference terminates with its result at Stages.r116 of the two argument
    arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v116) = Stages.r116 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v116).trans (by rw [after_ops]; exact lv3_v116 _),
      (h c main_arg0).trans (by rw [after_ops]; exact lv3_arg0 _),
      (h c main_arg1).trans (by rw [after_ops]; exact lv3_arg1 _)⟩)
    (run_seq scopedRefs_eq scopedSems_eq defs main (fun _ => ops) main_eq (fun _ => ops_sub) m ρ)

end Cert.ReferenceIdeal.RefRun

end
-- ==== Proof.RefRead.lean ====
/-
  Layout operations of the reference read at an index, over variables: a weight entry cut out by a slice and a
  reshape, a coefficient matrix broadcast over batch and plane, the padded input viewed with a unit axis and
  broadcast over the output channels, the zero-filled pad of the input, a shift (a slice followed by a pad at the
  far end of the same axis) where it stays inside the plane, the crop, and the sum over the channel axis.
-/
import proofs.«171278_j39032662786092_1_alg».proof.ReferenceIdeal
import Idealize.ShloMosaic.Lib.Pipeline.Value
import Idealize.ShloMosaic.Lib.KernelVsHost
import Idealize.ShloMosaic.Lib.ValueIdx
import Idealize.ShloMosaic.PureOps.Ideal.Laws

noncomputable section

open scoped BigOperators

namespace Cert.ReferenceIdeal.RefRead

open Cert.ReferenceIdeal Idealize.ShloMosaic Idealize.ShloMosaic.ValueIdx

variable {α : Type}

/-! ## A weight entry: slice [o, c, a, b] of the [64, 32, 3, 3] array, reshaped to [64, 32] -/

theorem entry_at (w : S64x32x3x3.Idx → α) (a b : Nat) (ha : a < 3) (hb : b < 3)
    (hs : S64x32x3x3.Slices ![0, 0, a, b] S64x32x1x1) (hc : S64x32x1x1.ShapeCasts S64x32) (o : Fin 64) (c : Fin 32) :
    shapeCast S64x32 (extractStridedSlice S64x32x1x1 ![0, 0, a, b] w hs) hc (ix2 o c) = w (ix4 o c ⟨a, ha⟩ ⟨b, hb⟩) := by
  have ho := o.isLt
  have hc' := c.isLt
  refine Eq.trans (shapeCast_apply _ hc (ix2 o c) (ix4 o c (0 : Fin 1) (0 : Fin 1)) ?_) ?_
  · rw [Shape.rowMajor_val_four, Shape.rowMajor_val_two]
    show ((o.val * 32 + c.val) * 1 + 0) * 1 + 0 = o.val * 32 + c.val
    omega
  · exact extractStridedSlice_apply ![0, 0, a, b] w hs (ix4 o c (0 : Fin 1) (0 : Fin 1)) (ix4 o c ⟨a, ha⟩ ⟨b, hb⟩) (fun e => match e with
      | ⟨0, _⟩ => by show o.val = 0 + o.val; omega
      | ⟨1, _⟩ => by show c.val = 0 + c.val; omega
      | ⟨2, _⟩ => by show a = a + 0; omega
      | ⟨3, _⟩ => by show b = b + 0; omega)

/-! ## Broadcasts -/

/-- A scalar laid over [64, 32]. -/
theorem scalar_at (y : S_.Idx → α) (h : S_.BroadcastsInDim S64x32 (![] : Fin 0 → Fin S64x32.rank)) (i : S64x32.Idx) :
    broadcastInDim S64x32 ![] h y i = y (fun a => a.elim0) :=
  broadcastInDim_apply _ h y i (fun a => a.elim0) (fun a => a.elim0)

/-- A [64, 32] coefficient matrix laid along batch and plane. -/
theorem coef_at (p : S64x32.Idx → α)
    (h1 : S64x32.BroadcastsInDim S1x64x32x1x1 (![1, 2] : Fin 2 → Fin S1x64x32x1x1.rank))
    (h2 : S1x64x32x1x1.BroadcastsInDim S2x64x32x58x58 (![0, 1, 2, 3, 4] : Fin 5 → Fin S2x64x32x58x58.rank))
    (n : Fin 2) (o : Fin 64) (c : Fin 32) (i j : Fin 58) :
    broadcastInDim S2x64x32x58x58 ![0, 1, 2, 3, 4] h2 (broadcastInDim S1x64x32x1x1 ![1, 2] h1 p) (ix5 n o c i j) = p (ix2 o c) := by
  refine Eq.trans (broadcastInDim_apply _ h2 _ (ix5 n o c i j) (ix5 (0 : Fin 1) o c (0 : Fin 1) (0 : Fin 1)) (fun a => match a with
      | ⟨0, _⟩ => by show 0 = if (1 : Nat) = 1 then 0 else n.val; rw [if_pos rfl]
      | ⟨1, _⟩ => by show o.val = if (64 : Nat) = 1 then 0 else o.val; rw [if_neg (by decide)]
      | ⟨2, _⟩ => by show c.val = if (32 : Nat) = 1 then 0 else c.val; rw [if_neg (by decide)]
      | ⟨3, _⟩ => by show 0 = if (1 : Nat) = 1 then 0 else i.val; rw [if_pos rfl]
      | ⟨4, _⟩ => by show 0 = if (1 : Nat) = 1 then 0 else j.val; rw [if_pos rfl])) ?_
  exact broadcastInDim_apply _ h1 p (ix5 (0 : Fin 1) o c (0 : Fin 1) (0 : Fin 1)) (ix2 o c) (fun a => match a with
      | ⟨0, _⟩ => by show o.val = if (64 : Nat) = 1 then 0 else o.val; rw [if_neg (by decide)]
      | ⟨1, _⟩ => by show c.val = if (32 : Nat) = 1 then 0 else c.val; rw [if_neg (by decide)])

/-- A [2, 1, 32, 58, 58] array laid along the output channels. -/
theorem chan_at (y : S2x1x32x58x58.Idx → α)
    (h : S2x1x32x58x58.BroadcastsInDim S2x64x32x58x58 (![0, 1, 2, 3, 4] : Fin 5 → Fin S2x64x32x58x58.rank))
    (n : Fin 2) (o : Fin 64) (c : Fin 32) (i j : Fin 58) :
    broadcastInDim S2x64x32x58x58 ![0, 1, 2, 3, 4] h y (ix5 n o c i j) = y (ix5 n (0 : Fin 1) c i j) :=
  broadcastInDim_apply _ h y (ix5 n o c i j) (ix5 n (0 : Fin 1) c i j) (fun a => match a with
      | ⟨0, _⟩ => by show n.val = if (2 : Nat) = 1 then 0 else n.val; rw [if_neg (by decide)]
      | ⟨1, _⟩ => by show 0 = if (1 : Nat) = 1 then 0 else o.val; rw [if_pos rfl]
      | ⟨2, _⟩ => by show c.val = if (32 : Nat) = 1 then 0 else c.val; rw [if_neg (by decide)]
      | ⟨3, _⟩ => by show i.val = if (58 : Nat) = 1 then 0 else i.val; rw [if_neg (by decide)]
      | ⟨4, _⟩ => by show j.val = if (58 : Nat) = 1 then 0 else j.val; rw [if_neg (by decide)])

/-- A [2, 32, 58, 58] array viewed with a unit axis after the batch. -/
theorem view_at (y : S2x32x58x58.Idx → α)
    (h : S2x32x58x58.BroadcastsInDim S2x1x32x58x58 (![0, 2, 3, 4] : Fin 4 → Fin S2x1x32x58x58.rank))
    (n : Fin 2) (z : Fin 1) (c : Fin 32) (i j : Fin 58) :
    broadcastInDim S2x1x32x58x58 ![0, 2, 3, 4] h y (ix5 n z c i j) = y (ix4 n c i j) :=
  broadcastInDim_apply _ h y (ix5 n z c i j) (ix4 n c i j) (fun a => match a with
      | ⟨0, _⟩ => by show n.val = if (2 : Nat) = 1 then 0 else n.val; rw [if_neg (by decide)]
      | ⟨1, _⟩ => by show c.val = if (32 : Nat) = 1 then 0 else c.val; rw [if_neg (by decide)]
      | ⟨2, _⟩ => by show i.val = if (58 : Nat) = 1 then 0 else i.val; rw [if_neg (by decide)]
      | ⟨3, _⟩ => by show j.val = if (58 : Nat) = 1 then 0 else j.val; rw [if_neg (by decide)])

/-! ## The pad of the input by one cell on each side of the plane -/

/-- Inside rows and columns 1..56 the padded array is the input; on the border it is the padding value. -/
theorem pad1_at (x : S2x32x56x56.Idx → α) {u : Shape} (v : u.Idx → α)
    (hp : S2x32x56x56.Pads (![0, 0, 1, 1] : Fin 4 → Nat) ![0, 0, 1, 1] ![0, 0, 0, 0] S2x32x58x58) (hu : 0 < u.numel)
    (n : Fin 2) (c : Fin 32) (i j : Fin 58) :
    pad S2x32x58x58 ![0, 0, 1, 1] ![0, 0, 1, 1] ![0, 0, 0, 0] x v hp hu (ix4 n c i j)
      = if h : 1 ≤ i.val ∧ i.val ≤ 56 ∧ 1 ≤ j.val ∧ j.val ≤ 56 then x (ix4 n c ⟨i.val - 1, by omega⟩ ⟨j.val - 1, by omega⟩)
        else v (Shape.Idx.first hu) := by
  by_cases h : 1 ≤ i.val ∧ i.val ≤ 56 ∧ 1 ≤ j.val ∧ j.val ≤ 56
  · rw [dif_pos h]
    exact pad_apply_of_inside _ _ _ x v hp hu (ix4 n c i j) (ix4 n c ⟨i.val - 1, by omega⟩ ⟨j.val - 1, by omega⟩) (fun a => match a with
      | ⟨0, _⟩ => by show n.val = 0 + n.val * (0 + 1); omega
      | ⟨1, _⟩ => by show c.val = 0 + c.val * (0 + 1); omega
      | ⟨2, _⟩ => by show i.val = 1 + (i.val - 1) * (0 + 1); omega
      | ⟨3, _⟩ => by show j.val = 1 + (j.val - 1) * (0 + 1); omega)
  · rw [dif_neg h]
    by_cases hi : 1 ≤ i.val ∧ i.val ≤ 56
    · have hj : ¬(1 ≤ j.val ∧ j.val ≤ 56) := fun hj => h ⟨hi.1, hi.2, hj.1, hj.2⟩
      refine pad_apply_of_not_inside _ _ _ x v hp hu (ix4 n c i j) ⟨3, by decide⟩ ?_
      show ¬(1 ≤ j.val ∧ (j.val - 1) % (0 + 1) = 0 ∧ (j.val - 1) / (0 + 1) < 56)
      omega
    · refine pad_apply_of_not_inside _ _ _ x v hp hu (ix4 n c i j) ⟨2, by decide⟩ ?_
      show ¬(1 ≤ i.val ∧ (i.val - 1) % (0 + 1) = 0 ∧ (i.val - 1) / (0 + 1) < 56)
      omega

/-- The padding value the program converts from the integer zero is the real zero. -/
theorem padding_zero (hu : 0 < S_.numel) :
    (sitofp (F := Ideal) .f32 (constantI S_ 32 0#32)) (Shape.Idx.first hu) = (0 : EReal) := by
  show ((((0#32 : BitVec 32).toInt : ℤ) : ℝ) : EReal) = 0
  simp

/-! ## Shifts: a slice that drops the first k rows (or columns) followed by a pad of k at the far end -/

/-- On [2, 1, 32, 58, 58]: columns moved up by 1; read where the moved coordinate stays below 58. -/
theorem shiftW1_at (y : S2x1x32x58x58.Idx → α) {u : Shape} (v : u.Idx → α)
    (hs : S2x1x32x58x58.Slices ![0, 0, 0, 0, 1] S2x1x32x58x57)
    (hp : S2x1x32x58x57.Pads (![0, 0, 0, 0, 0] : Fin 5 → Nat) ![0, 0, 0, 0, 1] ![0, 0, 0, 0, 0] S2x1x32x58x58) (hu : 0 < u.numel)
    (n : Fin 2) (z : Fin 1) (c : Fin 32) (i j : Fin 58) (j' : Fin 58) (hm : j'.val = j.val + 1) :
    pad S2x1x32x58x58 ![0, 0, 0, 0, 0] ![0, 0, 0, 0, 1] ![0, 0, 0, 0, 0] (extractStridedSlice S2x1x32x58x57 ![0, 0, 0, 0, 1] y hs) v hp hu (ix5 n z c i j) = y (ix5 n z c i j') := by
  have hlt := j'.isLt
  refine Eq.trans (pad_apply_of_inside _ _ _ _ v hp hu (ix5 n z c i j) (ix5 n z c i (⟨j.val, by omega⟩ : Fin 57)) (fun a => match a with
      | ⟨0, _⟩ => by show n.val = 0 + n.val * (0 + 1); omega
      | ⟨1, _⟩ => by show z.val = 0 + z.val * (0 + 1); omega
      | ⟨2, _⟩ => by show c.val = 0 + c.val * (0 + 1); omega
      | ⟨3, _⟩ => by show i.val = 0 + i.val * (0 + 1); omega
      | ⟨4, _⟩ => by show j.val = 0 + j.val * (0 + 1); omega)) ?_
  exact extractStridedSlice_apply ![0, 0, 0, 0, 1] y hs (ix5 n z c i (⟨j.val, by omega⟩ : Fin 57)) (ix5 n z c i j') (fun a => match a with
      | ⟨0, _⟩ => by show n.val = 0 + n.val; omega
      | ⟨1, _⟩ => by show z.val = 0 + z.val; omega
      | ⟨2, _⟩ => by show c.val = 0 + c.val; omega
      | ⟨3, _⟩ => by show i.val = 0 + i.val; omega
      | ⟨4, _⟩ => by show j'.val = 1 + j.val; omega)

/-- On [2, 1, 32, 58, 58]: rows moved up by 1; read where the moved coordinate stays below 58. -/
theorem shiftH1_at (y : S2x1x32x58x58.Idx → α) {u : Shape} (v : u.Idx → α)
    (hs : S2x1x32x58x58.Slices ![0, 0, 0, 1, 0] S2x1x32x57x58)
    (hp : S2x1x32x57x58.Pads (![0, 0, 0, 0, 0] : Fin 5 → Nat) ![0, 0, 0, 1, 0] ![0, 0, 0, 0, 0] S2x1x32x58x58) (hu : 0 < u.numel)
    (n : Fin 2) (z : Fin 1) (c : Fin 32) (i j : Fin 58) (i' : Fin 58) (hm : i'.val = i.val + 1) :
    pad S2x1x32x58x58 ![0, 0, 0, 0, 0] ![0, 0, 0, 1, 0] ![0, 0, 0, 0, 0] (extractStridedSlice S2x1x32x57x58 ![0, 0, 0, 1, 0] y hs) v hp hu (ix5 n z c i j) = y (ix5 n z c i' j) := by
  have hlt := i'.isLt
  refine Eq.trans (pad_apply_of_inside _ _ _ _ v hp hu (ix5 n z c i j) (ix5 n z c (⟨i.val, by omega⟩ : Fin 57) j) (fun a => match a with
      | ⟨0, _⟩ => by show n.val = 0 + n.val * (0 + 1); omega
      | ⟨1, _⟩ => by show z.val = 0 + z.val * (0 + 1); omega
      | ⟨2, _⟩ => by show c.val = 0 + c.val * (0 + 1); omega
      | ⟨3, _⟩ => by show i.val = 0 + i.val * (0 + 1); omega
      | ⟨4, _⟩ => by show j.val = 0 + j.val * (0 + 1); omega)) ?_
  exact extractStridedSlice_apply ![0, 0, 0, 1, 0] y hs (ix5 n z c (⟨i.val, by omega⟩ : Fin 57) j) (ix5 n z c i' j) (fun a => match a with
      | ⟨0, _⟩ => by show n.val = 0 + n.val; omega
      | ⟨1, _⟩ => by show z.val = 0 + z.val; omega
      | ⟨2, _⟩ => by show c.val = 0 + c.val; omega
      | ⟨3, _⟩ => by show i'.val = 1 + i.val; omega
      | ⟨4, _⟩ => by show j.val = 0 + j.val; omega)

/-- On [2, 1, 32, 58, 58]: rows moved up by 2; read where the moved coordinate stays below 58. -/
theorem shiftH2_at (y : S2x1x32x58x58.Idx → α) {u : Shape} (v : u.Idx → α)
    (hs : S2x1x32x58x58.Slices ![0, 0, 0, 2, 0] S2x1x32x56x58)
    (hp : S2x1x32x56x58.Pads (![0, 0, 0, 0, 0] : Fin 5 → Nat) ![0, 0, 0, 2, 0] ![0, 0, 0, 0, 0] S2x1x32x58x58) (hu : 0 < u.numel)
    (n : Fin 2) (z : Fin 1) (c : Fin 32) (i j : Fin 58) (i' : Fin 58) (hm : i'.val = i.val + 2) :
    pad S2x1x32x58x58 ![0, 0, 0, 0, 0] ![0, 0, 0, 2, 0] ![0, 0, 0, 0, 0] (extractStridedSlice S2x1x32x56x58 ![0, 0, 0, 2, 0] y hs) v hp hu (ix5 n z c i j) = y (ix5 n z c i' j) := by
  have hlt := i'.isLt
  refine Eq.trans (pad_apply_of_inside _ _ _ _ v hp hu (ix5 n z c i j) (ix5 n z c (⟨i.val, by omega⟩ : Fin 56) j) (fun a => match a with
      | ⟨0, _⟩ => by show n.val = 0 + n.val * (0 + 1); omega
      | ⟨1, _⟩ => by show z.val = 0 + z.val * (0 + 1); omega
      | ⟨2, _⟩ => by show c.val = 0 + c.val * (0 + 1); omega
      | ⟨3, _⟩ => by show i.val = 0 + i.val * (0 + 1); omega
      | ⟨4, _⟩ => by show j.val = 0 + j.val * (0 + 1); omega)) ?_
  exact extractStridedSlice_apply ![0, 0, 0, 2, 0] y hs (ix5 n z c (⟨i.val, by omega⟩ : Fin 56) j) (ix5 n z c i' j) (fun a => match a with
      | ⟨0, _⟩ => by show n.val = 0 + n.val; omega
      | ⟨1, _⟩ => by show z.val = 0 + z.val; omega
      | ⟨2, _⟩ => by show c.val = 0 + c.val; omega
      | ⟨3, _⟩ => by show i'.val = 2 + i.val; omega
      | ⟨4, _⟩ => by show j.val = 0 + j.val; omega)

/-- On [2, 1, 32, 58, 58]: columns moved up by 2; read where the moved coordinate stays below 58. -/
theorem shiftW2_at (y : S2x1x32x58x58.Idx → α) {u : Shape} (v : u.Idx → α)
    (hs : S2x1x32x58x58.Slices ![0, 0, 0, 0, 2] S2x1x32x58x56)
    (hp : S2x1x32x58x56.Pads (![0, 0, 0, 0, 0] : Fin 5 → Nat) ![0, 0, 0, 0, 2] ![0, 0, 0, 0, 0] S2x1x32x58x58) (hu : 0 < u.numel)
    (n : Fin 2) (z : Fin 1) (c : Fin 32) (i j : Fin 58) (j' : Fin 58) (hm : j'.val = j.val + 2) :
    pad S2x1x32x58x58 ![0, 0, 0, 0, 0] ![0, 0, 0, 0, 2] ![0, 0, 0, 0, 0] (extractStridedSlice S2x1x32x58x56 ![0, 0, 0, 0, 2] y hs) v hp hu (ix5 n z c i j) = y (ix5 n z c i j') := by
  have hlt := j'.isLt
  refine Eq.trans (pad_apply_of_inside _ _ _ _ v hp hu (ix5 n z c i j) (ix5 n z c i (⟨j.val, by omega⟩ : Fin 56)) (fun a => match a with
      | ⟨0, _⟩ => by show n.val = 0 + n.val * (0 + 1); omega
      | ⟨1, _⟩ => by show z.val = 0 + z.val * (0 + 1); omega
      | ⟨2, _⟩ => by show c.val = 0 + c.val * (0 + 1); omega
      | ⟨3, _⟩ => by show i.val = 0 + i.val * (0 + 1); omega
      | ⟨4, _⟩ => by show j.val = 0 + j.val * (0 + 1); omega)) ?_
  exact extractStridedSlice_apply ![0, 0, 0, 0, 2] y hs (ix5 n z c i (⟨j.val, by omega⟩ : Fin 56)) (ix5 n z c i j') (fun a => match a with
      | ⟨0, _⟩ => by show n.val = 0 + n.val; omega
      | ⟨1, _⟩ => by show z.val = 0 + z.val; omega
      | ⟨2, _⟩ => by show c.val = 0 + c.val; omega
      | ⟨3, _⟩ => by show i.val = 0 + i.val; omega
      | ⟨4, _⟩ => by show j'.val = 2 + j.val; omega)

/-- On [2, 64, 32, 58, 58]: rows moved up by 2; read where the moved coordinate stays below 58. -/
theorem shiftH2o_at (y : S2x64x32x58x58.Idx → α) {u : Shape} (v : u.Idx → α)
    (hs : S2x64x32x58x58.Slices ![0, 0, 0, 2, 0] S2x64x32x56x58)
    (hp : S2x64x32x56x58.Pads (![0, 0, 0, 0, 0] : Fin 5 → Nat) ![0, 0, 0, 2, 0] ![0, 0, 0, 0, 0] S2x64x32x58x58) (hu : 0 < u.numel)
    (n : Fin 2) (o : Fin 64) (c : Fin 32) (i j : Fin 58) (i' : Fin 58) (hm : i'.val = i.val + 2) :
    pad S2x64x32x58x58 ![0, 0, 0, 0, 0] ![0, 0, 0, 2, 0] ![0, 0, 0, 0, 0] (extractStridedSlice S2x64x32x56x58 ![0, 0, 0, 2, 0] y hs) v hp hu (ix5 n o c i j) = y (ix5 n o c i' j) := by
  have hlt := i'.isLt
  refine Eq.trans (pad_apply_of_inside _ _ _ _ v hp hu (ix5 n o c i j) (ix5 n o c (⟨i.val, by omega⟩ : Fin 56) j) (fun a => match a with
      | ⟨0, _⟩ => by show n.val = 0 + n.val * (0 + 1); omega
      | ⟨1, _⟩ => by show o.val = 0 + o.val * (0 + 1); omega
      | ⟨2, _⟩ => by show c.val = 0 + c.val * (0 + 1); omega
      | ⟨3, _⟩ => by show i.val = 0 + i.val * (0 + 1); omega
      | ⟨4, _⟩ => by show j.val = 0 + j.val * (0 + 1); omega)) ?_
  exact extractStridedSlice_apply ![0, 0, 0, 2, 0] y hs (ix5 n o c (⟨i.val, by omega⟩ : Fin 56) j) (ix5 n o c i' j) (fun a => match a with
      | ⟨0, _⟩ => by show n.val = 0 + n.val; omega
      | ⟨1, _⟩ => by show o.val = 0 + o.val; omega
      | ⟨2, _⟩ => by show c.val = 0 + c.val; omega
      | ⟨3, _⟩ => by show i'.val = 2 + i.val; omega
      | ⟨4, _⟩ => by show j.val = 0 + j.val; omega)

/-- On [2, 64, 32, 58, 58]: columns moved up by 2; read where the moved coordinate stays below 58. -/
theorem shiftW2o_at (y : S2x64x32x58x58.Idx → α) {u : Shape} (v : u.Idx → α)
    (hs : S2x64x32x58x58.Slices ![0, 0, 0, 0, 2] S2x64x32x58x56)
    (hp : S2x64x32x58x56.Pads (![0, 0, 0, 0, 0] : Fin 5 → Nat) ![0, 0, 0, 0, 2] ![0, 0, 0, 0, 0] S2x64x32x58x58) (hu : 0 < u.numel)
    (n : Fin 2) (o : Fin 64) (c : Fin 32) (i j : Fin 58) (j' : Fin 58) (hm : j'.val = j.val + 2) :
    pad S2x64x32x58x58 ![0, 0, 0, 0, 0] ![0, 0, 0, 0, 2] ![0, 0, 0, 0, 0] (extractStridedSlice S2x64x32x58x56 ![0, 0, 0, 0, 2] y hs) v hp hu (ix5 n o c i j) = y (ix5 n o c i j') := by
  have hlt := j'.isLt
  refine Eq.trans (pad_apply_of_inside _ _ _ _ v hp hu (ix5 n o c i j) (ix5 n o c i (⟨j.val, by omega⟩ : Fin 56)) (fun a => match a with
      | ⟨0, _⟩ => by show n.val = 0 + n.val * (0 + 1); omega
      | ⟨1, _⟩ => by show o.val = 0 + o.val * (0 + 1); omega
      | ⟨2, _⟩ => by show c.val = 0 + c.val * (0 + 1); omega
      | ⟨3, _⟩ => by show i.val = 0 + i.val * (0 + 1); omega
      | ⟨4, _⟩ => by show j.val = 0 + j.val * (0 + 1); omega)) ?_
  exact extractStridedSlice_apply ![0, 0, 0, 0, 2] y hs (ix5 n o c i (⟨j.val, by omega⟩ : Fin 56)) (ix5 n o c i j') (fun a => match a with
      | ⟨0, _⟩ => by show n.val = 0 + n.val; omega
      | ⟨1, _⟩ => by show o.val = 0 + o.val; omega
      | ⟨2, _⟩ => by show c.val = 0 + c.val; omega
      | ⟨3, _⟩ => by show i.val = 0 + i.val; omega
      | ⟨4, _⟩ => by show j'.val = 2 + j.val; omega)

/-! ## The crop and the channel sum -/

/-- The crop to the first 56 rows and columns reads the same coordinates. -/
theorem crop_at (y : S2x64x32x58x58.Idx → α) (hs : S2x64x32x58x58.Slices ![0, 0, 0, 0, 0] S2x64x32x56x56)
    (n : Fin 2) (o : Fin 64) (c : Fin 32) (h v : Fin 56) (i j : Fin 58) (hi : i.val = h.val) (hj : j.val = v.val) :
    extractStridedSlice S2x64x32x56x56 ![0, 0, 0, 0, 0] y hs (ix5 n o c h v) = y (ix5 n o c i j) :=
  extractStridedSlice_apply ![0, 0, 0, 0, 0] y hs (ix5 n o c h v) (ix5 n o c i j) (fun a => match a with
      | ⟨0, _⟩ => by show n.val = 0 + n.val; omega
      | ⟨1, _⟩ => by show o.val = 0 + o.val; omega
      | ⟨2, _⟩ => by show c.val = 0 + c.val; omega
      | ⟨3, _⟩ => by show i.val = 0 + h.val; omega
      | ⟨4, _⟩ => by show j.val = 0 + v.val; omega)

/-- The host's float sum over the channel axis, at the extended reals: the initial value plus the sum of the
    32 channel entries. -/
theorem chansum_at (y : FVec Ideal S2x64x32x56x56 .f32) {u : Shape} (init : u.Idx → EReal)
    (h : S2x64x32x56x56.ReducesTo [2] S2x64x56x56) (hu : 0 < u.numel) (n : Fin 2) (o : Fin 64) (hh v : Fin 56) :
    Host.reduceAdd (F := Ideal) y init h hu (ix4 n o hh v) = init (Shape.Idx.first hu) + ∑ c : Fin 32, y (ix5 n o c hh v) := by
  simp only [Host.reduceAdd, Ideal.hostReduceAdd_def]
  rw [Ideal.hostReduceAdd_single h (by decide)]
  refine congrArg (_ + ·) (Finset.sum_congr rfl fun k _ => ?_)
  exact congrArg y (funext fun a => Fin.ext (by match a with | ⟨0, _⟩ => rfl | ⟨1, _⟩ => rfl | ⟨2, _⟩ => rfl | ⟨3, _⟩ => rfl | ⟨4, _⟩ => rfl))

end Cert.ReferenceIdeal.RefRead
end
-- ==== Proof.RefWeights.lean ====
/-
  The reference's weight side, at the extended reals: each sliced and reshaped weight entry read at
  (output channel o, input channel c), the four predict coefficients and the five update coefficients as the
  specification names them, and each coefficient matrix broadcast over batch and plane.
-/
import proofs.«171278_j39032662786092_1_alg».proof.Proof.RefStages
import proofs.«171278_j39032662786092_1_alg».proof.Proof.RefRead
import proofs.«171278_j39032662786092_1_alg».proof.Proof.ConvSpec

noncomputable section

open scoped BigOperators

namespace Cert.ReferenceIdeal.RefValue

open Cert.ReferenceIdeal Cert.ReferenceIdeal.Gen Cert.ReferenceIdeal.RefRead Idealize.ShloMosaic Idealize.ShloMosaic.ValueIdx Cert.ConvSpec

/-! ## The weight entries, read at (o, c) -/

theorem r1_at (x : FVec Ideal S2x32x56x56 .f32) (w : FVec Ideal S64x32x3x3 .f32) (o : Fin 64) (c : Fin 32) :
    Stages.r1 (F := Ideal) x w (ix2 o c) = wt w o c 2 0 := by
  unfold Stages.r1 Stages.r0
  exact entry_at w 2 0 (by decide) (by decide) _ _ o c

theorem r4_at (x : FVec Ideal S2x32x56x56 .f32) (w : FVec Ideal S64x32x3x3 .f32) (o : Fin 64) (c : Fin 32) :
    Stages.r4 (F := Ideal) x w (ix2 o c) = wt w o c 2 1 := by
  unfold Stages.r4 Stages.r3
  exact entry_at w 2 1 (by decide) (by decide) _ _ o c

theorem r7_at (x : FVec Ideal S2x32x56x56 .f32) (w : FVec Ideal S64x32x3x3 .f32) (o : Fin 64) (c : Fin 32) :
    Stages.r7 (F := Ideal) x w (ix2 o c) = wt w o c 0 2 := by
  unfold Stages.r7 Stages.r6
  exact entry_at w 0 2 (by decide) (by decide) _ _ o c

theorem r10_at (x : FVec Ideal S2x32x56x56 .f32) (w : FVec Ideal S64x32x3x3 .f32) (o : Fin 64) (c : Fin 32) :
    Stages.r10 (F := Ideal) x w (ix2 o c) = wt w o c 1 2 := by
  unfold Stages.r10 Stages.r9
  exact entry_at w 1 2 (by decide) (by decide) _ _ o c

theorem r13_at (x : FVec Ideal S2x32x56x56 .f32) (w : FVec Ideal S64x32x3x3 .f32) (o : Fin 64) (c : Fin 32) :
    Stages.r13 (F := Ideal) x w (ix2 o c) = wt w o c 0 0 := by
  unfold Stages.r13 Stages.r12
  exact entry_at w 0 0 (by decide) (by decide) _ _ o c

theorem r17_at (x : FVec Ideal S2x32x56x56 .f32) (w : FVec Ideal S64x32x3x3 .f32) (o : Fin 64) (c : Fin 32) :
    Stages.r17 (F := Ideal) x w (ix2 o c) = wt w o c 2 0 := by
  unfold Stages.r17 Stages.r16
  exact entry_at w 2 0 (by decide) (by decide) _ _ o c

theorem r19_at (x : FVec Ideal S2x32x56x56 .f32) (w : FVec Ideal S64x32x3x3 .f32) (o : Fin 64) (c : Fin 32) :
    Stages.r19 (F := Ideal) x w (ix2 o c) = wt w o c 0 1 := by
  unfold Stages.r19 Stages.r18
  exact entry_at w 0 1 (by decide) (by decide) _ _ o c

theorem r22_at (x : FVec Ideal S2x32x56x56 .f32) (w : FVec Ideal S64x32x3x3 .f32) (o : Fin 64) (c : Fin 32) :
    Stages.r22 (F := Ideal) x w (ix2 o c) = wt w o c 2 1 := by
  unfold Stages.r22 Stages.r21
  exact entry_at w 2 1 (by decide) (by decide) _ _ o c

theorem r26_at (x : FVec Ideal S2x32x56x56 .f32) (w : FVec Ideal S64x32x3x3 .f32) (o : Fin 64) (c : Fin 32) :
    Stages.r26 (F := Ideal) x w (ix2 o c) = wt w o c 0 2 := by
  unfold Stages.r26 Stages.r25
  exact entry_at w 0 2 (by decide) (by decide) _ _ o c

theorem r28_at (x : FVec Ideal S2x32x56x56 .f32) (w : FVec Ideal S64x32x3x3 .f32) (o : Fin 64) (c : Fin 32) :
    Stages.r28 (F := Ideal) x w (ix2 o c) = wt w o c 1 0 := by
  unfold Stages.r28 Stages.r27
  exact entry_at w 1 0 (by decide) (by decide) _ _ o c

theorem r31_at (x : FVec Ideal S2x32x56x56 .f32) (w : FVec Ideal S64x32x3x3 .f32) (o : Fin 64) (c : Fin 32) :
    Stages.r31 (F := Ideal) x w (ix2 o c) = wt w o c 1 2 := by
  unfold Stages.r31 Stages.r30
  exact entry_at w 1 2 (by decide) (by decide) _ _ o c

theorem r35_at (x : FVec Ideal S2x32x56x56 .f32) (w : FVec Ideal S64x32x3x3 .f32) (o : Fin 64) (c : Fin 32) :
    Stages.r35 (F := Ideal) x w (ix2 o c) = wt w o c 1 1 := by
  unfold Stages.r35 Stages.r34
  exact entry_at w 1 1 (by decide) (by decide) _ _ o c

theorem r38_at (x : FVec Ideal S2x32x56x56 .f32) (w : FVec Ideal S64x32x3x3 .f32) (o : Fin 64) (c : Fin 32) :
    Stages.r38 (F := Ideal) x w (ix2 o c) = wt w o c 2 2 := by
  unfold Stages.r38 Stages.r37
  exact entry_at w 2 2 (by decide) (by decide) _ _ o c

theorem r41_at (x : FVec Ideal S2x32x56x56 .f32) (w : FVec Ideal S64x32x3x3 .f32) (o : Fin 64) (c : Fin 32) :
    Stages.r41 (F := Ideal) x w (ix2 o c) = wt w o c 1 1 := by
  unfold Stages.r41 Stages.r40
  exact entry_at w 1 1 (by decide) (by decide) _ _ o c

theorem r44_at (x : FVec Ideal S2x32x56x56 .f32) (w : FVec Ideal S64x32x3x3 .f32) (o : Fin 64) (c : Fin 32) :
    Stages.r44 (F := Ideal) x w (ix2 o c) = wt w o c 0 1 := by
  unfold Stages.r44 Stages.r43
  exact entry_at w 0 1 (by decide) (by decide) _ _ o c

theorem r46_at (x : FVec Ideal S2x32x56x56 .f32) (w : FVec Ideal S64x32x3x3 .f32) (o : Fin 64) (c : Fin 32) :
    Stages.r46 (F := Ideal) x w (ix2 o c) = wt w o c 2 1 := by
  unfold Stages.r46 Stages.r45
  exact entry_at w 2 1 (by decide) (by decide) _ _ o c

theorem r48_at (x : FVec Ideal S2x32x56x56 .f32) (w : FVec Ideal S64x32x3x3 .f32) (o : Fin 64) (c : Fin 32) :
    Stages.r48 (F := Ideal) x w (ix2 o c) = wt w o c 1 0 := by
  unfold Stages.r48 Stages.r47
  exact entry_at w 1 0 (by decide) (by decide) _ _ o c

theorem r50_at (x : FVec Ideal S2x32x56x56 .f32) (w : FVec Ideal S64x32x3x3 .f32) (o : Fin 64) (c : Fin 32) :
    Stages.r50 (F := Ideal) x w (ix2 o c) = wt w o c 1 2 := by
  unfold Stages.r50 Stages.r49
  exact entry_at w 1 2 (by decide) (by decide) _ _ o c

theorem r52_at (x : FVec Ideal S2x32x56x56 .f32) (w : FVec Ideal S64x32x3x3 .f32) (o : Fin 64) (c : Fin 32) :
    Stages.r52 (F := Ideal) x w (ix2 o c) = wt w o c 1 1 := by
  unfold Stages.r52 Stages.r51
  exact entry_at w 1 1 (by decide) (by decide) _ _ o c

/-! ## The predict coefficients, in the program's order of operations -/

theorem p0_at (x : FVec Ideal S2x32x56x56 .f32) (w : FVec Ideal S64x32x3x3 .f32) (o : Fin 64) (c : Fin 32) : Stages.r5 (F := Ideal) x w (ix2 o c) = p0 w o c := by
  show Ideal.div (-(Stages.r1 (F := Ideal) x w (ix2 o c))) (Stages.r4 (F := Ideal) x w (ix2 o c)) = _
  rw [r1_at, r4_at]; rfl

theorem p1_at (x : FVec Ideal S2x32x56x56 .f32) (w : FVec Ideal S64x32x3x3 .f32) (o : Fin 64) (c : Fin 32) : Stages.r11 (F := Ideal) x w (ix2 o c) = p1 w o c := by
  show Ideal.div (-(Stages.r7 (F := Ideal) x w (ix2 o c))) (Stages.r10 (F := Ideal) x w (ix2 o c)) = _
  rw [r7_at, r10_at]; rfl

/-- The constant one laid over (o, c). -/
theorem r14_at (x : FVec Ideal S2x32x56x56 .f32) (w : FVec Ideal S64x32x3x3 .f32) (i : S64x32.Idx) : Stages.r14 (F := Ideal) x w i = one := by
  unfold Stages.r14
  exact scalar_at _ _ i

theorem p2_at (x : FVec Ideal S2x32x56x56 .f32) (w : FVec Ideal S64x32x3x3 .f32) (o : Fin 64) (c : Fin 32) : Stages.r36 (F := Ideal) x w (ix2 o c) = p2 w o c := by
  show Ideal.div (((Stages.r14 (F := Ideal) x w (ix2 o c) - Stages.r13 (F := Ideal) x w (ix2 o c))
      + Ideal.div (Stages.r17 (F := Ideal) x w (ix2 o c) * Stages.r19 (F := Ideal) x w (ix2 o c)) (Stages.r22 (F := Ideal) x w (ix2 o c)))
      + Ideal.div (Stages.r26 (F := Ideal) x w (ix2 o c) * Stages.r28 (F := Ideal) x w (ix2 o c)) (Stages.r31 (F := Ideal) x w (ix2 o c)))
      (Stages.r35 (F := Ideal) x w (ix2 o c)) = _
  rw [r14_at, r13_at, r17_at, r19_at, r22_at, r26_at, r28_at, r31_at, r35_at]; rfl

theorem p3_at (x : FVec Ideal S2x32x56x56 .f32) (w : FVec Ideal S64x32x3x3 .f32) (o : Fin 64) (c : Fin 32) : Stages.r42 (F := Ideal) x w (ix2 o c) = p3 w o c := by
  show Ideal.div (-(Stages.r38 (F := Ideal) x w (ix2 o c))) (Stages.r41 (F := Ideal) x w (ix2 o c)) = _
  rw [r38_at, r41_at]; rfl

/-! ## The coefficients broadcast over batch and plane -/

theorem bp0_at (x : FVec Ideal S2x32x56x56 .f32) (w : FVec Ideal S64x32x3x3 .f32) (n : Fin 2) (o : Fin 64) (c : Fin 32) (i j : Fin 58) :
    Stages.r68 (F := Ideal) x w (ix5 n o c i j) = p0 w o c := by
  unfold Stages.r68 Stages.r67
  exact Eq.trans (coef_at (Stages.r5 (F := Ideal) x w) _ _ n o c i j) (p0_at x w o c)

theorem bp1_at (x : FVec Ideal S2x32x56x56 .f32) (w : FVec Ideal S64x32x3x3 .f32) (n : Fin 2) (o : Fin 64) (c : Fin 32) (i j : Fin 58) :
    Stages.r74 (F := Ideal) x w (ix5 n o c i j) = p1 w o c := by
  unfold Stages.r74 Stages.r73
  exact Eq.trans (coef_at (Stages.r11 (F := Ideal) x w) _ _ n o c i j) (p1_at x w o c)

theorem bp2_at (x : FVec Ideal S2x32x56x56 .f32) (w : FVec Ideal S64x32x3x3 .f32) (n : Fin 2) (o : Fin 64) (c : Fin 32) (i j : Fin 58) :
    Stages.r80 (F := Ideal) x w (ix5 n o c i j) = p2 w o c := by
  unfold Stages.r80 Stages.r79
  exact Eq.trans (coef_at (Stages.r36 (F := Ideal) x w) _ _ n o c i j) (p2_at x w o c)

theorem bp3_at (x : FVec Ideal S2x32x56x56 .f32) (w : FVec Ideal S64x32x3x3 .f32) (n : Fin 2) (o : Fin 64) (c : Fin 32) (i j : Fin 58) :
    Stages.r86 (F := Ideal) x w (ix5 n o c i j) = p3 w o c := by
  unfold Stages.r86 Stages.r85
  exact Eq.trans (coef_at (Stages.r42 (F := Ideal) x w) _ _ n o c i j) (p3_at x w o c)

theorem bu0_at (x : FVec Ideal S2x32x56x56 .f32) (w : FVec Ideal S64x32x3x3 .f32) (n : Fin 2) (o : Fin 64) (c : Fin 32) (i j : Fin 58) :
    Stages.r95 (F := Ideal) x w (ix5 n o c i j) = u0 w o c := by
  unfold Stages.r95 Stages.r94
  exact Eq.trans (coef_at (Stages.r44 (F := Ideal) x w) _ _ n o c i j) (r44_at x w o c)

theorem bu1_at (x : FVec Ideal S2x32x56x56 .f32) (w : FVec Ideal S64x32x3x3 .f32) (n : Fin 2) (o : Fin 64) (c : Fin 32) (i j : Fin 58) :
    Stages.r100 (F := Ideal) x w (ix5 n o c i j) = u1 w o c := by
  unfold Stages.r100 Stages.r99
  exact Eq.trans (coef_at (Stages.r46 (F := Ideal) x w) _ _ n o c i j) (r46_at x w o c)

theorem bu2_at (x : FVec Ideal S2x32x56x56 .f32) (w : FVec Ideal S64x32x3x3 .f32) (n : Fin 2) (o : Fin 64) (c : Fin 32) (i j : Fin 58) :
    Stages.r104 (F := Ideal) x w (ix5 n o c i j) = u2 w o c := by
  unfold Stages.r104 Stages.r103
  exact Eq.trans (coef_at (Stages.r48 (F := Ideal) x w) _ _ n o c i j) (r48_at x w o c)

theorem bu3_at (x : FVec Ideal S2x32x56x56 .f32) (w : FVec Ideal S64x32x3x3 .f32) (n : Fin 2) (o : Fin 64) (c : Fin 32) (i j : Fin 58) :
    Stages.r108 (F := Ideal) x w (ix5 n o c i j) = u3 w o c := by
  unfold Stages.r108 Stages.r107
  exact Eq.trans (coef_at (Stages.r50 (F := Ideal) x w) _ _ n o c i j) (r50_at x w o c)

theorem bu4_at (x : FVec Ideal S2x32x56x56 .f32) (w : FVec Ideal S64x32x3x3 .f32) (n : Fin 2) (o : Fin 64) (c : Fin 32) (i j : Fin 58) :
    Stages.r112 (F := Ideal) x w (ix5 n o c i j) = u4 w o c := by
  unfold Stages.r112 Stages.r111
  exact Eq.trans (coef_at (Stages.r52 (F := Ideal) x w) _ _ n o c i j) (r52_at x w o c)

end Cert.ReferenceIdeal.RefValue
end
-- ==== Proof.RefShifts.lean ====
/-
  The reference's input side, at the extended reals: the input zero-padded by one cell is the specification's
  padded read; its view with a unit channel axis; and its shifted copies. A shift by k along an axis is a slice
  that drops the first k rows (or columns) followed by a zero fill of k at the far end, so at a position whose
  moved coordinate stays below 58 it reads the padded input k further along; the zero fill is never met there.
-/
import proofs.«171278_j39032662786092_1_alg».proof.Proof.RefStages
import proofs.«171278_j39032662786092_1_alg».proof.Proof.RefRead
import proofs.«171278_j39032662786092_1_alg».proof.Proof.ConvSpec

noncomputable section

open scoped BigOperators

namespace Cert.ReferenceIdeal.RefValue

open Cert.ReferenceIdeal Cert.ReferenceIdeal.Gen Cert.ReferenceIdeal.RefRead Idealize.ShloMosaic Idealize.ShloMosaic.ValueIdx Cert.ConvSpec

/-- The first pad: the input inside rows and columns 1..56 of the 58 x 58 plane, zero on the border. -/
theorem r53_at (x : FVec Ideal S2x32x56x56 .f32) (w : FVec Ideal S64x32x3x3 .f32) (n : Fin 2) (c : Fin 32) (i j : Fin 58) :
    Stages.r53 (F := Ideal) x w (ix4 n c i j) = xpad x n c i.val j.val := by
  unfold Stages.r53
  refine Eq.trans (pad1_at x _ _ _ n c i j) ?_
  unfold xpad
  by_cases h : 1 ≤ i.val ∧ i.val ≤ 56 ∧ 1 ≤ j.val ∧ j.val ≤ 56
  · rw [dif_pos h, dif_pos h]
  · rw [dif_neg h, dif_neg h]
    exact padding_zero _

/-- The padded input viewed with a unit axis, at padded coordinates given as naturals. -/
theorem x0_at (x : FVec Ideal S2x32x56x56 .f32) (w : FVec Ideal S64x32x3x3 .f32) (n : Fin 2) (z : Fin 1) (c : Fin 32) (i j : Fin 58) (a b : Nat) (ha : i.val = a) (hb : j.val = b) :
    Stages.r54 (F := Ideal) x w (ix5 n z c i j) = xpad x n c a b := by
  subst ha hb
  unfold Stages.r54
  exact Eq.trans (view_at (Stages.r53 (F := Ideal) x w) _ n z c i j) (r53_at x w n c i j)

/-- The shift by (0, 1): away from the last column it reads the padded input one column to the right. -/
theorem s01_at (x : FVec Ideal S2x32x56x56 .f32) (w : FVec Ideal S64x32x3x3 .f32) (n : Fin 2) (z : Fin 1) (c : Fin 32) (i j : Fin 58) (a b : Nat)
    (ha : i.val = a) (hb : j.val + 1 = b) (hj : j.val + 1 < 58) :
    Stages.r56 (F := Ideal) x w (ix5 n z c i j) = xpad x n c a b := by
  unfold Stages.r56 Stages.r55
  exact Eq.trans (shiftW1_at (Stages.r54 (F := Ideal) x w) _ _ _ _ n z c i j ⟨j.val + 1, hj⟩ rfl)
    (x0_at x w n z c i ⟨j.val + 1, hj⟩ a b ha hb)

/-- The shift by (1, 0): away from the last row it reads the padded input one row down. -/
theorem s10_at (x : FVec Ideal S2x32x56x56 .f32) (w : FVec Ideal S64x32x3x3 .f32) (n : Fin 2) (z : Fin 1) (c : Fin 32) (i j : Fin 58) (a b : Nat)
    (ha : i.val + 1 = a) (hb : j.val = b) (hi : i.val + 1 < 58) :
    Stages.r58 (F := Ideal) x w (ix5 n z c i j) = xpad x n c a b := by
  unfold Stages.r58 Stages.r57
  exact Eq.trans (shiftH1_at (Stages.r54 (F := Ideal) x w) _ _ _ _ n z c i j ⟨i.val + 1, hi⟩ rfl)
    (x0_at x w n z c ⟨i.val + 1, hi⟩ j a b ha hb)

/-- The same shift by (1, 0), as the program computes it a second time. -/
theorem s10b_at (x : FVec Ideal S2x32x56x56 .f32) (w : FVec Ideal S64x32x3x3 .f32) (n : Fin 2) (z : Fin 1) (c : Fin 32) (i j : Fin 58) (a b : Nat)
    (ha : i.val + 1 = a) (hb : j.val = b) (hi : i.val + 1 < 58) :
    Stages.r60 (F := Ideal) x w (ix5 n z c i j) = xpad x n c a b := by
  unfold Stages.r60 Stages.r59
  exact Eq.trans (shiftH1_at (Stages.r54 (F := Ideal) x w) _ _ _ _ n z c i j ⟨i.val + 1, hi⟩ rfl)
    (x0_at x w n z c ⟨i.val + 1, hi⟩ j a b ha hb)

/-- The shift by (1, 1): the shift by (1, 0) moved one column. -/
theorem s11_at (x : FVec Ideal S2x32x56x56 .f32) (w : FVec Ideal S64x32x3x3 .f32) (n : Fin 2) (z : Fin 1) (c : Fin 32) (i j : Fin 58) (a b : Nat)
    (ha : i.val + 1 = a) (hb : j.val + 1 = b) (hi : i.val + 1 < 58) (hj : j.val + 1 < 58) :
    Stages.r62 (F := Ideal) x w (ix5 n z c i j) = xpad x n c a b := by
  unfold Stages.r62 Stages.r61
  exact Eq.trans (shiftW1_at (Stages.r60 (F := Ideal) x w) _ _ _ _ n z c i j ⟨j.val + 1, hj⟩ rfl)
    (s10b_at x w n z c i ⟨j.val + 1, hj⟩ a b ha hb hi)

/-- The shift by (2, 0) of the padded input. -/
theorem s20_at (x : FVec Ideal S2x32x56x56 .f32) (w : FVec Ideal S64x32x3x3 .f32) (n : Fin 2) (z : Fin 1) (c : Fin 32) (i j : Fin 58) (a b : Nat)
    (ha : i.val + 2 = a) (hb : j.val = b) (hi : i.val + 2 < 58) :
    Stages.r64 (F := Ideal) x w (ix5 n z c i j) = xpad x n c a b := by
  unfold Stages.r64 Stages.r63
  exact Eq.trans (shiftH2_at (Stages.r54 (F := Ideal) x w) _ _ _ _ n z c i j ⟨i.val + 2, hi⟩ rfl)
    (x0_at x w n z c ⟨i.val + 2, hi⟩ j a b ha hb)

/-- The shift by (2, 2): the shift by (2, 0) moved two columns. -/
theorem s22_at (x : FVec Ideal S2x32x56x56 .f32) (w : FVec Ideal S64x32x3x3 .f32) (n : Fin 2) (z : Fin 1) (c : Fin 32) (i j : Fin 58) (a b : Nat)
    (ha : i.val + 2 = a) (hb : j.val + 2 = b) (hi : i.val + 2 < 58) (hj : j.val + 2 < 58) :
    Stages.r66 (F := Ideal) x w (ix5 n z c i j) = xpad x n c a b := by
  unfold Stages.r66 Stages.r65
  exact Eq.trans (shiftW2_at (Stages.r64 (F := Ideal) x w) _ _ _ _ n z c i j ⟨j.val + 2, hj⟩ rfl)
    (s20_at x w n z c i ⟨j.val + 2, hj⟩ a b ha hb hi)

end Cert.ReferenceIdeal.RefValue
end
-- ==== Proof.RefValue.lean ====
/-
  The reference's result is the specification's refOut. Over the padded plane, index by index at the extended
  reals: the predict steps x1 = S(0,1) - p0 x0, x2 = S(1,0) - p1 x0, x3 = (S(1,1) - p2 x0) - p3 S(2,2) of the
  padded input x0 and its shifted copies; the second shifts of x1 by (2,0) and of x2 by (0,2); the update sum
  x0 + u0 x1 + u1 x1' + u2 x2 + u3 x2' + u4 x3 in the program's grouping; the crop to 56 x 56; the sum over the
  input channels from a zero initial value. At a cropped position (h, v), h, v < 56, every shifted read is at
  padded coordinates (h + a, v + b) with a, b at most 2, inside the 58 x 58 plane, so no zero fill of a shift is
  met: these are the only inequalities used.
-/
import proofs.«171278_j39032662786092_1_alg».proof.Proof.RefWeights
import proofs.«171278_j39032662786092_1_alg».proof.Proof.RefShifts

noncomputable section

open scoped BigOperators

namespace Cert.ReferenceIdeal.RefValue

open Cert.ReferenceIdeal Cert.ReferenceIdeal.Gen Cert.ReferenceIdeal.RefRead Idealize.ShloMosaic Idealize.ShloMosaic.ValueIdx Cert.ConvSpec

/-! ## The padded input and its shifts broadcast over the output channels -/

theorem bx0a_at (x : FVec Ideal S2x32x56x56 .f32) (w : FVec Ideal S64x32x3x3 .f32) (n : Fin 2) (o : Fin 64) (c : Fin 32) (i j : Fin 58) (a b : Nat) (ha : i.val = a) (hb : j.val = b) :
    Stages.r69 (F := Ideal) x w (ix5 n o c i j) = xpad x n c a b := by
  unfold Stages.r69
  exact Eq.trans (chan_at (Stages.r54 (F := Ideal) x w) _ n o c i j) (x0_at x w n 0 c i j a b ha hb)

theorem bx0b_at (x : FVec Ideal S2x32x56x56 .f32) (w : FVec Ideal S64x32x3x3 .f32) (n : Fin 2) (o : Fin 64) (c : Fin 32) (i j : Fin 58) (a b : Nat) (ha : i.val = a) (hb : j.val = b) :
    Stages.r75 (F := Ideal) x w (ix5 n o c i j) = xpad x n c a b := by
  unfold Stages.r75
  exact Eq.trans (chan_at (Stages.r54 (F := Ideal) x w) _ n o c i j) (x0_at x w n 0 c i j a b ha hb)

theorem bx0c_at (x : FVec Ideal S2x32x56x56 .f32) (w : FVec Ideal S64x32x3x3 .f32) (n : Fin 2) (o : Fin 64) (c : Fin 32) (i j : Fin 58) (a b : Nat) (ha : i.val = a) (hb : j.val = b) :
    Stages.r81 (F := Ideal) x w (ix5 n o c i j) = xpad x n c a b := by
  unfold Stages.r81
  exact Eq.trans (chan_at (Stages.r54 (F := Ideal) x w) _ n o c i j) (x0_at x w n 0 c i j a b ha hb)

theorem bx0d_at (x : FVec Ideal S2x32x56x56 .f32) (w : FVec Ideal S64x32x3x3 .f32) (n : Fin 2) (o : Fin 64) (c : Fin 32) (i j : Fin 58) (a b : Nat) (ha : i.val = a) (hb : j.val = b) :
    Stages.r97 (F := Ideal) x w (ix5 n o c i j) = xpad x n c a b := by
  unfold Stages.r97
  exact Eq.trans (chan_at (Stages.r54 (F := Ideal) x w) _ n o c i j) (x0_at x w n 0 c i j a b ha hb)

theorem bs01_at (x : FVec Ideal S2x32x56x56 .f32) (w : FVec Ideal S64x32x3x3 .f32) (n : Fin 2) (o : Fin 64) (c : Fin 32) (i j : Fin 58) (a b : Nat)
    (ha : i.val = a) (hb : j.val + 1 = b) (hj : j.val + 1 < 58) :
    Stages.r71 (F := Ideal) x w (ix5 n o c i j) = xpad x n c a b := by
  unfold Stages.r71
  exact Eq.trans (chan_at (Stages.r56 (F := Ideal) x w) _ n o c i j) (s01_at x w n 0 c i j a b ha hb hj)

theorem bs10_at (x : FVec Ideal S2x32x56x56 .f32) (w : FVec Ideal S64x32x3x3 .f32) (n : Fin 2) (o : Fin 64) (c : Fin 32) (i j : Fin 58) (a b : Nat)
    (ha : i.val + 1 = a) (hb : j.val = b) (hi : i.val + 1 < 58) :
    Stages.r77 (F := Ideal) x w (ix5 n o c i j) = xpad x n c a b := by
  unfold Stages.r77
  exact Eq.trans (chan_at (Stages.r58 (F := Ideal) x w) _ n o c i j) (s10_at x w n 0 c i j a b ha hb hi)

theorem bs11_at (x : FVec Ideal S2x32x56x56 .f32) (w : FVec Ideal S64x32x3x3 .f32) (n : Fin 2) (o : Fin 64) (c : Fin 32) (i j : Fin 58) (a b : Nat)
    (ha : i.val + 1 = a) (hb : j.val + 1 = b) (hi : i.val + 1 < 58) (hj : j.val + 1 < 58) :
    Stages.r83 (F := Ideal) x w (ix5 n o c i j) = xpad x n c a b := by
  unfold Stages.r83
  exact Eq.trans (chan_at (Stages.r62 (F := Ideal) x w) _ n o c i j) (s11_at x w n 0 c i j a b ha hb hi hj)

theorem bs22_at (x : FVec Ideal S2x32x56x56 .f32) (w : FVec Ideal S64x32x3x3 .f32) (n : Fin 2) (o : Fin 64) (c : Fin 32) (i j : Fin 58) (a b : Nat)
    (ha : i.val + 2 = a) (hb : j.val + 2 = b) (hi : i.val + 2 < 58) (hj : j.val + 2 < 58) :
    Stages.r87 (F := Ideal) x w (ix5 n o c i j) = xpad x n c a b := by
  unfold Stages.r87
  exact Eq.trans (chan_at (Stages.r66 (F := Ideal) x w) _ n o c i j) (s22_at x w n 0 c i j a b ha hb hi hj)

/-! ## The predict steps -/

/-- x1 = S(0,1) - p0 x0, where the shifted read stays inside the plane. -/
theorem x1_at (x : FVec Ideal S2x32x56x56 .f32) (w : FVec Ideal S64x32x3x3 .f32) (n : Fin 2) (o : Fin 64) (c : Fin 32) (i j : Fin 58) (a b b1 : Nat)
    (ha : i.val = a) (hb : j.val = b) (hb1 : j.val + 1 = b1) (hj : j.val + 1 < 58) :
    Stages.r72 (F := Ideal) x w (ix5 n o c i j) = xpad x n c a b1 - p0 w o c * xpad x n c a b := by
  show Stages.r71 (F := Ideal) x w (ix5 n o c i j) - Stages.r68 (F := Ideal) x w (ix5 n o c i j) * Stages.r69 (F := Ideal) x w (ix5 n o c i j) = _
  rw [bs01_at x w n o c i j a b1 ha hb1 hj, bp0_at, bx0a_at x w n o c i j a b ha hb]

/-- x2 = S(1,0) - p1 x0. -/
theorem x2_at (x : FVec Ideal S2x32x56x56 .f32) (w : FVec Ideal S64x32x3x3 .f32) (n : Fin 2) (o : Fin 64) (c : Fin 32) (i j : Fin 58) (a a1 b : Nat)
    (ha : i.val = a) (ha1 : i.val + 1 = a1) (hb : j.val = b) (hi : i.val + 1 < 58) :
    Stages.r78 (F := Ideal) x w (ix5 n o c i j) = xpad x n c a1 b - p1 w o c * xpad x n c a b := by
  show Stages.r77 (F := Ideal) x w (ix5 n o c i j) - Stages.r74 (F := Ideal) x w (ix5 n o c i j) * Stages.r75 (F := Ideal) x w (ix5 n o c i j) = _
  rw [bs10_at x w n o c i j a1 b ha1 hb hi, bp1_at, bx0b_at x w n o c i j a b ha hb]

/-- x3 = (S(1,1) - p2 x0) - p3 S(2,2). -/
theorem x3_at (x : FVec Ideal S2x32x56x56 .f32) (w : FVec Ideal S64x32x3x3 .f32) (n : Fin 2) (o : Fin 64) (c : Fin 32) (i j : Fin 58) (a a1 a2 b b1 b2 : Nat)
    (ha : i.val = a) (ha1 : i.val + 1 = a1) (ha2 : i.val + 2 = a2) (hb : j.val = b) (hb1 : j.val + 1 = b1) (hb2 : j.val + 2 = b2)
    (hi : i.val + 2 < 58) (hj : j.val + 2 < 58) :
    Stages.r89 (F := Ideal) x w (ix5 n o c i j) = (xpad x n c a1 b1 - p2 w o c * xpad x n c a b) - p3 w o c * xpad x n c a2 b2 := by
  show (Stages.r83 (F := Ideal) x w (ix5 n o c i j) - Stages.r80 (F := Ideal) x w (ix5 n o c i j) * Stages.r81 (F := Ideal) x w (ix5 n o c i j)) - Stages.r86 (F := Ideal) x w (ix5 n o c i j) * Stages.r87 (F := Ideal) x w (ix5 n o c i j) = _
  rw [bs11_at x w n o c i j a1 b1 ha1 hb1 (by omega) (by omega), bp2_at, bx0c_at x w n o c i j a b ha hb, bp3_at,
    bs22_at x w n o c i j a2 b2 ha2 hb2 hi hj]

/-! ## The second shifts, of the predicted planes -/

/-- x1 shifted by (2, 0). -/
theorem x1s_at (x : FVec Ideal S2x32x56x56 .f32) (w : FVec Ideal S64x32x3x3 .f32) (n : Fin 2) (o : Fin 64) (c : Fin 32) (i j : Fin 58) (a2 b b1 : Nat)
    (ha2 : i.val + 2 = a2) (hb : j.val = b) (hb1 : j.val + 1 = b1) (hi : i.val + 2 < 58) (hj : j.val + 1 < 58) :
    Stages.r91 (F := Ideal) x w (ix5 n o c i j) = xpad x n c a2 b1 - p0 w o c * xpad x n c a2 b := by
  unfold Stages.r91 Stages.r90
  exact Eq.trans (shiftH2o_at (Stages.r72 (F := Ideal) x w) _ _ _ _ n o c i j ⟨i.val + 2, hi⟩ rfl)
    (x1_at x w n o c ⟨i.val + 2, hi⟩ j a2 b b1 ha2 hb hb1 hj)

/-- x2 shifted by (0, 2). -/
theorem x2s_at (x : FVec Ideal S2x32x56x56 .f32) (w : FVec Ideal S64x32x3x3 .f32) (n : Fin 2) (o : Fin 64) (c : Fin 32) (i j : Fin 58) (a a1 b2 : Nat)
    (ha : i.val = a) (ha1 : i.val + 1 = a1) (hb2 : j.val + 2 = b2) (hi : i.val + 1 < 58) (hj : j.val + 2 < 58) :
    Stages.r93 (F := Ideal) x w (ix5 n o c i j) = xpad x n c a1 b2 - p1 w o c * xpad x n c a b2 := by
  unfold Stages.r93 Stages.r92
  exact Eq.trans (shiftW2o_at (Stages.r78 (F := Ideal) x w) _ _ _ _ n o c i j ⟨j.val + 2, hj⟩ rfl)
    (x2_at x w n o c i ⟨j.val + 2, hj⟩ a a1 b2 ha ha1 hb2 hi)

/-! ## The update steps, the crop and the channel sum -/

/-- The updated plane at a position the crop keeps: the lifting scheme of the specification. -/
theorem out_at (x : FVec Ideal S2x32x56x56 .f32) (w : FVec Ideal S64x32x3x3 .f32) (n : Fin 2) (o : Fin 64) (c : Fin 32) (i j : Fin 58) (h v : Fin 56)
    (hi : i.val = h.val) (hj : j.val = v.val) :
    Stages.r114 (F := Ideal) x w (ix5 n o c i j) = lift x w n o h v c := by
  have hh := h.isLt
  have hv := v.isLt
  show ((((Stages.r97 (F := Ideal) x w (ix5 n o c i j) + Stages.r95 (F := Ideal) x w (ix5 n o c i j) * Stages.r72 (F := Ideal) x w (ix5 n o c i j))
      + Stages.r100 (F := Ideal) x w (ix5 n o c i j) * Stages.r91 (F := Ideal) x w (ix5 n o c i j))
      + Stages.r104 (F := Ideal) x w (ix5 n o c i j) * Stages.r78 (F := Ideal) x w (ix5 n o c i j))
      + Stages.r108 (F := Ideal) x w (ix5 n o c i j) * Stages.r93 (F := Ideal) x w (ix5 n o c i j))
      + Stages.r112 (F := Ideal) x w (ix5 n o c i j) * Stages.r89 (F := Ideal) x w (ix5 n o c i j) = _
  rw [bu0_at, bu1_at, bu2_at, bu3_at, bu4_at,
    bx0d_at x w n o c i j (h.val + 0) (v.val + 0) (by omega) (by omega),
    x1_at x w n o c i j (h.val + 0) (v.val + 0) (v.val + 1) (by omega) (by omega) (by omega) (by omega),
    x1s_at x w n o c i j (h.val + 2) (v.val + 0) (v.val + 1) (by omega) (by omega) (by omega) (by omega) (by omega),
    x2_at x w n o c i j (h.val + 0) (h.val + 1) (v.val + 0) (by omega) (by omega) (by omega) (by omega),
    x2s_at x w n o c i j (h.val + 0) (h.val + 1) (v.val + 2) (by omega) (by omega) (by omega) (by omega) (by omega),
    x3_at x w n o c i j (h.val + 0) (h.val + 1) (h.val + 2) (v.val + 0) (v.val + 1) (v.val + 2)
      (by omega) (by omega) (by omega) (by omega) (by omega) (by omega) (by omega) (by omega)]
  rfl

/-- One term of the channel sum: the crop reads the updated plane at the same coordinates. -/
theorem lift_at (x : FVec Ideal S2x32x56x56 .f32) (w : FVec Ideal S64x32x3x3 .f32) (n : Fin 2) (o : Fin 64) (h v : Fin 56) (c : Fin 32) :
    Stages.r115 (F := Ideal) x w (ix5 n o c h v) = lift x w n o h v c := by
  have hh := h.isLt
  have hv := v.isLt
  unfold Stages.r115
  exact Eq.trans (crop_at (Stages.r114 (F := Ideal) x w) _ n o c h v ⟨h.val, by omega⟩ ⟨v.val, by omega⟩ rfl rfl)
    (out_at x w n o c ⟨h.val, by omega⟩ ⟨v.val, by omega⟩ h v rfl rfl)

/-- The reference's result, as a function of the two argument arrays, is the specification's: index by index the
    lifting scheme summed over the input channels (the sum's initial value is the zero word, and 0 + s = s on the
    extended reals). -/
theorem result_eq (x : FVec Ideal S2x32x56x56 .f32) (w : FVec Ideal S64x32x3x3 .f32) :
    Stages.r116 (F := Ideal) x w = refOut x w := by
  funext i
  obtain ⟨n, o, h, v, rfl⟩ : ∃ (n : Fin 2) (o : Fin 64) (h v : Fin 56), i = ix4 n o h v := ⟨i 0, i 1, i 2, i 3, eq_ix4 i⟩
  unfold Stages.r116
  refine Eq.trans (chansum_at (Stages.r115 (F := Ideal) x w) _ _ _ n o h v) ?_
  rw [show ∀ k, Stages.r_cst_8 (F := Ideal) x w k = 0 from fun _ => Ideal.ofBits_zero_f32, zero_add]
  show _ = ∑ c : Fin 32, lift x w n o h v c
  exact Finset.sum_congr rfl fun c _ => lift_at x w n o h v c

end Cert.ReferenceIdeal.RefValue
end
-- ==== Proof.ConvAlgebra.lean ====
/-
  The kernel's nine folded products equal the reference's lifting scheme, entry by entry, on the domain Dom.

  On Dom every input and weight entry is a real number and each divisor is a nonzero real, so each predict
  coefficient (a quotient) is again a real number, and so is each padded read of the input (an entry or 0).
  The nine sums over the input channels combine into one sum of nine-term expressions; channel by channel both
  sides are then polynomial expressions in real numbers, equal by the laws of a commutative ring:

    X00 (1 - u0 p0 - u2 p1 - u4 p2) + u0 X01 - u3 p1 X02 + u2 X10 + u4 X11 + u3 X12 - u1 p0 X20 + u1 X21 - u4 p3 X22
      = X00 + u0 (X01 - p0 X00) + u1 (X21 - p0 X20) + u2 (X10 - p1 X00) + u3 (X12 - p1 X02)
          + u4 ((X11 - p2 X00) - p3 X22).

  The passage through the reals is needed because multiplication does not distribute over addition at the
  infinities of the extended reals.
-/
import proofs.«171278_j39032662786092_1_alg».proof.Proof.ConvSpec

noncomputable section

open scoped BigOperators

namespace Cert.ConvSpec

open Idealize.ShloMosaic Idealize.ShloMosaic.ValueIdx

/-! ## Extended reals that are real numbers -/

/-- The extended real a is (the coercion of) a real number. -/
def IsR (a : EReal) : Prop := ∃ r : ℝ, a = (r : EReal)

theorem IsR.of_ne {a : EReal} (h : a ≠ ⊤ ∧ a ≠ ⊥) : IsR a :=
  ⟨a.toReal, (EReal.coe_toReal h.1 h.2).symm⟩

theorem IsR.zero : IsR 0 := ⟨0, EReal.coe_zero.symm⟩

theorem IsR.add {a b : EReal} (ha : IsR a) (hb : IsR b) : IsR (a + b) := by
  obtain ⟨r, rfl⟩ := ha
  obtain ⟨s, rfl⟩ := hb
  exact ⟨r + s, (EReal.coe_add r s).symm⟩

theorem IsR.sub {a b : EReal} (ha : IsR a) (hb : IsR b) : IsR (a - b) := by
  obtain ⟨r, rfl⟩ := ha
  obtain ⟨s, rfl⟩ := hb
  exact ⟨r - s, (EReal.coe_sub r s).symm⟩

theorem IsR.mul {a b : EReal} (ha : IsR a) (hb : IsR b) : IsR (a * b) := by
  obtain ⟨r, rfl⟩ := ha
  obtain ⟨s, rfl⟩ := hb
  exact ⟨r * s, (EReal.coe_mul r s).symm⟩

theorem IsR.neg {a : EReal} (ha : IsR a) : IsR (-a) := by
  obtain ⟨r, rfl⟩ := ha
  exact ⟨-r, (EReal.coe_neg r).symm⟩

/-- A quotient of real numbers with nonzero divisor is a real number. -/
theorem IsR.div {a b : EReal} (ha : IsR a) (hb : IsR b) (h0 : b ≠ 0) : IsR (Ideal.div a b) := by
  obtain ⟨r, rfl⟩ := ha
  obtain ⟨s, rfl⟩ := hb
  have hs : s ≠ 0 := by
    intro h
    apply h0
    rw [h, EReal.coe_zero]
  rw [Ideal.div_coe hs]
  exact ⟨r * (1 / s), (EReal.coe_mul r (1 / s)).symm⟩

/-- The f32 word 0x3F800000 denotes the number 1. -/
theorem one_eq : one = ((1 : ℝ) : EReal) := by
  show Ideal.ofBits .f32 0x3F800000#32 = ((1 : ℝ) : EReal)
  rw [EReal.coe_one]
  simp [Ideal.ofBits, Ideal.ieee, -EReal.coe_mul]
  norm_num

theorem IsR.one : IsR one := ⟨1, one_eq⟩

/-! ## The pieces of the specification are real numbers on Dom -/

section pieces

variable {x : XS.Idx → EReal} {w : WS.Idx → EReal} (hd : Dom x w)
include hd

theorem wt_isR (o : Fin 64) (c : Fin 32) (a b : Fin 3) : IsR (wt w o c a b) :=
  IsR.of_ne (hd.wfin _)

theorem xpad_isR (n : Fin 2) (c : Fin 32) (i j : Nat) : IsR (xpad x n c i j) := by
  unfold xpad
  split_ifs
  · exact IsR.of_ne (hd.xfin _)
  · exact IsR.zero

theorem p0_isR (o : Fin 64) (c : Fin 32) : IsR (p0 w o c) :=
  IsR.div (wt_isR hd o c 2 0).neg (wt_isR hd o c 2 1) (hd.d21 o c)

theorem p1_isR (o : Fin 64) (c : Fin 32) : IsR (p1 w o c) :=
  IsR.div (wt_isR hd o c 0 2).neg (wt_isR hd o c 1 2) (hd.d12 o c)

theorem p2_isR (o : Fin 64) (c : Fin 32) : IsR (p2 w o c) :=
  IsR.div
    (((IsR.one.sub (wt_isR hd o c 0 0)).add
        (IsR.div ((wt_isR hd o c 2 0).mul (wt_isR hd o c 0 1)) (wt_isR hd o c 2 1) (hd.d21 o c))).add
      (IsR.div ((wt_isR hd o c 0 2).mul (wt_isR hd o c 1 0)) (wt_isR hd o c 1 2) (hd.d12 o c)))
    (wt_isR hd o c 1 1) (hd.d11 o c)

theorem p3_isR (o : Fin 64) (c : Fin 32) : IsR (p3 w o c) :=
  IsR.div (wt_isR hd o c 2 2).neg (wt_isR hd o c 1 1) (hd.d11 o c)

end pieces

/-! ## One input channel: the polynomial identity over the reals -/

/-- The nine folded terms of one channel equal the lifting scheme's value for that channel, when every
    quantity involved is a real number. -/
theorem channel_identity (X00 X01 X02 X10 X11 X12 X20 X21 X22 q0 q1 q2 q3 v0 v1 v2 v3 v4 : ℝ) :
    (((((((((((((1 : ℝ) : EReal) - (v0 : EReal) * q0) - (v2 : EReal) * q1) - (v4 : EReal) * q2) * (X00 : EReal)
        + (v0 : EReal) * X01) + ((-(v3 : EReal)) * q1) * X02) + (v2 : EReal) * X10) + (v4 : EReal) * X11)
        + (v3 : EReal) * X12) + ((-(v1 : EReal)) * q0) * X20) + (v1 : EReal) * X21) + ((-(v4 : EReal)) * q3) * X22)
      = ((((((X00 : EReal) + (v0 : EReal) * ((X01 : EReal) - (q0 : EReal) * X00))
          + (v1 : EReal) * ((X21 : EReal) - (q0 : EReal) * X20))
          + (v2 : EReal) * ((X10 : EReal) - (q1 : EReal) * X00))
          + (v3 : EReal) * ((X12 : EReal) - (q1 : EReal) * X02))
          + (v4 : EReal) * (((X11 : EReal) - (q2 : EReal) * X00) - (q3 : EReal) * X22)) := by
  norm_cast
  ring

/-! ## The theorem -/

theorem kerOut_eq_refOut (x : XS.Idx → EReal) (w : WS.Idx → EReal) (hd : Dom x w) : kerOut x w = refOut x w := by
  funext i
  simp only [kerOut, refOut, tap]
  simp only [← Finset.sum_add_distrib]
  refine Finset.sum_congr rfl (fun c _ => ?_)
  obtain ⟨X00, h00⟩ := xpad_isR hd (i 0) c ((i 2).val + 0) ((i 3).val + 0)
  obtain ⟨X01, h01⟩ := xpad_isR hd (i 0) c ((i 2).val + 0) ((i 3).val + 1)
  obtain ⟨X02, h02⟩ := xpad_isR hd (i 0) c ((i 2).val + 0) ((i 3).val + 2)
  obtain ⟨X10, h10⟩ := xpad_isR hd (i 0) c ((i 2).val + 1) ((i 3).val + 0)
  obtain ⟨X11, h11⟩ := xpad_isR hd (i 0) c ((i 2).val + 1) ((i 3).val + 1)
  obtain ⟨X12, h12⟩ := xpad_isR hd (i 0) c ((i 2).val + 1) ((i 3).val + 2)
  obtain ⟨X20, h20⟩ := xpad_isR hd (i 0) c ((i 2).val + 2) ((i 3).val + 0)
  obtain ⟨X21, h21⟩ := xpad_isR hd (i 0) c ((i 2).val + 2) ((i 3).val + 1)
  obtain ⟨X22, h22⟩ := xpad_isR hd (i 0) c ((i 2).val + 2) ((i 3).val + 2)
  obtain ⟨q0, hq0⟩ := p0_isR hd (i 1) c
  obtain ⟨q1, hq1⟩ := p1_isR hd (i 1) c
  obtain ⟨q2, hq2⟩ := p2_isR hd (i 1) c
  obtain ⟨q3, hq3⟩ := p3_isR hd (i 1) c
  obtain ⟨v0, hv0⟩ := wt_isR hd (i 1) c 0 1
  obtain ⟨v1, hv1⟩ := wt_isR hd (i 1) c 2 1
  obtain ⟨v2, hv2⟩ := wt_isR hd (i 1) c 1 0
  obtain ⟨v3, hv3⟩ := wt_isR hd (i 1) c 1 2
  obtain ⟨v4, hv4⟩ := wt_isR hd (i 1) c 1 1
  simp only [coef, lift, u0, u1, u2, u3, u4, h00, h01, h02, h10, h11, h12, h20, h21, h22, hq0, hq1, hq2, hq3,
    hv0, hv1, hv2, hv3, hv4, one_eq]
  exact channel_identity X00 X01 X02 X10 X11 X12 X20 X21 X22 q0 q1 q2 q3 v0 v1 v2 v3 v4

end Cert.ConvSpec

end
-- ==== Proof.PreDecode.lean ====
/-
  The printed precondition, read back entry by entry.

  The precondition is the conjunction of five statements, each a conjunction over all entries of an array:
  |x| < +∞ at every entry of the input, |w| < +∞ at every entry of the weight, and w ≠ 0 at every entry of the
  three slices [.., 2, 1], [.., 1, 2], [.., 1, 1] of the weight. Over the extended reals the absolute value is
  max a (-a), which is below +∞ exactly when a is neither +∞ nor -∞; the f32 word 0x7F800000 denotes +∞ and the
  word 0 denotes the number 0. A conjunction over all entries that holds gives its statement at each entry, and
  the slice with offsets (0, 0, a, b) read at (o, c, 0, 0) is the weight at (o, c, a, b). These are the five
  fields of Dom.
-/
import proofs.«171278_j39032662786092_1_alg».proof.Proof.ConvSpec
import proofs.«171278_j39032662786092_1_alg».proof.Proof.Gen.Pre_finite_inputs
import Idealize.ShloMosaic.Lib.ReduceAll
import Idealize.ShloMosaic.Lib.IdealHost
import Idealize.ShloMosaic.Lib.Pipeline.Value

noncomputable section

namespace Cert.PreDecode

open Idealize.ShloMosaic Idealize.ShloMosaic.ValueIdx
open Cert.Pre_finite_inputs

/-- The rank-0 shape has one index. -/
instance : Subsingleton S_.Idx := ⟨fun a b => funext fun d => d.elim0⟩

theorem ofBool_eq_one (b : Bool) : BitVec.ofBool b = 1#1 ↔ b = true := by cases b <;> decide

/-- An extended real whose absolute value max a (-a) is below +∞ (the f32 word 0x7F800000) is a real number. -/
theorem ne_of_abs_lt (a : EReal)
    (h : Ideal.cmp .olt (max a (-a)) (Ideal.ofBits .f32 0x7F800000#32) = 1#1) : a ≠ ⊤ ∧ a ≠ ⊥ := by
  have htop : Ideal.ofBits .f32 0x7F800000#32 = ⊤ := by simp [Ideal.ofBits, Ideal.ieee]
  rw [htop] at h
  simp only [Ideal.cmp, ofBool_eq_one, decide_eq_true_eq] at h
  rw [max_lt_iff] at h
  constructor
  · rintro rfl
    exact lt_irrefl _ h.1
  · rintro rfl
    rw [EReal.neg_bot] at h
    exact lt_irrefl _ h.2

/-- An extended real that compares unequal to the f32 word 0 is not the number 0. -/
theorem ne_zero_of_une (a : EReal) (h : Ideal.cmp .une a (Ideal.ofBits .f32 0x00000000#32) = 1#1) : a ≠ 0 := by
  rw [Ideal.ofBits_zero_f32] at h
  simpa only [Ideal.cmp, ofBool_eq_one, decide_eq_true_eq] using h

/-- The slice of the weight with offsets (0, 0, a, b), read at (o, c, 0, 0), is the weight at (o, c, a, b). -/
theorem slice_apply (w : S64x32x3x3.Idx → EReal) (a b : Fin 3)
    (hs : S64x32x3x3.Slices ![0, 0, a.val, b.val] S64x32x1x1) (o : Fin 64) (c : Fin 32) :
    extractStridedSlice S64x32x1x1 ![0, 0, a.val, b.val] w hs (ix4 o c 0 0) = w (ix4 o c a b) :=
  extractStridedSlice_apply _ _ _ _ _ fun d =>
    match d with
    | ⟨0, _⟩ => (Nat.zero_add _).symm
    | ⟨1, _⟩ => (Nat.zero_add _).symm
    | ⟨2, _⟩ => rfl
    | ⟨3, _⟩ => rfl

/-- The precondition gives the domain of the specification. -/
theorem dom_of_pre [Facts] (x : FVec Ideal S2x32x56x56 .f32) (w : FVec Ideal S64x32x3x3 .f32)
    (h : fn (F := Ideal) x w = (fun _ => 1#1)) : Cert.ConvSpec.Dom x w := by
  have e := congrFun h ix0
  dsimp only [fn, fn_part1] at e
  change IntOp.andi (IntOp.andi (IntOp.andi (IntOp.andi _ _) _) _) _ = 1#1 at e
  rw [IntOp.andi_eq_one, IntOp.andi_eq_one, IntOp.andi_eq_one, IntOp.andi_eq_one] at e
  obtain ⟨⟨⟨⟨hx, hw⟩, h21⟩, h12⟩, h11⟩ := e
  refine ⟨fun i => ?_, fun i => ?_, fun o c => ?_, fun o c => ?_, fun o c => ?_⟩
  · exact ne_of_abs_lt (x i) (Host.reduce_andi_all _ _ _ _ _ hx i)
  · exact ne_of_abs_lt (w i) (Host.reduce_andi_all _ _ _ _ _ hw i)
  · have h1 := Host.reduce_andi_all _ _ _ _ _ h21 (ix4 o c 0 0)
    refine ne_zero_of_une (w (ix4 o c 2 1)) ?_
    rw [← slice_apply w 2 1 Facts.slices_S64x32x3x3_S64x32x1x1_0_0_2_1 o c]
    exact h1
  · have h1 := Host.reduce_andi_all _ _ _ _ _ h12 (ix4 o c 0 0)
    refine ne_zero_of_une (w (ix4 o c 1 2)) ?_
    rw [← slice_apply w 1 2 Facts.slices_S64x32x3x3_S64x32x1x1_0_0_1_2 o c]
    exact h1
  · have h1 := Host.reduce_andi_all _ _ _ _ _ h11 (ix4 o c 0 0)
    refine ne_zero_of_une (w (ix4 o c 1 1)) ?_
    rw [← slice_apply w 1 1 Facts.slices_S64x32x3x3_S64x32x1x1_0_0_1_1 o c]
    exact h1

end Cert.PreDecode

end
-- ==== Proof.lean ====
/-
  The certificate of the 3x3 lifting-scheme convolution.

  The reference zero-pads the input x : [2, 32, 56, 56] by one cell, derives from weight : [64, 32, 3, 3] four predict
  coefficients (quotients by the weight entries (2,1), (1,2), (1,1)) and five update coefficients per (output channel,
  input channel), runs the predict and update steps of a lifting scheme on copies of the padded input shifted by up
  to two cells, crops, and sums over the input channels. The kernel folds the scheme into nine coefficients per
  channel pair, one per shift (dh, dw) in {0,1,2}^2, and adds nine matrix products of a [64, 32] coefficient matrix
  with the [32, 56*56] window of the padded input moved by that shift, one batch element per grid point.

  Over the extended reals the two agree where the reference's own divisions are defined: with every input entry a
  real number and the three divisor entries of weight nonzero, all coefficients are real, and per input channel the
  reference's expression expands, by distributivity over the reals, to the kernel's nine products; the sums over
  channels then agree term by term (ConvAlgebra). The kernel's side is read off its frame run block by block
  (IdealFrame, KerBlocks, KerPayload, KerHost, KerValue); the reference's side off its run, one operation at a time
  (RefStages, RefRun, RefValue); the domain off the precondition (PreDecode).
-/
import proofs.«171278_j39032662786092_1_alg».proof.Defs
import proofs.«171278_j39032662786092_1_alg».proof.Proof.BitsFrame
import proofs.«171278_j39032662786092_1_alg».proof.Proof.IdealFrame
import proofs.«171278_j39032662786092_1_alg».proof.Proof.KerValue
import proofs.«171278_j39032662786092_1_alg».proof.Proof.KerHost
import proofs.«171278_j39032662786092_1_alg».proof.Proof.RefRun
import proofs.«171278_j39032662786092_1_alg».proof.Proof.RefValue
import proofs.«171278_j39032662786092_1_alg».proof.Proof.ConvAlgebra
import proofs.«171278_j39032662786092_1_alg».proof.Proof.PreDecode
import proofs.«171278_j39032662786092_1_alg».proof.Proof.Gen.ReferenceIdeal
import proofs.«171278_j39032662786092_1_alg».proof.Proof.Gen.Pre_finite_inputs
import Idealize.ShloMosaic.Adequacy
import Idealize.ShloMosaic.Init

noncomputable section

namespace Cert.Proof

open Idealize.ShloMosaic Idealize.SL.Sem

/-- The word-level kernel runs to the end, faults nowhere, and leaves both arguments unchanged. -/
theorem frame_kernel : Cert.frame_Kernel := fun m ρ _ => Cert.Kernel.Conv.frame (F := Bits) m ρ

/-- So does its idealization. -/
theorem frame_kernelIdeal : Cert.frame_KernelIdeal := fun m ρ _ => Cert.KernelIdeal.Conv.frame (F := Ideal) m ρ

/-- So does the reference: its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments, the idealized kernel ends at the nine accumulated shifted products
    and the reference at the channel sum of the lifting scheme; on the precondition's domain these are one function
    of the arguments. -/
theorem algebraic : Cert.algebraic_KernelIdeal_ReferenceIdeal := by
  intro m ρ m' ρ' hpre hagree
  refine ⟨fun c => Cert.ConvSpec.kerOut (Cert.KernelIdeal.KerValue.argX m c) (Cert.KernelIdeal.KerValue.argW m c),
    Cert.KernelIdeal.KerValue.run m ρ (fun c => ⟨Cert.KernelIdeal.HostVal.V_main_v75_apply m c, Cert.KernelIdeal.HostVal.V_main_v76_apply m c⟩), ?_⟩
  refine (θ_run Cert.ReferenceIdeal.defs _ _).mono (fun _ h c => ⟨(h c).1.trans ?_, (h c).2⟩)
    (Cert.ReferenceIdeal.RefRun.run (F := Ideal) m' ρ')
  refine (Cert.ReferenceIdeal.RefValue.result_eq _ _).trans ?_
  rw [(hagree c).1, (hagree c).2]
  exact (Cert.ConvSpec.kerOut_eq_refOut _ _ (Cert.PreDecode.dom_of_pre _ _ (hpre c))).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
